-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x1024 : Shape := ⟨3, ![8, 64, 1024]⟩
abbrev S8x4096x1024 : Shape := ⟨3, ![8, 4096, 1024]⟩
abbrev S1024x1024 : Shape := ⟨2, ![1024, 1024]⟩
abbrev S3072x1024 : Shape := ⟨2, ![3072, 1024]⟩
abbrev S3072 : Shape := ⟨1, ![3072]⟩
abbrev S1024 : Shape := ⟨1, ![1024]⟩
abbrev S_ : Shape := ⟨0, ![]⟩

class Facts : Prop where
  bcast_S_S8x64x1024 : S_.BroadcastsInDim S8x64x1024 (![] : Fin 0 → Fin S8x64x1024.rank)
  reducesTo_S8x64x1024_S_d0_1_2 : S8x64x1024.ReducesTo [0, 1, 2] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S3072 .f32) (main_arg8 : FVec F S3072 .f32) (main_arg9 : FVec F S1024 .f32) (main_arg10 : FVec F S1024 .f32) (main_v33 : IVec S_ 1) : IVec S_ 1 :=
  let main_v34 : FVec F S3072 .f32 := Host.absf main_arg7
  let main_cst_12 : FVec F S_ .f32 := constant S_ .f32 0x7F800000#32
  let main_v35 : FVec F S3072 .f32 := broadcastInDim S3072 ![] bcast_S_S3072 main_cst_12
  let main_v36 : IVec S3072 1 := cmpf .olt main_v34 main_v35
  let main_c_13 : IVec S_ 1 := constantI S_ 1 1#1
  let main_v37 : IVec S_ 1 := (fun x v => Host.reduce IntOp.andi x v reducesTo_S3072_S_d0 h_S_) main_v36 main_c_13
  let main_v38 : IVec S_ 1 := andi main_v33 main_v37
  let main_v39 : FVec F S3072 .f32 := Host.absf main_arg8
  let main_cst_14 : FVec F S_ .f32 := constant S_ .f32 0x7F800000#32
  let main_v40 : FVec F S3072 .f32 := broadcastInDim S3072 ![] bcast_S_S3072 main_cst_14
  let main_v41 : IVec S3072 1 := cmpf .olt main_v39 main_v40
  let main_c_15 : IVec S_ 1 := constantI S_ 1 1#1
  let main_v42 : IVec S_ 1 := (fun x v => Host.reduce IntOp.andi x v reducesTo_S3072_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024x1024 .f32) (main_arg5 : FVec F S3072x1024 .f32) (main_arg6 : FVec F S3072x1024 .f32) (main_arg7 : FVec F S3072 .f32) (main_arg8 : FVec F S3072 .f32) (main_arg9 : FVec F S1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S3072x1024 .f32 := Host.absf main_arg5
  let main_cst_8 : FVec F S_ .f32 := constant S_ .f32 0x7F800000#32
  let main_v25 : FVec F S3072x1024 .f32 := broadcastInDim S3072x1024 ![] bcast_S_S3072x1024 main_cst_8
  let main_v26 : IVec S3072x1024 1 := cmpf .olt main_v24 main_v25
  let main_c_9 : IVec S_ 1 := constantI S_ 1 1#1
  let main_v27 : IVec S_ 1 := (fun x v => Host.reduce IntOp.andi x v reducesTo_S3072x1024_S_d0_1 h_S_) main_v26 main_c_9
  let main_v28 : IVec S_ 1 := andi main_v23 main_v27
  let main_v29 : FVec F S3072x1024 .f32 := Host.absf main_arg6
  let main_cst_10 : FVec F S_ .f32 := constant S_ .f32 0x7F800000#32
  let main_v30 : FVec F S3072x1024 .f32 := broadcastInDim S3072x1024 ![] bcast_S_S3072x1024 main_cst_10
  let main_v31 : IVec S3072x1024 1 := cmpf .olt main_v29 main_v30
  let main_c_11 : IVec S_ 1 := constantI S_ 1 1#1
  let main_v32 : IVec S_ 1 := (fun x v => Host.reduce IntOp.andi x v reducesTo_S3072x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S8x64x1024 .f32) (main_arg1 : FVec F S8x4096x1024 .f32) (main_arg2 : FVec F S1024x1024 .f32) (main_arg3 : FVec F S1024x1024 .f32) (main_arg4 : FVec F S1024x1024 .f32) (main_arg5 : FVec F S3072x1024 .f32) (main_arg6 : FVec F S3072x1024 .f32) (main_arg7 : FVec F S3072 .f32) (main_arg8 : FVec F S3072 .f32) (main_arg9 : FVec F S1024 .f32) (main_arg10 : FVec F S1024 .f32) : IVec S_ 1 :=
  let main_v0 : FVec F S8x64x1024 .f32 := Host.absf main_arg0
  let main_cst : FVec F S_ .f32 := constant S_ .f32 0x7F800000#32
  let main_v1 : FVec F S8x64x1024 .f32 := broadcastInDim S8x64x1024 ![] bcast_S_S8x64x1024 main_cst
  let main_v2 : IVec S8x64x1024 1 := cmpf .olt main_v0 main_v1
  let main_c : IVec S_ 1 := constantI S_ 1 1#1
  let main_v3 : IVec S_ 1 := (fun x v => Host.reduce IntOp.andi x v reducesTo_S8x64x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S8x64x1024 : Shape := ⟨3, ![8, 64, 1024]⟩
abbrev S8x4096x1024 : Shape := ⟨3, ![8, 4096, 1024]⟩
abbrev S1024x1024 : Shape := ⟨2, ![1024, 1024]⟩
abbrev S3072x1024 : Shape := ⟨2, ![3072, 1024]⟩
abbrev S3072 : Shape := ⟨1, ![3072]⟩
abbrev S1024 : Shape := ⟨1, ![1024]⟩
abbrev S1024x3072 : Shape := ⟨2, ![1024, 3072]⟩
abbrev S1x3072 : Shape := ⟨2, ![1, 3072]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1x64x1024 : Shape := ⟨3, ![1, 64, 1024]⟩
abbrev S1x4096x1024 : Shape := ⟨3, ![1, 4096, 1024]⟩
abbrev S64x1024 : Shape := ⟨2, ![64, 1024]⟩
abbrev S4096x1024 : Shape := ⟨2, ![4096, 1024]⟩
abbrev S64 : Shape := ⟨1, ![64]⟩
abbrev S64x1 : Shape := ⟨2, ![64, 1]⟩
abbrev S64x4096 : Shape := ⟨2, ![64, 4096]⟩
abbrev S4096 : Shape := ⟨1, ![4096]⟩
abbrev S1x4096 : Shape := ⟨2, ![1, 4096]⟩
abbrev S64x3072 : Shape := ⟨2, ![64, 3072]⟩

abbrev nBuf : Space → Nat
  | .hbm => 28
  | .vmem => 21
  | .smem => 0
  | _ => 0

abbrev bufTy : (tb : Table) → Fin (tcTables nBuf tb) → BufTy
  | .hbm, ⟨0, _⟩ => ⟨S8x64x1024, .f32⟩
  | .hbm, ⟨1, _⟩ => ⟨S8x4096x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S3072x1024, .f32⟩
  | .hbm, ⟨6, _⟩ => ⟨S3072x1024, .f32⟩
  | .hbm, ⟨7, _⟩ => ⟨S3072, .f32⟩
  | .hbm, ⟨8, _⟩ => ⟨S3072, .f32⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x3072, .f32⟩
  | .hbm, ⟨18, _⟩ => ⟨S1024x3072, .bf16⟩
  | .hbm, ⟨19, _⟩ => ⟨S1024x3072, .f32⟩
  | .hbm, ⟨20, _⟩ => ⟨S1024x3072, .bf16⟩
  | .hbm, ⟨21, _⟩ => ⟨S1x3072, .f32⟩
  | .hbm, ⟨22, _⟩ => ⟨S1x3072, .f32⟩
  | .hbm, ⟨23, _⟩ => ⟨S1x1024, .f32⟩
  | .hbm, ⟨24, _⟩ => ⟨S1x1024, .f32⟩
  | .hbm, ⟨25, _⟩ => ⟨S8x4096x1024, .bf16⟩
  | .hbm, ⟨26, _⟩ => ⟨S8x4096x1024, .bf16⟩
  | .hbm, ⟨27, _⟩ => ⟨S8x64x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x64x1024, .f32⟩
  | .local _ .vmem, ⟨10, _⟩ => ⟨S1x64x1024, .f32⟩
  | .local _ .vmem, ⟨11, _⟩ => ⟨S1x4096x1024, .bf16⟩
  | .local _ .vmem, ⟨12, _⟩ => ⟨S1x4096x1024, .bf16⟩
  | .local _ .vmem, ⟨13, _⟩ => ⟨S1024x1024, .bf16⟩
  | .local _ .vmem, ⟨14, _⟩ => ⟨S1024x3072, .bf16⟩
  | .local _ .vmem, ⟨15, _⟩ => ⟨S1024x3072, .bf16⟩
  | .local _ .vmem, ⟨16, _⟩ => ⟨S1x3072, .f32⟩
  | .local _ .vmem, ⟨17, _⟩ => ⟨S1x3072, .f32⟩
  | .local _ .vmem, ⟨18, _⟩ => ⟨S1x1024, .f32⟩
  | .local _ .vmem, ⟨19, _⟩ => ⟨S1x64x1024, .f32⟩
  | .local _ .vmem, ⟨20, _⟩ => ⟨S1x64x1024, .f32⟩
  | _, _ => ⟨S8x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x3072 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x3072 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x3072 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x3072 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1x64x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  transposes_S1024x1024_S1024x1024_1_0 : S1024x1024.Transposes [1, 0] S1024x1024
  bitsLt_bf16_f32 : FTy.bits .bf16 < FTy.bits .f32
  transposes_S3072x1024_S1024x3072_1_0 : S3072x1024.Transposes [1, 0] S1024x3072
  shapeCasts_S3072_S1x3072 : S3072.ShapeCasts S1x3072
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S512x1024_S512 : S512x1024.Reduces [1] S512
  shapeCasts_S512_S512x1 : S512.ShapeCasts S512x1
  broadcasts_S512x1_S512x1024 : S512x1.Broadcasts S512x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  reduces_S64x1024_S64 : S64x1024.Reduces [1] S64
  shapeCasts_S64_S64x1 : S64.ShapeCasts S64x1
  broadcasts_S64x1_S64x1024 : S64x1.Broadcasts S64x1024
  broadcasts_S1x1024_S64x1024 : S1x1024.Broadcasts S64x1024
  reduces_S64x4096_S4096 : S64x4096.Reduces [0] S4096
  shapeCasts_S4096_S1x4096 : S4096.ShapeCasts S1x4096
  broadcasts_S1x4096_S64x4096 : S1x4096.Broadcasts S64x4096
  reduces_S64x4096_S64 : S64x4096.Reduces [1] S64
  broadcasts_S64x1_S64x4096 : S64x1.Broadcasts S64x4096
  broadcasts_S1x3072_S64x3072 : S1x3072.Broadcasts S64x3072
  slices_S64x3072_o0_0_S64x1024 : S64x3072.Slices ![0, 0] S64x1024
  slices_S64x3072_o0_1024_S64x1024 : S64x3072.Slices ![0, 1024] S64x1024
  slices_S64x3072_o0_2048_S64x1024 : S64x3072.Slices ![0, 2048] S64x1024
  shapeCasts_S64x1024_S1x64x1024 : S64x1024.ShapeCasts S1x64x1024
  dot_S512x1024_S1024x1024_S512x1024_1_0_0_1_n_n_wf : DotDims.WF S512x1024 S1024x1024 S512x1024 [1] [0] [0] [1] [] []
  dot_S64x1024_S1024x1024_S64x1024_1_0_0_1_n_n_wf : DotDims.WF S64x1024 S1024x1024 S64x1024 [1] [0] [0] [1] [] []
  dot_S64x1024_S4096x1024_S64x4096_1_1_0_0_n_n_wf : DotDims.WF S64x1024 S4096x1024 S64x4096 [1] [1] [0] [0] [] []
  dot_S64x4096_S4096x1024_S64x1024_1_0_0_1_n_n_wf : DotDims.WF S64x4096 S4096x1024 S64x1024 [1] [0] [0] [1] [] []
  dot_S64x1024_S1024x3072_S64x3072_1_0_0_1_n_n_wf : DotDims.WF S64x1024 S1024x3072 S64x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x4096x1024.size a
  hwx0_0 : ∀ i : grid0.Coords, EltTy.bits .f32 = 32 ∨ (Rect.block (s := S8x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S8x4096x1024.size a
  hwx0_4 : ∀ i : grid0.Coords, EltTy.bits .bf16 = 32 ∨ (Rect.block (s := S8x4096x1024) S1x512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S8x4096x1024.size a
  hwx0_5 : ∀ i : grid0.Coords, EltTy.bits .bf16 = 32 ∨ (Rect.block (s := S8x4096x1024) S1x512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x1024.size a ≤ S8x64x1024.size a
  hwx1_0 : ∀ i : grid1.Coords, EltTy.bits .f32 = 32 ∨ (Rect.block (s := S8x64x1024) S1x64x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096x1024.size a ≤ S8x4096x1024.size a
  hwx1_1 : ∀ i : grid1.Coords, EltTy.bits .bf16 = 32 ∨ (Rect.block (s := S8x4096x1024) S1x4096x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096x1024.size a ≤ S8x4096x1024.size a
  hwx1_2 : ∀ i : grid1.Coords, EltTy.bits .bf16 = 32 ∨ (Rect.block (s := S8x4096x1024) S1x4096x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x3072.size a ≤ S1024x3072.size a
  hwx1_4 : ∀ i : grid1.Coords, EltTy.bits .bf16 = 32 ∨ (Rect.block (s := S1024x3072) S1024x3072.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x3072.size a ≤ S1024x3072.size a
  hwx1_5 : ∀ i : grid1.Coords, EltTy.bits .bf16 = 32 ∨ (Rect.block (s := S1024x3072) S1024x3072.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x3072.size a ≤ S1x3072.size a
  hwx1_6 : ∀ i : grid1.Coords, EltTy.bits .f32 = 32 ∨ (Rect.block (s := S1x3072) S1x3072.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x3072.size a ≤ S1x3072.size a
  hwx1_7 : ∀ i : grid1.Coords, EltTy.bits .f32 = 32 ∨ (Rect.block (s := S1x3072) S1x3072.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1024.size a ≤ S1x1024.size a
  hwx1_8 : ∀ i : grid1.Coords, EltTy.bits .f32 = 32 ∨ (Rect.block (s := S1x1024) S1x1024.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x64x1024.size a ≤ S8x64x1024.size a
  hwx1_9 : ∀ i : grid1.Coords, EltTy.bits .f32 = 32 ∨ (Rect.block (s := S8x64x1024) S1x64x1024.size (cc1_transform_9 i) (hinb1_9 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S64x1024_S4096x1024_S64x4096_1_1_0_0_n_n : DotDims S64x1024 S4096x1024 S64x4096 where
  lhsContracting := [1]
  rhsContracting := [1]
  lhsNonContracting := [0]
  rhsNonContracting := [0]
  lhsBatch := []
  rhsBatch := []
  wf := dot_S64x1024_S4096x1024_S64x4096_1_1_0_0_n_n_wf
def dot_S64x4096_S4096x1024_S64x1024_1_0_0_1_n_n : DotDims S64x4096 S4096x1024 S64x1024 where
  lhsContracting := [1]
  rhsContracting := [0]
  lhsNonContracting := [0]
  rhsNonContracting := [1]
  lhsBatch := []
  rhsBatch := []
  wf := dot_S64x4096_S4096x1024_S64x1024_1_0_0_1_n_n_wf
def dot_S64x1024_S1024x3072_S64x3072_1_0_0_1_n_n : DotDims S64x1024 S1024x3072 S64x3072 where
  lhsContracting := [1]
  rhsContracting := [0]
  lhsNonContracting := [0]
  rhsNonContracting := [1]
  lhsBatch := []
  rhsBatch := []
  wf := dot_S64x1024_S1024x3072_S64x3072_1_0_0_1_n_n_wf

abbrev win0_0 : Pipeline.Window sig grid0 :=
  Pipeline.Window.ofSpec (Memref.whole main_arg1) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14_0) S1x512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14_1) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1x64x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14_0) S1x4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14_1) S1x4096x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1024x3072.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1024x3072.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x3072.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11) S1x3072.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v12) S1x1024.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v15) S1x64x1024.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S8x64x1024 : Shape := ⟨3, ![8, 64, 1024]⟩
abbrev S8x4096x1024 : Shape := ⟨3, ![8, 4096, 1024]⟩
abbrev S1024x1024 : Shape := ⟨2, ![1024, 1024]⟩
abbrev S3072x1024 : Shape := ⟨2, ![3072, 1024]⟩
abbrev S3072 : Shape := ⟨1, ![3072]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x64 : Shape := ⟨2, ![8, 64]⟩
abbrev S8x64x1 : Shape := ⟨3, ![8, 64, 1]⟩
abbrev S8x64x4096 : Shape := ⟨3, ![8, 64, 4096]⟩
abbrev S8x1x4096 : Shape := ⟨3, ![8, 1, 4096]⟩
abbrev S8x64x3072 : Shape := ⟨3, ![8, 64, 3072]⟩
abbrev S1x1x3072 : Shape := ⟨3, ![1, 1, 3072]⟩

abbrev nBuf : Space → Nat
  | .hbm => 284
  | .vmem => 0
  | .smem => 0
  | _ => 0

abbrev hbmTy0_0 (i : Nat) : BufTy := match i % 128 with
  | 0 => ⟨S8x64x1024, .f32⟩
  | 1 => ⟨S8x4096x1024, .f32⟩
  | 2 => ⟨S1024x1024, .f32⟩
  | 3 => ⟨S1024x1024, .f32⟩
  | 4 => ⟨S1024x1024, .f32⟩
  | 5 => ⟨S3072x1024, .f32⟩
  | 6 => ⟨S3072x1024, .f32⟩
  | 7 => ⟨S3072, .f32⟩
  | 8 => ⟨S3072, .f32⟩
  | 9 => ⟨S1024, .f32⟩
  | 10 => ⟨S1024, .f32⟩
  | 11 => ⟨S8x4096x1024, .f32⟩
  | 12 => ⟨S_, .f32⟩
  | 13 => ⟨S8x4096, .f32⟩
  | 14 => ⟨S8x4096x1, .f32⟩
  | 15 => ⟨S_, .f32⟩
  | 16 => ⟨S8x4096x1, .f32⟩
  | 17 => ⟨S8x4096x1, .f32⟩
  | 18 => ⟨S_, .f32⟩
  | 19 => ⟨S8x4096x1, .f32⟩
  | 20 => ⟨S8x4096x1, .f32⟩
  | 21 => ⟨S8x4096x1, .f32⟩
  | 22 => ⟨S8x4096x1024, .f32⟩
  | 23 => ⟨S8x4096x1024, .f32⟩
  | 24 => ⟨S1x1x1024, .f32⟩
  | 25 => ⟨S8x4096x1024, .f32⟩
  | 26 => ⟨S8x4096x1024, .f32⟩
  | 27 => ⟨S8x4096x1024, .f32⟩
  | 28 => ⟨S8x4096x1024, .f32⟩
  | 29 => ⟨S8x64x1024, .f32⟩
  | 30 => ⟨S_, .f32⟩
  | 31 => ⟨S8x64, .f32⟩
  | 32 => ⟨S8x64x1, .f32⟩
  | 33 => ⟨S_, .f32⟩
  | 34 => ⟨S8x64x1, .f32⟩
  | 35 => ⟨S8x64x1, .f32⟩
  | 36 => ⟨S_, .f32⟩
  | 37 => ⟨S8x64x1, .f32⟩
  | 38 => ⟨S8x64x1, .f32⟩
  | 39 => ⟨S8x64x1, .f32⟩
  | 40 => ⟨S8x64x1024, .f32⟩
  | 41 => ⟨S8x64x1024, .f32⟩
  | 42 => ⟨S1x1x1024, .f32⟩
  | 43 => ⟨S8x64x1024, .f32⟩
  | 44 => ⟨S8x64x1024, .f32⟩
  | 45 => ⟨S8x64x1024, .f32⟩
  | 46 => ⟨S8x64x4096, .f32⟩
  | 47 => ⟨S_, .f32⟩
  | 48 => ⟨S8x64x4096, .f32⟩
  | 49 => ⟨S8x64x4096, .f32⟩
  | 50 => ⟨S_, .f32⟩
  | 51 => ⟨S8x4096, .f32⟩
  | 52 => ⟨S_, .f32⟩
  | 53 => ⟨S8x4096, .f32⟩
  | 54 => ⟨S8x4096, .f32⟩
  | 55 => ⟨S8x1x4096, .f32⟩
  | 56 => ⟨S8x64x4096, .f32⟩
  | 57 => ⟨S8x64x4096, .f32⟩
  | 58 => ⟨S8x64x4096, .f32⟩
  | 59 => ⟨S_, .f32⟩
  | 60 => ⟨S8x4096, .f32⟩
  | 61 => ⟨S8x1x4096, .f32⟩
  | 62 => ⟨S8x64x4096, .f32⟩
  | 63 => ⟨S8x64x4096, .f32⟩
  | 64 => ⟨S_, .f32⟩
  | 65 => ⟨S8x64, .f32⟩
  | 66 => ⟨S8x64x1, .f32⟩
  | 67 => ⟨S_, .f32⟩
  | 68 => ⟨S8x64x1, .f32⟩
  | 69 => ⟨S8x64x1, .f32⟩
  | 70 => ⟨S8x64x4096, .f32⟩
  | 71 => ⟨S8x64x4096, .f32⟩
  | 72 => ⟨S8x64x1024, .f32⟩
  | 73 => ⟨S8x64x3072, .f32⟩
  | 74 => ⟨S1x1x3072, .f32⟩
  | 75 => ⟨S8x64x3072, .f32⟩
  | 76 => ⟨S8x64x3072, .f32⟩
  | 77 => ⟨S8x64x3072, .f32⟩
  | 78 => ⟨S1x1x3072, .f32⟩
  | 79 => ⟨S8x64x3072, .f32⟩
  | 80 => ⟨S8x64x3072, .f32⟩
  | 81 => ⟨S8x64x1024, .f32⟩
  | 82 => ⟨S8x64x1024, .f32⟩
  | 83 => ⟨S8x64x1024, .f32⟩
  | 84 => ⟨S8x64x1024, .f32⟩
  | 85 => ⟨S8x64x1024, .f32⟩
  | 86 => ⟨S8x64x1024, .f32⟩
  | 87 => ⟨S8x64x1024, .f32⟩
  | 88 => ⟨S8x64x1024, .f32⟩
  | 89 => ⟨S8x64x1024, .f32⟩
  | 90 => ⟨S_, .f32⟩
  | 91 => ⟨S8x64x1024, .f32⟩
  | 92 => ⟨S8x64x1024, .f32⟩
  | 93 => ⟨S_, .f32⟩
  | 94 => ⟨S8x64x1024, .f32⟩
  | 95 => ⟨S8x64x1024, .f32⟩
  | 96 => ⟨S8x64x1024, .f32⟩
  | 97 => ⟨S8x64x1024, .f32⟩
  | 98 => ⟨S8x64x1024, .f32⟩
  | 99 => ⟨S_, .f32⟩
  | 100 => ⟨S8x64x1024, .f32⟩
  | 101 => ⟨S8x64x1024, .f32⟩
  | 102 => ⟨S_, .f32⟩
  | 103 => ⟨S8x64x1024, .f32⟩
  | 104 => ⟨S8x64x1024, .f32⟩
  | 105 => ⟨S8x64x1024, .f32⟩
  | 106 => ⟨S8x64x1024, .f32⟩
  | 107 => ⟨S8x64x1024, .f32⟩
  | 108 => ⟨S_, .f32⟩
  | 109 => ⟨S8x64x1024, .f32⟩
  | 110 => ⟨S8x64x1024, .f32⟩
  | 111 => ⟨S8x64x1024, .f32⟩
  | 112 => ⟨S8x64x1024, .f32⟩
  | 113 => ⟨S8x64x1024, .f32⟩
  | 114 => ⟨S8x64x1024, .f32⟩
  | 115 => ⟨S_, .f32⟩
  | 116 => ⟨S8x64, .f32⟩
  | 117 => ⟨S8x64x1, .f32⟩
  | 118 => ⟨S_, .f32⟩
  | 119 => ⟨S8x64x1, .f32⟩
  | 120 => ⟨S8x64x1, .f32⟩
  | 121 => ⟨S_, .f32⟩
  | 122 => ⟨S8x64x1, .f32⟩
  | 123 => ⟨S8x64x1, .f32⟩
  | 124 => ⟨S8x64x1, .f32⟩
  | 125 => ⟨S8x64x1024, .f32⟩
  | 126 => ⟨S8x64x1024, .f32⟩
  | 127 => ⟨S1x1x1024, .f32⟩
  | _ => ⟨S8x64x1024, .f32⟩

abbrev hbmTy0_1 (i : Nat) : BufTy := match i % 128 with
  | 0 => ⟨S8x64x1024, .f32⟩
  | 1 => ⟨S8x64x1024, .f32⟩
  | 2 => ⟨S8x64x1024, .f32⟩
  | 3 => ⟨S8x64x4096, .f32⟩
  | 4 => ⟨S_, .f32⟩
  | 5 => ⟨S8x64x4096, .f32⟩
  | 6 => ⟨S8x64x4096, .f32⟩
  | 7 => ⟨S_, .f32⟩
  | 8 => ⟨S8x4096, .f32⟩
  | 9 => ⟨S_, .f32⟩
  | 10 => ⟨S8x4096, .f32⟩
  | 11 => ⟨S8x4096, .f32⟩
  | 12 => ⟨S8x1x4096, .f32⟩
  | 13 => ⟨S8x64x4096, .f32⟩
  | 14 => ⟨S8x64x4096, .f32⟩
  | 15 => ⟨S8x64x4096, .f32⟩
  | 16 => ⟨S_, .f32⟩
  | 17 => ⟨S8x4096, .f32⟩
  | 18 => ⟨S8x1x4096, .f32⟩
  | 19 => ⟨S8x64x4096, .f32⟩
  | 20 => ⟨S8x64x4096, .f32⟩
  | 21 => ⟨S_, .f32⟩
  | 22 => ⟨S8x64, .f32⟩
  | 23 => ⟨S8x64x1, .f32⟩
  | 24 => ⟨S_, .f32⟩
  | 25 => ⟨S8x64x1, .f32⟩
  | 26 => ⟨S8x64x1, .f32⟩
  | 27 => ⟨S8x64x4096, .f32⟩
  | 28 => ⟨S8x64x4096, .f32⟩
  | 29 => ⟨S8x64x1024, .f32⟩
  | 30 => ⟨S8x64x3072, .f32⟩
  | 31 => ⟨S1x1x3072, .f32⟩
  | 32 => ⟨S8x64x3072, .f32⟩
  | 33 => ⟨S8x64x3072, .f32⟩
  | 34 => ⟨S8x64x3072, .f32⟩
  | 35 => ⟨S1x1x3072, .f32⟩
  | 36 => ⟨S8x64x3072, .f32⟩
  | 37 => ⟨S8x64x3072, .f32⟩
  | 38 => ⟨S8x64x1024, .f32⟩
  | 39 => ⟨S8x64x1024, .f32⟩
  | 40 => ⟨S8x64x1024, .f32⟩
  | 41 => ⟨S8x64x1024, .f32⟩
  | 42 => ⟨S8x64x1024, .f32⟩
  | 43 => ⟨S8x64x1024, .f32⟩
  | 44 => ⟨S8x64x1024, .f32⟩
  | 45 => ⟨S8x64x1024, .f32⟩
  | 46 => ⟨S8x64x1024, .f32⟩
  | 47 => ⟨S_, .f32⟩
  | 48 => ⟨S8x64x1024, .f32⟩
  | 49 => ⟨S8x64x1024, .f32⟩
  | 50 => ⟨S_, .f32⟩
  | 51 => ⟨S8x64x1024, .f32⟩
  | 52 => ⟨S8x64x1024, .f32⟩
  | 53 => ⟨S8x64x1024, .f32⟩
  | 54 => ⟨S8x64x1024, .f32⟩
  | 55 => ⟨S8x64x1024, .f32⟩
  | 56 => ⟨S_, .f32⟩
  | 57 => ⟨S8x64x1024, .f32⟩
  | 58 => ⟨S8x64x1024, .f32⟩
  | 59 => ⟨S_, .f32⟩
  | 60 => ⟨S8x64x1024, .f32⟩
  | 61 => ⟨S8x64x1024, .f32⟩
  | 62 => ⟨S8x64x1024, .f32⟩
  | 63 => ⟨S8x64x1024, .f32⟩
  | 64 => ⟨S8x64x1024, .f32⟩
  | 65 => ⟨S_, .f32⟩
  | 66 => ⟨S8x64x1024, .f32⟩
  | 67 => ⟨S8x64x1024, .f32⟩
  | 68 => ⟨S8x64x1024, .f32⟩
  | 69 => ⟨S8x64x1024, .f32⟩
  | 70 => ⟨S8x64x1024, .f32⟩
  | 71 => ⟨S8x64x1024, .f32⟩
  | 72 => ⟨S_, .f32⟩
  | 73 => ⟨S8x64, .f32⟩
  | 74 => ⟨S8x64x1, .f32⟩
  | 75 => ⟨S_, .f32⟩
  | 76 => ⟨S8x64x1, .f32⟩
  | 77 => ⟨S8x64x1, .f32⟩
  | 78 => ⟨S_, .f32⟩
  | 79 => ⟨S8x64x1, .f32⟩
  | 80 => ⟨S8x64x1, .f32⟩
  | 81 => ⟨S8x64x1, .f32⟩
  | 82 => ⟨S8x64x1024, .f32⟩
  | 83 => ⟨S8x64x1024, .f32⟩
  | 84 => ⟨S1x1x1024, .f32⟩
  | 85 => ⟨S8x64x1024, .f32⟩
  | 86 => ⟨S8x64x1024, .f32⟩
  | 87 => ⟨S8x64x1024, .f32⟩
  | 88 => ⟨S8x64x4096, .f32⟩
  | 89 => ⟨S_, .f32⟩
  | 90 => ⟨S8x64x4096, .f32⟩
  | 91 => ⟨S8x64x4096, .f32⟩
  | 92 => ⟨S_, .f32⟩
  | 93 => ⟨S8x4096, .f32⟩
  | 94 => ⟨S_, .f32⟩
  | 95 => ⟨S8x4096, .f32⟩
  | 96 => ⟨S8x4096, .f32⟩
  | 97 => ⟨S8x1x4096, .f32⟩
  | 98 => ⟨S8x64x4096, .f32⟩
  | 99 => ⟨S8x64x4096, .f32⟩
  | 100 => ⟨S8x64x4096, .f32⟩
  | 101 => ⟨S_, .f32⟩
  | 102 => ⟨S8x4096, .f32⟩
  | 103 => ⟨S8x1x4096, .f32⟩
  | 104 => ⟨S8x64x4096, .f32⟩
  | 105 => ⟨S8x64x4096, .f32⟩
  | 106 => ⟨S_, .f32⟩
  | 107 => ⟨S8x64, .f32⟩
  | 108 => ⟨S8x64x1, .f32⟩
  | 109 => ⟨S_, .f32⟩
  | 110 => ⟨S8x64x1, .f32⟩
  | 111 => ⟨S8x64x1, .f32⟩
  | 112 => ⟨S8x64x4096, .f32⟩
  | 113 => ⟨S8x64x4096, .f32⟩
  | 114 => ⟨S8x64x1024, .f32⟩
  | 115 => ⟨S8x64x3072, .f32⟩
  | 116 => ⟨S1x1x3072, .f32⟩
  | 117 => ⟨S8x64x3072, .f32⟩
  | 118 => ⟨S8x64x3072, .f32⟩
  | 119 => ⟨S8x64x3072, .f32⟩
  | 120 => ⟨S1x1x3072, .f32⟩
  | 121 => ⟨S8x64x3072, .f32⟩
  | 122 => ⟨S8x64x3072, .f32⟩
  | 123 => ⟨S8x64x1024, .f32⟩
  | 124 => ⟨S8x64x1024, .f32⟩
  | 125 => ⟨S8x64x1024, .f32⟩
  | 126 => ⟨S8x64x1024, .f32⟩
  | 127 => ⟨S8x64x1024, .f32⟩
  | _ => ⟨S8x64x1024, .f32⟩

abbrev hbmTy0_2 (i : Nat) : BufTy := match i % 128 with
  | 0 => ⟨S8x64x1024, .f32⟩
  | 1 => ⟨S8x64x1024, .f32⟩
  | 2 => ⟨S8x64x1024, .f32⟩
  | 3 => ⟨S8x64x1024, .f32⟩
  | 4 => ⟨S_, .f32⟩
  | 5 => ⟨S8x64x1024, .f32⟩
  | 6 => ⟨S8x64x1024, .f32⟩
  | 7 => ⟨S_, .f32⟩
  | 8 => ⟨S8x64x1024, .f32⟩
  | 9 => ⟨S8x64x1024, .f32⟩
  | 10 => ⟨S8x64x1024, .f32⟩
  | 11 => ⟨S8x64x1024, .f32⟩
  | 12 => ⟨S8x64x1024, .f32⟩
  | 13 => ⟨S_, .f32⟩
  | 14 => ⟨S8x64x1024, .f32⟩
  | 15 => ⟨S8x64x1024, .f32⟩
  | 16 => ⟨S_, .f32⟩
  | 17 => ⟨S8x64x1024, .f32⟩
  | 18 => ⟨S8x64x1024, .f32⟩
  | 19 => ⟨S8x64x1024, .f32⟩
  | 20 => ⟨S8x64x1024, .f32⟩
  | 21 => ⟨S8x64x1024, .f32⟩
  | 22 => ⟨S_, .f32⟩
  | 23 => ⟨S8x64x1024, .f32⟩
  | 24 => ⟨S8x64x1024, .f32⟩
  | 25 => ⟨S8x64x1024, .f32⟩
  | 26 => ⟨S8x64x1024, .f32⟩
  | 27 => ⟨S8x64x1024, .f32⟩
  | _ => ⟨S8x64x1024, .f32⟩

abbrev hbmTy (i : Nat) : BufTy := match i / 128 with
  | 0 => hbmTy0_0 i
  | 1 => hbmTy0_1 i
  | 2 => hbmTy0_2 i
  | _ => ⟨S8x64x1024, .f32⟩

abbrev bufTy : (tb : Table) → Fin (tcTables nBuf tb) → BufTy
  | .hbm, ⟨i, _⟩ => hbmTy i
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩
abbrev main_cst_12 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_13 : Ref sig .tc := ⟨.hbm, 99, rfl⟩
abbrev main_v74 : Ref sig .tc := ⟨.hbm, 100, rfl⟩
abbrev main_v75 : Ref sig .tc := ⟨.hbm, 101, rfl⟩
abbrev main_cst_14 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_15 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_16 : Ref sig .tc := ⟨.hbm, 115, rfl⟩
abbrev main_v87 : Ref sig .tc := ⟨.hbm, 116, rfl⟩
abbrev main_v88 : Ref sig .tc := ⟨.hbm, 117, rfl⟩
abbrev main_cst_17 : Ref sig .tc := ⟨.hbm, 118, rfl⟩
abbrev main_v89 : Ref sig .tc := ⟨.hbm, 119, rfl⟩
abbrev main_v90 : Ref sig .tc := ⟨.hbm, 120, rfl⟩
abbrev main_cst_18 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_19 : Ref sig .tc := ⟨.hbm, 132, rfl⟩
abbrev main_v101 : Ref sig .tc := ⟨.hbm, 133, rfl⟩
abbrev main_v102 : Ref sig .tc := ⟨.hbm, 134, rfl⟩
abbrev main_cst_20 : Ref sig .tc := ⟨.hbm, 135, rfl⟩
abbrev main_v103 : Ref sig .tc := ⟨.hbm, 136, rfl⟩
abbrev main_cst_21 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_22 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_23 : Ref sig .tc := ⟨.hbm, 149, rfl⟩
abbrev main_v114 : Ref sig .tc := ⟨.hbm, 150, rfl⟩
abbrev main_v115 : Ref sig .tc := ⟨.hbm, 151, rfl⟩
abbrev main_cst_24 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_cst_25 : Ref sig .tc := ⟨.hbm, 175, rfl⟩
abbrev main_v138 : Ref sig .tc := ⟨.hbm, 176, rfl⟩
abbrev main_v139 : Ref sig .tc := ⟨.hbm, 177, rfl⟩
abbrev main_cst_26 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_cst_27 : Ref sig .tc := ⟨.hbm, 184, rfl⟩
abbrev main_v145 : Ref sig .tc := ⟨.hbm, 185, rfl⟩
abbrev main_v146 : Ref sig .tc := ⟨.hbm, 186, rfl⟩
abbrev main_cst_28 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_cst_29 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_cst_30 : Ref sig .tc := ⟨.hbm, 200, rfl⟩
abbrev main_v158 : Ref sig .tc := ⟨.hbm, 201, rfl⟩
abbrev main_v159 : Ref sig .tc := ⟨.hbm, 202, rfl⟩
abbrev main_cst_31 : Ref sig .tc := ⟨.hbm, 203, rfl⟩
abbrev main_v160 : Ref sig .tc := ⟨.hbm, 204, rfl⟩
abbrev main_v161 : Ref sig .tc := ⟨.hbm, 205, rfl⟩
abbrev main_cst_32 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_cst_33 : Ref sig .tc := ⟨.hbm, 217, rfl⟩
abbrev main_v172 : Ref sig .tc := ⟨.hbm, 218, rfl⟩
abbrev main_v173 : Ref sig .tc := ⟨.hbm, 219, rfl⟩
abbrev main_cst_34 : Ref sig .tc := ⟨.hbm, 220, rfl⟩
abbrev main_v174 : Ref sig .tc := ⟨.hbm, 221, rfl⟩
abbrev main_cst_35 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_cst_36 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_cst_37 : Ref sig .tc := ⟨.hbm, 234, rfl⟩
abbrev main_v185 : Ref sig .tc := ⟨.hbm, 235, rfl⟩
abbrev main_v186 : Ref sig .tc := ⟨.hbm, 236, rfl⟩
abbrev main_cst_38 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_cst_39 : Ref sig .tc := ⟨.hbm, 260, rfl⟩
abbrev main_v209 : Ref sig .tc := ⟨.hbm, 261, rfl⟩
abbrev main_v210 : Ref sig .tc := ⟨.hbm, 262, rfl⟩
abbrev main_cst_40 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_cst_41 : Ref sig .tc := ⟨.hbm, 269, rfl⟩
abbrev main_v216 : Ref sig .tc := ⟨.hbm, 270, rfl⟩
abbrev main_v217 : Ref sig .tc := ⟨.hbm, 271, rfl⟩
abbrev main_cst_42 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_cst_43 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩

abbrev nD : Nat := 1
abbrev τ : Topo := Topo.v7x

variable {F : FTy → Type} [FloatOps F]

class Facts₀ : Prop where
  reducesTo_S8x4096x1024_S8x4096_d2 : S8x4096x1024.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  reducesTo_S8x64x1024_S8x64_d2 : S8x64x1024.ReducesTo [2] S8x64
  bcast_S8x64_S8x64x1_0_1 : S8x64.BroadcastsInDim S8x64x1 (![0, 1] : Fin 2 → Fin S8x64x1.rank)
  bcast_S_S8x64x1 : S_.BroadcastsInDim S8x64x1 (![] : Fin 0 → Fin S8x64x1.rank)
  bcast_S8x64x1_S8x64x1024_0_1_2 : S8x64x1.BroadcastsInDim S8x64x1024 (![0, 1, 2] : Fin 3 → Fin S8x64x1024.rank)
  bcast_S1x1x1024_S8x64x1024_0_1_2 : S1x1x1024.BroadcastsInDim S8x64x1024 (![0, 1, 2] : Fin 3 → Fin S8x64x1024.rank)
  bcast_S_S8x64x4096 : S_.BroadcastsInDim S8x64x4096 (![] : Fin 0 → Fin S8x64x4096.rank)
  reducesTo_S8x64x4096_S8x4096_d1 : S8x64x4096.ReducesTo [1] S8x4096
  bcast_S_S8x4096 : S_.BroadcastsInDim S8x4096 (![] : Fin 0 → Fin S8x4096.rank)
  bcast_S8x4096_S8x1x4096_0_2 : S8x4096.BroadcastsInDim S8x1x4096 (![0, 2] : Fin 2 → Fin S8x1x4096.rank)
  bcast_S8x1x4096_S8x64x4096_0_1_2 : S8x1x4096.BroadcastsInDim S8x64x4096 (![0, 1, 2] : Fin 3 → Fin S8x64x4096.rank)
  reducesTo_S8x64x4096_S8x64_d2 : S8x64x4096.ReducesTo [2] S8x64
  bcast_S8x64x1_S8x64x4096_0_1_2 : S8x64x1.BroadcastsInDim S8x64x4096 (![0, 1, 2] : Fin 3 → Fin S8x64x4096.rank)
  bcast_S3072_S1x1x3072_2 : S3072.BroadcastsInDim S1x1x3072 (![2] : Fin 1 → Fin S1x1x3072.rank)
  bcast_S1x1x3072_S8x64x3072_0_1_2 : S1x1x3072.BroadcastsInDim S8x64x3072 (![0, 1, 2] : Fin 3 → Fin S8x64x3072.rank)
  slices_S8x64x3072_S8x64x1024_0_0_0 : S8x64x3072.Slices ![0, 0, 0] S8x64x1024
  slices_S8x64x3072_S8x64x1024_0_0_1024 : S8x64x3072.Slices ![0, 0, 1024] S8x64x1024
  slices_S8x64x3072_S8x64x1024_0_0_2048 : S8x64x3072.Slices ![0, 0, 2048] S8x64x1024
  bcast_S_S8x64x1024 : S_.BroadcastsInDim S8x64x1024 (![] : Fin 0 → Fin S8x64x1024.rank)
  dot_S8x4096x1024_S1024x1024_S8x4096x1024_2_1_01_0_n_n_wf : DotDims.WF S8x4096x1024 S1024x1024 S8x4096x1024 [2] [1] [0, 1] [0] [] []
  dot_S8x64x1024_S1024x1024_S8x64x1024_2_1_01_0_n_n_wf : DotDims.WF S8x64x1024 S1024x1024 S8x64x1024 [2] [1] [0, 1] [0] [] []
  dot_S8x64x1024_S8x4096x1024_S8x64x4096_2_2_1_1_0_0_wf : DotDims.WF S8x64x1024 S8x4096x1024 S8x64x4096 [2] [2] [1] [1] [0] [0]
  dot_S8x64x4096_S8x4096x1024_S8x64x1024_2_1_1_2_0_0_wf : DotDims.WF S8x64x4096 S8x4096x1024 S8x64x1024 [2] [1] [1] [2] [0] [0]
  dot_S8x64x1024_S3072x1024_S8x64x3072_2_1_01_0_n_n_wf : DotDims.WF S8x64x1024 S3072x1024 S8x64x3072 [2] [1] [0, 1] [0] [] []

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf
def dot_S8x64x1024_S1024x1024_S8x64x1024_2_1_01_0_n_n : DotDims S8x64x1024 S1024x1024 S8x64x1024 where
  lhsContracting := [2]
  rhsContracting := [1]
  lhsNonContracting := [0, 1]
  rhsNonContracting := [0]
  lhsBatch := []
  rhsBatch := []
  wf := dot_S8x64x1024_S1024x1024_S8x64x1024_2_1_01_0_n_n_wf
def dot_S8x64x1024_S8x4096x1024_S8x64x4096_2_2_1_1_0_0 : DotDims S8x64x1024 S8x4096x1024 S8x64x4096 where
  lhsContracting := [2]
  rhsContracting := [2]
  lhsNonContracting := [1]
  rhsNonContracting := [1]
  lhsBatch := [0]
  rhsBatch := [0]
  wf := dot_S8x64x1024_S8x4096x1024_S8x64x4096_2_2_1_1_0_0_wf
def dot_S8x64x4096_S8x4096x1024_S8x64x1024_2_1_1_2_0_0 : DotDims S8x64x4096 S8x4096x1024 S8x64x1024 where
  lhsContracting := [2]
  rhsContracting := [1]
  lhsNonContracting := [1]
  rhsNonContracting := [2]
  lhsBatch := [0]
  rhsBatch := [0]
  wf := dot_S8x64x4096_S8x4096x1024_S8x64x1024_2_1_1_2_0_0_wf
def dot_S8x64x1024_S3072x1024_S8x64x3072_2_1_01_0_n_n : DotDims S8x64x1024 S3072x1024 S8x64x3072 where
  lhsContracting := [2]
  rhsContracting := [1]
  lhsNonContracting := [0, 1]
  rhsNonContracting := [0]
  lhsBatch := []
  rhsBatch := []
  wf := dot_S8x64x1024_S3072x1024_S8x64x3072_2_1_01_0_n_n_wf

class Facts : Prop extends Facts₀ where

variable [Facts]
-- ==== Proof.KerRun.lean ====
/-
  The idealized kernel's run with its result named.  The program is a stretch of host operations followed by two
  kernel regions; its buffers after the last region are the contents `W3`, a fold through the program from the launch
  memory.  Every weakly fair execution terminates, nothing faulting, with the result buffer at `W3`'s value for it
  and every argument array as launched.
-/
import proofs.«162511_j86208583565576_1_alg».proof.Proof.Gen.KernelIdeal.Frame

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v15) = W3 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v15 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c)⟩)

end Cert.KernelIdeal.KerRun

end
-- ==== Proof.KerHost.lean ====
/-
  The buffers the two regions read, after the host operations that precede them: each weight matrix transposed
  (and narrowed to bf16, which keeps the value), each bias and norm-weight vector re-laid as one row; the slots and
  the memory are untouched.
-/
import proofs.«162511_j86208583565576_1_alg».proof.Proof.Gen.KernelIdeal.Frame
import Idealize.ShloMosaic.Lib.StableHlo.Run

noncomputable section

namespace Cert.KernelIdeal.KerHost

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- After the host operations: the key weights transposed. -/
theorem W1_v1 (c : Dev nD) : (W1 m ρ c (Proc.devRef .tc main_v1) : S1024x1024.Idx → Elt F .bf16)
    = truncf .bf16 (transpose S1024x1024 [1, 0] (m ((c : Thread nD τ).loc main_arg3)) transposes_S1024x1024_S1024x1024_1_0) bitsLt_bf16_f32 := by
  show StableHlo.after hostOps0 (W0 m ρ c) (Proc.devRef .tc main_v1) = _
  after_results
  all_goals rfl

/-- After the host operations: the value weights transposed. -/
theorem W1_v3 (c : Dev nD) : (W1 m ρ c (Proc.devRef .tc main_v3) : S1024x1024.Idx → Elt F .bf16)
    = truncf .bf16 (transpose S1024x1024 [1, 0] (m ((c : Thread nD τ).loc main_arg4)) transposes_S1024x1024_S1024x1024_1_0) bitsLt_bf16_f32 := by
  show StableHlo.after hostOps0 (W0 m ρ c) (Proc.devRef .tc main_v3) = _
  after_results
  all_goals rfl

/-- After the host operations: the query weights transposed. -/
theorem W1_v5 (c : Dev nD) : (W1 m ρ c (Proc.devRef .tc main_v5) : S1024x1024.Idx → Elt F .bf16)
    = truncf .bf16 (transpose S1024x1024 [1, 0] (m ((c : Thread nD τ).loc main_arg2)) transposes_S1024x1024_S1024x1024_1_0) bitsLt_bf16_f32 := by
  show StableHlo.after hostOps0 (W0 m ρ c) (Proc.devRef .tc main_v5) = _
  after_results
  all_goals rfl

/-- After the host operations: the input-gate weights transposed. -/
theorem W1_v7 (c : Dev nD) : (W1 m ρ c (Proc.devRef .tc main_v7) : S1024x3072.Idx → Elt F .bf16)
    = truncf .bf16 (transpose S1024x3072 [1, 0] (m ((c : Thread nD τ).loc main_arg5)) transposes_S3072x1024_S1024x3072_1_0) bitsLt_bf16_f32 := by
  show StableHlo.after hostOps0 (W0 m ρ c) (Proc.devRef .tc main_v7) = _
  after_results
  all_goals rfl

/-- After the host operations: the hidden-gate weights transposed. -/
theorem W1_v9 (c : Dev nD) : (W1 m ρ c (Proc.devRef .tc main_v9) : S1024x3072.Idx → Elt F .bf16)
    = truncf .bf16 (transpose S1024x3072 [1, 0] (m ((c : Thread nD τ).loc main_arg6)) transposes_S3072x1024_S1024x3072_1_0) bitsLt_bf16_f32 := by
  show StableHlo.after hostOps0 (W0 m ρ c) (Proc.devRef .tc main_v9) = _
  after_results
  all_goals rfl

/-- After the host operations: the input-gate bias as one row. -/
theorem W1_v10 (c : Dev nD) : (W1 m ρ c (Proc.devRef .tc main_v10) : S1x3072.Idx → Elt F .f32)
    = shapeCast S1x3072 (m ((c : Thread nD τ).loc main_arg7)) shapeCasts_S3072_S1x3072 := by
  show StableHlo.after hostOps0 (W0 m ρ c) (Proc.devRef .tc main_v10) = _
  after_results
  all_goals rfl

/-- After the host operations: the hidden-gate bias as one row. -/
theorem W1_v11 (c : Dev nD) : (W1 m ρ c (Proc.devRef .tc main_v11) : S1x3072.Idx → Elt F .f32)
    = shapeCast S1x3072 (m ((c : Thread nD τ).loc main_arg8)) shapeCasts_S3072_S1x3072 := by
  show StableHlo.after hostOps0 (W0 m ρ c) (Proc.devRef .tc main_v11) = _
  after_results
  all_goals rfl

/-- After the host operations: the slot norm weights as one row. -/
theorem W1_v12 (c : Dev nD) : (W1 m ρ c (Proc.devRef .tc main_v12) : S1x1024.Idx → Elt F .f32)
    = shapeCast S1x1024 (m ((c : Thread nD τ).loc main_arg9)) shapeCasts_S1024_S1x1024 := by
  show StableHlo.after hostOps0 (W0 m ρ c) (Proc.devRef .tc main_v12) = _
  after_results
  all_goals rfl

/-- After the host operations: the memory norm weights as one row. -/
theorem W1_v13 (c : Dev nD) : (W1 m ρ c (Proc.devRef .tc main_v13) : S1x1024.Idx → Elt F .f32)
    = shapeCast S1x1024 (m ((c : Thread nD τ).loc main_arg10)) shapeCasts_S1024_S1x1024 := by
  show StableHlo.after hostOps0 (W0 m ρ c) (Proc.devRef .tc main_v13) = _
  after_results
  all_goals rfl

/-- The slots are as launched. -/
theorem W1_arg0 (c : Dev nD) : W1 m ρ c (Proc.devRef .tc main_arg0) = m ((c : Thread nD τ).loc main_arg0) := by
  show StableHlo.after hostOps0 (W0 m ρ c) (Proc.devRef .tc main_arg0) = _
  after_results
  all_goals rfl

/-- The memory is as launched. -/
theorem W1_arg1 (c : Dev nD) : W1 m ρ c (Proc.devRef .tc main_arg1) = m ((c : Thread nD τ).loc main_arg1) := by
  show StableHlo.after hostOps0 (W0 m ρ c) (Proc.devRef .tc main_arg1) = _
  after_results
  all_goals rfl

end Cert.KernelIdeal.KerHost

end
-- ==== Proof.Spec.lean ====
/-
  The mathematics both programs compute, stated once over plain finite index types and the extended reals.

  One batch element carries 64 slots of width 1024 and 4096 memory rows of width 1024.  The memory rows are
  normalised by their root mean square (`rms`), and projected to keys and values (`mulT`: a matrix times the
  transpose of a weight matrix).  Then three times: the slots are normalised and projected to queries; the
  scores of every slot against every key are scaled; a softmax is taken over the SLOT axis (each key's column:
  `colMax`, `expo`, `soft`), the result renormalised over the KEY axis with a small constant added to the
  divisor (`attn`); the attention weights average the values (`mulM`); and a gated recurrent cell (`gates`,
  `gru`) updates the slots from that average.  `out` is the slot array after the third update.

  The shared f32 literals (1024, 1e-6 rounded, 1/32, 1, -inf) stay as their bit patterns: the same pattern on
  both sides is never evaluated.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The row width 1024 as the f32 literal both programs divide by. -/
abbrev cN : EReal := Ideal.ofBits .f32 0x44800000#32
/-- The f32 nearest to 1e-6, added under the root and to the key-axis divisor. -/
abbrev cEps : EReal := Ideal.ofBits .f32 0x358637BD#32
/-- The score scale 1024^(-1/2) = 1/32. -/
abbrev cScale : EReal := Ideal.ofBits .f32 0x3D000000#32
/-- The literal 1 of `1 - z`. -/
abbrev cOne : EReal := Ideal.ofBits .f32 0x3F800000#32
/-- The literal -inf a maximum starts from. -/
abbrev cNegInf : EReal := Ideal.ofBits .f32 0xFF800000#32

/-- A matrix of `a` rows and `b` columns. -/
abbrev Mat (a b : ℕ) := Fin a → Fin b → EReal

/-- Each row divided by the root of (its mean square plus eps), then weighted column by column. -/
def rms {a : ℕ} (x : Mat a 1024) (w : Fin 1024 → EReal) : Mat a 1024 :=
  fun r d => x r d * Ideal.rsqrt (Ideal.div (∑ j : Fin 1024, x r j * x r j) cN + cEps) * w d

/-- `x Wᵀ`: rows of `x` against rows of `W`. -/
def mulT {a n e : ℕ} (x : Mat a n) (W : Mat e n) : Mat a e :=
  fun r c => ∑ j : Fin n, x r j * W c j

/-- `x V`: rows of `x` against columns of `V`. -/
def mulM {a n e : ℕ} (x : Mat a n) (V : Mat n e) : Mat a e :=
  fun r c => ∑ j : Fin n, x r j * V j c

/-- Scaled scores of 64 queries against 4096 keys. -/
def scores (q : Mat 64 1024) (kp : Mat 4096 1024) : Mat 64 4096 :=
  fun k m => mulT q kp k m * cScale

/-- The largest score in a key's column, as a fold of `max` from -inf over the slots. -/
def colMax (s : Mat 64 4096) : Fin 4096 → EReal :=
  fun m => (Finset.univ : Finset (Fin 64)).fold max cNegInf (fun k => s k m)

/-- Exponentials of the scores shifted by their column's maximum. -/
def expo (s : Mat 64 4096) : Mat 64 4096 :=
  fun k m => Ideal.exp (s k m - colMax s m)

/-- The softmax over the slot axis. -/
def soft (s : Mat 64 4096) : Mat 64 4096 :=
  fun k m => Ideal.div (expo s k m) (∑ k' : Fin 64, expo s k' m)

/-- The softmax renormalised along the key axis, eps added to the divisor. -/
def attn (s : Mat 64 4096) : Mat 64 4096 :=
  fun k m => Ideal.div (soft s k m) ((∑ m' : Fin 4096, soft s k m') + cEps)

/-- The three gate pre-activations side by side: `u Wᵀ + b` with `W` of 3072 rows. -/
def gates (u : Mat 64 1024) (W : Mat 3072 1024) (b : Fin 3072 → EReal) : Mat 64 3072 :=
  fun k e => mulT u W k e + b e

/-- Column `d` of the reset, update and candidate thirds of a gate row. -/
def lo (d : Fin 1024) : Fin 3072 := ⟨d.val, by have := d.isLt; omega⟩
def mid (d : Fin 1024) : Fin 3072 := ⟨1024 + d.val, by have := d.isLt; omega⟩
def hi (d : Fin 1024) : Fin 3072 := ⟨2048 + d.val, by have := d.isLt; omega⟩

/-- The gated recurrent cell: `(1 - z) n + z s` with `r`, `z` logistic and `n` a hyperbolic tangent. -/
def gru (gi gh : Mat 64 3072) (s : Mat 64 1024) : Mat 64 1024 :=
  fun k d =>
    (cOne - Ideal.logistic (gi k (mid d) + gh k (mid d)))
        * Ideal.tanh (gi k (hi d) + Ideal.logistic (gi k (lo d) + gh k (lo d)) * gh k (hi d))
      + Ideal.logistic (gi k (mid d) + gh k (mid d)) * s k d

/-- The attention half of a round: the values averaged by the attention of the normalised slots over the keys. -/
def upd (kp vp : Mat 4096 1024) (wq : Mat 1024 1024) (sw : Fin 1024 → EReal) (s : Mat 64 1024) : Mat 64 1024 :=
  mulM (attn (scores (mulT (rms s sw) wq) kp)) vp

/-- The recurrent half of a round: the cell fed with the averaged values `u` and the slots `s`. -/
def cell (wi wh : Mat 3072 1024) (bi bh : Fin 3072 → EReal) (u s : Mat 64 1024) : Mat 64 1024 :=
  gru (gates u wi bi) (gates s wh bh) s

/-- One round: attention of the normalised slots over the keys, then the recurrent update. -/
def iter (kp vp : Mat 4096 1024) (wq : Mat 1024 1024) (wi wh : Mat 3072 1024) (bi bh : Fin 3072 → EReal)
    (sw : Fin 1024 → EReal) (s : Mat 64 1024) : Mat 64 1024 :=
  cell wi wh bi bh (upd kp vp wq sw s) s

/-- Three rounds. -/
def iter3 (kp vp : Mat 4096 1024) (wq : Mat 1024 1024) (wi wh : Mat 3072 1024) (bi bh : Fin 3072 → EReal)
    (sw : Fin 1024 → EReal) (s : Mat 64 1024) : Mat 64 1024 :=
  iter kp vp wq wi wh bi bh sw (iter kp vp wq wi wh bi bh sw (iter kp vp wq wi wh bi bh sw s))

/-- Keys (or values) of one batch element: the normalised memory rows against a weight matrix. -/
def proj {a : ℕ} (p : Mat a 1024) (iw : Fin 1024 → EReal) (W : Mat 1024 1024) : Mat a 1024 :=
  mulT (rms p iw) W

/-! ## The arrays as the programs hold them -/

abbrev A3 (a b c : ℕ) := (⟨3, ![a, b, c]⟩ : Shape).Idx → EReal
abbrev A2 (a b : ℕ) := (⟨2, ![a, b]⟩ : Shape).Idx → EReal
abbrev A1 (a : ℕ) := (⟨1, ![a]⟩ : Shape).Idx → EReal

/-- Batch element `b` of a rank-3 array as a matrix. -/
def slab {n a c : ℕ} (x : A3 n a c) (b : Fin n) : Mat a c := fun r d => x (ix3 b r d)
/-- A rank-2 array as a matrix. -/
def mat {a c : ℕ} (x : A2 a c) : Mat a c := fun r d => x (ix2 r d)
/-- A rank-1 array as a row. -/
def row {a : ℕ} (x : A1 a) : Fin a → EReal := fun d => x (ix1 d)

/-- The result by coordinates: batch `b`, slot `k`, column `d`. -/
def outAt (slots : A3 8 64 1024) (P : A3 8 4096 1024) (Wq Wk Wv : A2 1024 1024) (wi wh : A2 3072 1024)
    (bi bh : A1 3072) (sw iw : A1 1024) (b : Fin 8) : Mat 64 1024 :=
  iter3 (proj (slab P b) (row iw) (mat Wk)) (proj (slab P b) (row iw) (mat Wv)) (mat Wq) (mat wi) (mat wh)
    (row bi) (row bh) (row sw) (slab slots b)

/-- The result array. -/
def out (slots : A3 8 64 1024) (P : A3 8 4096 1024) (Wq Wk Wv : A2 1024 1024) (wi wh : A2 3072 1024)
    (bi bh : A1 3072) (sw iw : A1 1024) : A3 8 64 1024 :=
  fun i => outAt slots P Wq Wk Wv wi wh bi bh sw iw (i 0) (i 1) (i 2)

theorem out_ix3 (slots : A3 8 64 1024) (P : A3 8 4096 1024) (Wq Wk Wv : A2 1024 1024) (wi wh : A2 3072 1024)
    (bi bh : A1 3072) (sw iw : A1 1024) (b : Fin 8) (k : Fin 64) (d : Fin 1024) :
    out slots P Wq Wk Wv wi wh bi bh sw iw (ix3 b k d) = outAt slots P Wq Wk Wv wi wh bi bh sw iw b k d := rfl

end Cert.Spec

end
-- ==== Proof.LibKeepdims.lean ====
/-
  A reduction along the last axis of an `[a, b]` array that keeps its dimension (`keepdims=True`): the `[a]` result is
  re-laid as a column `[a, 1]` and the column is spread back over the `b` lanes of every row. Read at an index, the
  column at `(i, u)` is the vector at `i`, the spread column at `(p, c)` is the column at `(p, 0)`, and the source
  index that a one-axis reduction along axis 1 visits for row `p` and coordinate `k` is `(p, k)`. Stated for any
  extents `a`, `b` and any element type.
-/
import Idealize.ShloMosaic.Lib.Pipeline.Value
import Idealize.ShloMosaic.Lib.ValueIdx
import Idealize.ShloMosaic.PureOps.Reduce

namespace Cert.Lib.Keepdims

open Idealize.ShloMosaic Idealize.ShloMosaic.ValueIdx

variable {α : Type}

/-- An `[a]` vector cast to the column `[a, 1]` reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector re-laid as a column and spread over the lanes reads, at `(p, c)`, the vector at `p`. -/
theorem column_spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-- A one-axis reduction of `[a, b]` along axis 1 visits, for row `p` and coordinate `k` of the reduced axis, the
    source index `(p, k)`. -/
theorem lift_axis1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

end Cert.Lib.Keepdims
-- ==== Proof.LibMlpAt.lean ====
/-
  The two-layer perceptron with rectifiers, read at one entry.

  For matrices x : [N, K], wa : [K, D], wb : [D, D] and one-row biases ba, bb : [1, D] the value at (r, q) is
      max (∑ j, max (∑ i, x[r,i] · wa[i,j] + ba[0,j]) 0 · wb[j,q] + bb[0,q]) 0
  on the extended reals. Two spellings of that function occur: the host's (two `dot_general`s, the biases broadcast
  along the rows, the rectifier a maximum with a broadcast zero) and a tile's (two matrix products into a zero
  accumulator with the operands narrowed to bf16 first, the biases broadcast as vectors). At the ideal values a change of
  format is the identity and both products are plain sums over the contracted coordinate, so each spelling reads the
  formula above at every entry; nothing here needs the entries to be finite.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp

open Idealize.ShloMosaic Idealize.ShloMosaic.ValueIdx

/-! ## A plain matrix product's dimension numbers, and its sum -/

/-- The dimension numbers of a plain product [m, k] × [k, n] → [m, n]: contract the left operand's axis 1 with the
    right operand's axis 0. -/
abbrev D2 {m k n : Nat} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

variable {m k n : Nat}

/-- The left operand's index at output (a, b) and contracted coordinate c is (a, c). -/
theorem lhsIdx_D2 (w : DotDims.WF ⟨2, ![m, k]⟩ ⟨2, ![k, n]⟩ ⟨2, ![m, n]⟩ [1] [0] [0] [1] [] []) (a : Fin m) (b : Fin n) (c : Fin k) :
    (D2 w).lhsIdx (ix2 a b) ((contrEquiv1 (D2 w) k rfl rfl).symm c) = ix2 a c := by
  have c2 := contrEquiv1_symm_val (D2 w) k rfl rfl c
  funext ax; apply Fin.ext
  match ax with
  | ⟨0, _⟩ => simp [DotDims.lhsIdx]; rfl
  | ⟨1, _⟩ => simp [DotDims.lhsIdx]; exact c2

/-- The right operand's index at output (a, b) and contracted coordinate c is (c, b). -/
theorem rhsIdx_D2 (w : DotDims.WF ⟨2, ![m, k]⟩ ⟨2, ![k, n]⟩ ⟨2, ![m, n]⟩ [1] [0] [0] [1] [] []) (a : Fin m) (b : Fin n) (c : Fin k) :
    (D2 w).rhsIdx (ix2 a b) ((contrEquiv1 (D2 w) k rfl rfl).symm c) = ix2 c b := by
  have c2 := contrEquiv1_symm_val (D2 w) k rfl rfl c
  funext ax; apply Fin.ext
  match ax with
  | ⟨0, _⟩ => simp [DotDims.rhsIdx]; exact c2
  | ⟨1, _⟩ => simp [DotDims.rhsIdx]; rfl

/-- The host's product at (a, b): the sum over the contracted coordinate of the entries' products. -/
theorem dotGeneral_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (D2 w) prec A B (ix2 a b) = ∑ c : Fin k, A (ix2 a c) * B (ix2 c b) := by
  show FloatOps.dotGeneral _ prec _ A B (ix2 a b) = _
  rw [Ideal.dotGeneral_apply, ← Equiv.sum_comp (contrEquiv1 (D2 w) k rfl rfl).symm]
  refine Finset.sum_congr rfl fun c _ => ?_
  rw [lhsIdx_D2, rhsIdx_D2]

/-- A tile's product into a zero accumulator at (a, b): the same sum. -/
theorem matmul_zero_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (D2 w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (D2 w) k rfl rfl).symm]
  refine Finset.sum_congr rfl fun c _ => ?_
  rw [lhsIdx_D2, rhsIdx_D2]

/-! ## Broadcasts of a one-row bias and of a scalar, at an entry -/

/-- A [1, D] row broadcast along the rows of [N, D] reads, at (r, q), the row at q. -/
theorem bcastRow_at {N D : Nat} {α : Type} (h : (⟨2, ![1, D]⟩ : Shape).BroadcastsInDim ⟨2, ![N, D]⟩ (![0, 1] : Fin 2 → Fin 2))
    (v : (⟨2, ![1, D]⟩ : Shape).Idx → α) (r : Fin N) (q : Fin D) :
    broadcastInDim ⟨2, ![N, D]⟩ (![0, 1] : Fin 2 → Fin 2) h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if D = 1 then 0 else q.val
    split
    · have := q.isLt; omega
    · rfl

/-- A scalar broadcast to [N, D] reads the scalar everywhere. -/
theorem bcastScalar_at {N D : Nat} {α : Type} (h : (⟨0, ![]⟩ : Shape).BroadcastsInDim ⟨2, ![N, D]⟩ (![] : Fin 0 → Fin 2))
    (v : (⟨0, ![]⟩ : Shape).Idx → α) (i : (⟨2, ![N, D]⟩ : Shape).Idx) :
    broadcastInDim ⟨2, ![N, D]⟩ (![] : Fin 0 → Fin 2) h v i = v ix0 :=
  broadcastInDim_apply _ h v i ix0 fun ax => ax.elim0

/-- A [D] vector viewed as its one row [1, D] is the vector broadcast along a new leading unit axis: both read the
    vector's entry i at (0, i). -/
theorem rowCast_eq_bcast {D : Nat} {α : Type} (x : (⟨1, ![D]⟩ : Shape).Idx → α) (h : (⟨1, ![D]⟩ : Shape).ShapeCasts ⟨2, ![1, D]⟩)
    (h' : (⟨1, ![D]⟩ : Shape).BroadcastsInDim ⟨2, ![1, D]⟩ (![1] : Fin 1 → Fin 2)) :
    shapeCast ⟨2, ![1, D]⟩ x h = broadcastInDim ⟨2, ![1, D]⟩ (![1] : Fin 1 → Fin 2) h' x := by
  funext j
  obtain ⟨u, i, rfl⟩ : ∃ (u : Fin 1) (i : Fin D), j = ix2 u i := ⟨j 0, j 1, eq_ix2 j⟩
  rw [shapeCast_a_1a_apply]
  refine (broadcastInDim_apply _ h' x (ix2 u i) (ix1 i) fun ax => ?_).symm
  match ax with
  | ⟨0, _⟩ =>
    show i.val = if D = 1 then 0 else i.val
    split
    · have := i.isLt; omega
    · rfl

/-! ## The perceptron at an entry -/

/-- The value at (r, q): the second layer's rectified affine map of the first layer's. -/
def mlpVal {N K D : Nat} (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) : Ideal .f32 :=
  max ((∑ j : Fin D, max ((∑ i : Fin K, x (ix2 r i) * wa (ix2 i j)) + ba (ix2 (0 : Fin 1) j)) (Ideal.ofBits .f32 0x00000000#32) * wb (ix2 j q))
    + bb (ix2 (0 : Fin 1) q)) (Ideal.ofBits .f32 0x00000000#32)

/-- The value at row r depends only on row r of x: two inputs with equal rows give equal values. -/
theorem mlpVal_congr_row {N N' K D : Nat} (x : FVec Ideal ⟨2, ![N, K]⟩ .f32) (x' : FVec Ideal ⟨2, ![N', K]⟩ .f32)
    (wa : FVec Ideal ⟨2, ![K, D]⟩ .f32) (ba : FVec Ideal ⟨2, ![1, D]⟩ .f32) (wb : FVec Ideal ⟨2, ![D, D]⟩ .f32) (bb : FVec Ideal ⟨2, ![1, D]⟩ .f32)
    (r : Fin N) (r' : Fin N') (hrow : ∀ i : Fin K, x (ix2 r i) = x' (ix2 r' i)) (q : Fin D) :
    mlpVal x wa ba wb bb r q = mlpVal x' wa ba wb bb r' q := by
  unfold mlpVal
  simp only [hrow]

/-- The host's spelling: two `dot_general`s, the biases broadcast along the rows, each rectifier a maximum with a
    broadcast zero. -/
def mlpHost {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![N, D]⟩ .f32 :=
  maximumf (addf (Host.dotGeneral (D2 wB) none
      (maximumf (addf (Host.dotGeneral (D2 wA) none x wa) (broadcastInDim ⟨2, ![N, D]⟩ (![0, 1] : Fin 2 → Fin 2) hb ba))
        (broadcastInDim ⟨2, ![N, D]⟩ (![] : Fin 0 → Fin 2) hz (constant (F := Ideal) ⟨0, ![]⟩ .f32 0x00000000#32))) wb)
      (broadcastInDim ⟨2, ![N, D]⟩ (![0, 1] : Fin 2 → Fin 2) hb bb))
    (broadcastInDim ⟨2, ![N, D]⟩ (![] : Fin 0 → Fin 2) hz (constant (F := Ideal) ⟨0, ![]⟩ .f32 0x00000000#32))

theorem mlpHost_at {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) :
    mlpHost wA wB hb hz x wa ba wb bb (ix2 r q) = mlpVal x wa ba wb bb r q := by
  unfold mlpHost mlpVal
  rw [maximumf_apply, addf_apply, dotGeneral_at, bcastRow_at, bcastScalar_at, constant_apply]
  refine congrArg (fun s => max (s + bb (ix2 (0 : Fin 1) q)) (Ideal.ofBits .f32 0x00000000#32)) ?_
  refine Finset.sum_congr rfl fun j _ => ?_
  rw [maximumf_apply, addf_apply, dotGeneral_at, bcastRow_at, bcastScalar_at, constant_apply]

/-- The host's spelling with the biases given as vectors [D], each made a row by a broadcast along a new unit axis. -/
def mlpHostV {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) : FVec Ideal ⟨2, ![N, D]⟩ .f32 :=
  mlpHost wA wB hb hz x wa (broadcastInDim ⟨2, ![1, D]⟩ (![1] : Fin 1 → Fin 2) hr ba) wb
    (broadcastInDim ⟨2, ![1, D]⟩ (![1] : Fin 1 → Fin 2) hr bb)

/-- With the biases reshaped to one row instead: the same array. -/
theorem mlpHost_rowCast {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (hc : (⟨1, ![D]⟩ : Shape).ShapeCasts ⟨2, ![1, D]⟩)
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) :
    mlpHost wA wB hb hz x wa (shapeCast ⟨2, ![1, D]⟩ ba hc) wb (shapeCast ⟨2, ![1, D]⟩ bb hc)
      = mlpHostV wA wB hb hz hr x wa ba wb bb := by
  unfold mlpHostV
  rw [rowCast_eq_bcast ba hc hr, rowCast_eq_bcast bb hc hr]

/-- A tile's spelling: the operands narrowed to bf16, two products into a zero accumulator, the biases broadcast as
    vectors, each rectifier a maximum with a splat zero. -/
def mlpTile {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![T, D]⟩ .f32 :=
  maximumf (addf (matmul (D2 wB) none
      (truncf .bf16 (maximumf (addf (matmul (D2 wA) none (truncf .bf16 x hlt) (truncf .bf16 wa hlt) (constant ⟨2, ![T, D]⟩ .f32 0x00000000#32))
          (broadcastTo ⟨2, ![T, D]⟩ ba hb)) (broadcast ⟨2, ![T, D]⟩ (Scalar.ofBits (F := Ideal) .f32 0x00000000#32))) hlt)
      (truncf .bf16 wb hlt) (constant ⟨2, ![T, D]⟩ .f32 0x00000000#32))
      (broadcastTo ⟨2, ![T, D]⟩ bb hb))
    (broadcast ⟨2, ![T, D]⟩ (Scalar.ofBits (F := Ideal) .f32 0x00000000#32))

theorem mlpTile_at {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (p : Fin T) (q : Fin D) :
    mlpTile wA wB hb hlt x wa ba wb bb (ix2 p q) = mlpVal x wa ba wb bb p q := by
  unfold mlpTile mlpVal
  rw [maximumf_apply, addf_apply, matmul_zero_at, broadcastTo_1b_ab_apply, broadcast_apply]
  refine congrArg (fun s => max (s + bb (ix2 (0 : Fin 1) q)) (Ideal.ofBits .f32 0x00000000#32)) ?_
  refine Finset.sum_congr rfl fun j _ => ?_
  rw [truncf_apply, truncf_apply, maximumf_apply, addf_apply, matmul_zero_at, broadcastTo_1b_ab_apply, broadcast_apply]
  refine congrArg (fun s => max (s + ba (ix2 (0 : Fin 1) j)) (Ideal.ofBits .f32 0x00000000#32) * wb (ix2 j q)) ?_
  refine Finset.sum_congr rfl fun i _ => ?_
  rw [truncf_apply, truncf_apply]

end Cert.Mlp

end
-- ==== Proof.KerA.lean ====
/-
  The first kernel's body, read at an entry.  A block holds 512 memory rows of width 1024.  Each row is divided by
  the root of (its mean square plus eps) and weighted column by column; the normalised block times a 1024 x 1024
  matrix (the transposed weights) is stored.  At the ideal values the change of format before the product is the
  identity and the product is a plain sum, so the stored block's entry (r, e) is the projection `Spec.proj` of the
  block's rows at (r, e), for the key and for the value output alike.
-/
import proofs.«162511_j86208583565576_1_alg».proof.Proof.Gen.KernelIdeal.Skeleton
import proofs.«162511_j86208583565576_1_alg».proof.Proof.Spec
import proofs.«162511_j86208583565576_1_alg».proof.Proof.LibKeepdims
import proofs.«162511_j86208583565576_1_alg».proof.Proof.LibMlpAt
import Idealize.ShloMosaic.Lib.ValueLayout
import Idealize.ShloMosaic.PureOps.Ideal.Laws

noncomputable section

namespace Cert.KernelIdeal.KerA

open Idealize.ShloMosaic Idealize.ShloMosaic.ValueIdx Cert.KernelIdeal Cert.KernelIdeal.Gen

/-- Rows of an `[a, 1024]` block normalised by their root mean square and weighted by a one-row block, in the
    body's spelling, read at (r, j). -/
theorem rmsK_at {a : ℕ} (x : FVec Ideal ⟨2, ![a, 1024]⟩ .f32) (w : FVec Ideal ⟨2, ![1, 1024]⟩ .f32)
    (hr : (⟨2, ![a, 1024]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, 1024]⟩)
    (hw : (⟨2, ![1, 1024]⟩ : Shape).Broadcasts ⟨2, ![a, 1024]⟩) (r : Fin a) (j : Fin 1024) :
    mulf (mulf x (broadcastTo ⟨2, ![a, 1024]⟩ (rsqrt (addf (divf (shapeCast ⟨2, ![a, 1]⟩
        (multiReduction .add [1] ⟨1, ![a]⟩ (mulf x x) 0x00000000#32 hr hφ hacc) hc)
        (broadcast ⟨2, ![a, 1]⟩ (Scalar.ofBits .f32 0x44800000#32)))
        (broadcast ⟨2, ![a, 1]⟩ (Scalar.ofBits .f32 0x358637BD#32)))) hb))
        (broadcastTo ⟨2, ![a, 1024]⟩ w hw) (ix2 r j)
      = Cert.Spec.rms (fun r j => x (ix2 r j)) (fun j => w (ix2 (0 : Fin 1) j)) r j := by
  show x (ix2 r j) * broadcastTo ⟨2, ![a, 1024]⟩ _ hb (ix2 r j) * broadcastTo ⟨2, ![a, 1024]⟩ w hw (ix2 r j) = _
  rw [broadcastTo_1b_ab_apply, Cert.Lib.Keepdims.broadcastTo_a1_ab_apply]
  show x (ix2 r j) * Ideal.rsqrt (Ideal.div (shapeCast ⟨2, ![a, 1]⟩ _ hc (ix2 r (0 : Fin 1))) _ + _) * w (ix2 (0 : Fin 1) j) = _
  rw [Cert.Lib.Keepdims.shapeCast_a_a1_apply, Ideal.multiReduction_add_single]
  unfold Cert.Spec.rms
  refine congrArg₂ (· * ·) (congrArg₂ (· * ·) rfl (congrArg Ideal.rsqrt (congrArg₂ (· + ·) (congrArg₂ Ideal.div ?_ rfl) rfl))) rfl
  exact Finset.sum_congr rfl fun k _ => (congrArg (mulf x x) (Cert.Lib.Keepdims.lift_axis1 hr r k)).trans rfl

/-- The normalised block, read at (r, j): the block's rows are the loaded `[1, 512, 1024]` block without its unit axis. -/
theorem pay1_at (x0 : Vec Ideal S1x512x1024 .f32) (x3 : Vec Ideal S1x1024 .f32) (r : Fin 512) (j : Fin 1024) :
    k0_pay1 (F := Ideal) x0 x3 (ix2 r j)
      = Cert.Spec.rms (fun r j => x0 (ix3 (0 : Fin 1) r j)) (fun j => x3 (ix2 (0 : Fin 1) j)) r j := by
  unfold k0_pay1
  refine (rmsK_at (shapeCast S512x1024 x0 shapeCasts_S1x512x1024_S512x1024)
    (shapeCast S1x1024 x3 shapeCasts_S1x1024_S1x1024) _ _ _ _ _ _ r j).trans ?_
  unfold Cert.Spec.rms
  simp only [shapeCast_1ab_ab_apply, shapeCast_self]

/-- The stored key block at (u, r, e): the normalised rows against the matrix's columns. -/
theorem pay2_at (x0 : Vec Ideal S1x512x1024 .f32) (x3 : Vec Ideal S1x1024 .f32) (x1 : Vec Ideal S1024x1024 .bf16)
    (u : Fin 1) (r : Fin 512) (e : Fin 1024) :
    k0_pay2 (F := Ideal) x0 x3 x1 (ix3 u r e)
      = Cert.Spec.proj (fun r j => x0 (ix3 (0 : Fin 1) r j)) (fun j => x3 (ix2 (0 : Fin 1) j)) (fun e j => x1 (ix2 j e)) r e := by
  unfold k0_pay2
  refine (shapeCast_ab_1ab_apply _ _ u r e).trans ?_
  refine (Cert.Mlp.matmul_zero_at dot_S512x1024_S1024x1024_S512x1024_1_0_0_1_n_n_wf none _ _ r e).trans ?_
  unfold Cert.Spec.proj Cert.Spec.mulT
  refine Finset.sum_congr rfl fun c _ => ?_
  rw [pay1_at, shapeCast_self]

/-- The stored value block at (u, r, e): the same with the other matrix. -/
theorem pay3_at (x0 : Vec Ideal S1x512x1024 .f32) (x3 : Vec Ideal S1x1024 .f32) (x2 : Vec Ideal S1024x1024 .bf16)
    (u : Fin 1) (r : Fin 512) (e : Fin 1024) :
    k0_pay3 (F := Ideal) x0 x3 x2 (ix3 u r e)
      = Cert.Spec.proj (fun r j => x0 (ix3 (0 : Fin 1) r j)) (fun j => x3 (ix2 (0 : Fin 1) j)) (fun e j => x2 (ix2 j e)) r e := by
  unfold k0_pay3
  refine (shapeCast_ab_1ab_apply _ _ u r e).trans ?_
  refine (Cert.Mlp.matmul_zero_at dot_S512x1024_S1024x1024_S512x1024_1_0_0_1_n_n_wf none _ _ r e).trans ?_
  unfold Cert.Spec.proj Cert.Spec.mulT
  refine Finset.sum_congr rfl fun c _ => ?_
  rw [pay1_at, shapeCast_self]

end Cert.KernelIdeal.KerA

end
-- ==== Proof.SpecLemmas.lean ====
/-
  Which entries of its inputs an entry of the specification depends on.  Row `r` of a normalised and projected
  matrix depends only on row `r` of the input; so a block of rows of the projection is the projection of the block.
-/
import proofs.«162511_j86208583565576_1_alg».proof.Proof.Spec

noncomputable section

namespace Cert.Spec

/-- A normalised row depends only on that row. -/
theorem rms_congr_row {a a' : ℕ} (x : Mat a 1024) (x' : Mat a' 1024) (w w' : Fin 1024 → EReal) (r : Fin a) (r' : Fin a')
    (hx : ∀ j, x r j = x' r' j) (hw : ∀ j, w j = w' j) (d : Fin 1024) : rms x w r d = rms x' w' r' d := by
  unfold rms
  rw [hx d, hw d]
  simp only [hx]

/-- An entry of a projected row depends only on that row of the input (and on the weights). -/
theorem proj_congr_row {a a' : ℕ} (p : Mat a 1024) (p' : Mat a' 1024) (iw iw' : Fin 1024 → EReal) (W W' : Mat 1024 1024)
    (r : Fin a) (r' : Fin a') (hp : ∀ j, p r j = p' r' j) (hiw : ∀ j, iw j = iw' j) (hW : ∀ e j, W e j = W' e j)
    (e : Fin 1024) : proj p iw W r e = proj p' iw' W' r' e := by
  unfold proj mulT
  refine Finset.sum_congr rfl fun j _ => ?_
  rw [rms_congr_row p p' iw iw' r r' hp hiw j, hW e j]

end Cert.Spec

end
-- ==== Proof.Ker0.lean ====
/-
  What the first region leaves in its two output arrays.  The grid has 8 x 8 points; point (b, q) reads rows
  512 q … 512 q + 511 of batch element b of the memory and writes the same rows of the key array and of the value
  array.  The 64 blocks tile each output array, and the block a point writes is the block of ONE function of the
  region's input arrays (the projection of the memory rows, `Spec.proj`, row by row), so each output array ends
  holding that function.
-/
import proofs.«162511_j86208583565576_1_alg».proof.Proof.Gen.KernelIdeal.Frame
import proofs.«162511_j86208583565576_1_alg».proof.Proof.KerA
import proofs.«162511_j86208583565576_1_alg».proof.Proof.SpecLemmas

set_option maxRecDepth 16384

noncomputable section

namespace Cert.KernelIdeal.Ker0

open Idealize.ShloMosaic Idealize.ShloMosaic.ValueIdx Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The projection of the memory rows by the weight array `Wt` (held transposed: entry (j, e) multiplies column j
    into output column e), as one function of the region's input arrays. -/
def GP (P : S8x4096x1024.Idx → Elt Ideal .f32) (iw : S1x1024.Idx → Elt Ideal .f32) (Wt : S1024x1024.Idx → Elt Ideal .bf16) :
    S8x4096x1024.Idx → Elt Ideal .bf16 := fun i =>
  Cert.Spec.proj (fun r j => P (ix3 (i 0) r j)) (fun j => iw (ix2 (0 : Fin 1) j)) (fun e j => Wt (ix2 j e)) (i 1) (i 2)

/-- The printed index maps over the 64 grid points: the memory window and both output windows move together
    (block (b, q, 0)), the weight and norm windows stay at block 0. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0 ∧ win0_4.index t (2 : Fin 3) = 0
    ∧ win0_5.index t (0 : Fin 3) = win0_4.index t (0 : Fin 3) ∧ win0_5.index t (1 : Fin 3) = win0_4.index t (1 : Fin 3)
    ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) ≤ 7 ∧ win0_4.index t (1 : Fin 3) ≤ 7 :=
  (by decide +kernel : ∀ t : Fin grid0.N, _)

/-- Every block (b, q) is some point's. -/
theorem idx_onto : ∀ (q0 : Fin 8) (q1 : Fin 8), ∃ t : Fin cfg0.N, win0_4.index t = ![q0.val, q1.val, 0] :=
  (by decide +kernel : ∀ (q0 : Fin 8) (q1 : Fin 8), ∃ t : Fin grid0.N, win0_4.index t = ![q0.val, q1.val, 0])

/-- A block coordinate of the memory window at a point, inside the array: block index times block size plus the
    coordinate inside the block, on each axis. -/
theorem emb0 (t : Fin cfg0.N) (r : Fin 512) (j : Fin 1024) (i1 : Fin 4096) (b : Fin 8)
    (hb : b.val = win0_4.index t (0 : Fin 3)) (hi : i1.val = win0_4.index t (1 : Fin 3) * 512 + r.val) :
    ((cfg0.win 0).blk t).view.emb (ix3 (0 : Fin 1) r j) = (ix3 b i1 j : S8x4096x1024.Idx) := by
  obtain ⟨e0, e1, e2, -⟩ := idx_facts t
  funext a; apply Fin.ext
  match a with
  | ⟨0, _⟩ => show win0_0.index t (0 : Fin 3) * 1 + 1 * 0 = b.val; omega
  | ⟨1, _⟩ => show win0_0.index t (1 : Fin 3) * 512 + 1 * r.val = i1.val; omega
  | ⟨2, _⟩ => show win0_0.index t (2 : Fin 3) * 1024 + 1 * j.val = j.val; omega

/-- The norm weights' window is the whole one-row array at every point. -/
theorem emb3 (t : Fin cfg0.N) (j : Fin 1024) :
    ((cfg0.win 3).blk t).view.emb (ix2 (0 : Fin 1) j) = (ix2 (0 : Fin 1) j : S1x1024.Idx) := by
  obtain ⟨-, -, -, -, -, -, -, -, -, -, -, e11, e12, -⟩ := idx_facts t
  funext a; apply Fin.ext
  match a with
  | ⟨0, _⟩ => show win0_3.index t (0 : Fin 2) * 1 + 1 * 0 = 0; omega
  | ⟨1, _⟩ => show win0_3.index t (1 : Fin 2) * 1024 + 1 * j.val = j.val; omega

/-- The key weights' window is the whole matrix at every point. -/
theorem emb1 (t : Fin cfg0.N) (j e : Fin 1024) :
    ((cfg0.win 1).blk t).view.emb (ix2 j e) = (ix2 j e : S1024x1024.Idx) := by
  obtain ⟨-, -, -, -, -, -, -, e7, e8, -⟩ := idx_facts t
  funext a; apply Fin.ext
  match a with
  | ⟨0, _⟩ => show win0_1.index t (0 : Fin 2) * 1024 + 1 * j.val = j.val; omega
  | ⟨1, _⟩ => show win0_1.index t (1 : Fin 2) * 1024 + 1 * e.val = e.val; omega

/-- The value weights' window likewise. -/
theorem emb2 (t : Fin cfg0.N) (j e : Fin 1024) :
    ((cfg0.win 2).blk t).view.emb (ix2 j e) = (ix2 j e : S1024x1024.Idx) := by
  obtain ⟨-, -, -, -, -, -, -, -, -, e9, e10, -⟩ := idx_facts t
  funext a; apply Fin.ext
  match a with
  | ⟨0, _⟩ => show win0_2.index t (0 : Fin 2) * 1024 + 1 * j.val = j.val; omega
  | ⟨1, _⟩ => show win0_2.index t (1 : Fin 2) * 1024 + 1 * e.val = e.val; omega

/-- WHAT POINT `t` WRITES BACK to the key array is block `t` of the projection by the key weights. -/
theorem flushed4_eq (c : Dev nD) (t : Fin cfg0.N) :
    (dat0 V c).flushed 4 t = ((cfg0.win 4).blk t).view.read (Elt Ideal) (GP (V c main_arg1) (V c main_v13) (V c main_v1)) := by
  show (cfg0.win 4).cut (grid0.coords t) ((dat0 V c).after 4 t) = _
  rw [after0_4]
  unfold out0_4
  rw [View.canon_unit_zero hz3]
  simp only [View.ld_unit_zero (S := S1x512x1024) hz3, View.ld_unit_zero (S := S1x1024) hz2, View.ld_unit_zero (S := S1024x1024) hz2]
  obtain ⟨e0, e1, e2, e3, -, -, -, -, -, -, -, -, -, b0, b1⟩ := idx_facts t
  funext y
  obtain ⟨u, r, e, rfl⟩ : ∃ (u : Fin 1) (r : Fin 512) (e : Fin 1024), y = ix3 u r e := ⟨y 0, y 1, y 2, eq_ix3 y⟩
  refine (Cert.KernelIdeal.KerA.pay2_at _ _ _ u r e).trans ?_
  have hu : u.val = 0 := by omega
  have hemb : ((cfg0.win 4).blk t).view.emb (ix3 u r e)
      = (ix3 (⟨win0_4.index t (0 : Fin 3), by omega⟩ : Fin 8) (⟨win0_4.index t (1 : Fin 3) * 512 + r.val, by have := r.isLt; omega⟩ : Fin 4096) e : S8x4096x1024.Idx) := by
    funext a; apply Fin.ext
    match a with
    | ⟨0, _⟩ => show win0_4.index t (0 : Fin 3) * 1 + 1 * u.val = win0_4.index t (0 : Fin 3); omega
    | ⟨1, _⟩ => show win0_4.index t (1 : Fin 3) * 512 + 1 * r.val = win0_4.index t (1 : Fin 3) * 512 + r.val; omega
    | ⟨2, _⟩ => show win0_4.index t (2 : Fin 3) * 1024 + 1 * e.val = e.val; omega
  show _ = GP (V c main_arg1) (V c main_v13) (V c main_v1) (((cfg0.win 4).blk t).view.emb (ix3 u r e))
  rw [hemb]
  unfold GP
  refine Cert.Spec.proj_congr_row _ _ _ _ _ _ r _ (fun j => ?_) (fun j => ?_) (fun e' j => ?_) e
  · show V c main_arg1 (((cfg0.win 0).blk t).view.emb (ix3 (0 : Fin 1) r j)) = _
    rw [emb0 t r j ⟨win0_4.index t (1 : Fin 3) * 512 + r.val, by have := r.isLt; omega⟩ ⟨win0_4.index t (0 : Fin 3), by omega⟩ rfl rfl]
  · show V c main_v13 (((cfg0.win 3).blk t).view.emb (ix2 (0 : Fin 1) j)) = _
    rw [emb3 t j]
  · show V c main_v1 (((cfg0.win 1).blk t).view.emb (ix2 j e')) = _
    rw [emb1 t j e']

/-- WHAT POINT `t` WRITES BACK to the value array is block `t` of the projection by the value weights. -/
theorem flushed5_eq (c : Dev nD) (t : Fin cfg0.N) :
    (dat0 V c).flushed 5 t = ((cfg0.win 5).blk t).view.read (Elt Ideal) (GP (V c main_arg1) (V c main_v13) (V c main_v3)) := by
  show (cfg0.win 5).cut (grid0.coords t) ((dat0 V c).after 5 t) = _
  rw [after0_5]
  unfold out0_5
  rw [View.canon_unit_zero hz3]
  simp only [View.ld_unit_zero (S := S1x512x1024) hz3, View.ld_unit_zero (S := S1x1024) hz2, View.ld_unit_zero (S := S1024x1024) hz2]
  obtain ⟨e0, e1, e2, e3, e4, e5, e6, -, -, -, -, -, -, b0, b1⟩ := idx_facts t
  funext y
  obtain ⟨u, r, e, rfl⟩ : ∃ (u : Fin 1) (r : Fin 512) (e : Fin 1024), y = ix3 u r e := ⟨y 0, y 1, y 2, eq_ix3 y⟩
  refine (Cert.KernelIdeal.KerA.pay3_at _ _ _ u r e).trans ?_
  have hu : u.val = 0 := by omega
  have hemb : ((cfg0.win 5).blk t).view.emb (ix3 u r e)
      = (ix3 (⟨win0_4.index t (0 : Fin 3), by omega⟩ : Fin 8) (⟨win0_4.index t (1 : Fin 3) * 512 + r.val, by have := r.isLt; omega⟩ : Fin 4096) e : S8x4096x1024.Idx) := by
    funext a; apply Fin.ext
    match a with
    | ⟨0, _⟩ => show win0_5.index t (0 : Fin 3) * 1 + 1 * u.val = win0_4.index t (0 : Fin 3); omega
    | ⟨1, _⟩ => show win0_5.index t (1 : Fin 3) * 512 + 1 * r.val = win0_4.index t (1 : Fin 3) * 512 + r.val; omega
    | ⟨2, _⟩ => show win0_5.index t (2 : Fin 3) * 1024 + 1 * e.val = e.val; omega
  show _ = GP (V c main_arg1) (V c main_v13) (V c main_v3) (((cfg0.win 5).blk t).view.emb (ix3 u r e))
  rw [hemb]
  unfold GP
  refine Cert.Spec.proj_congr_row _ _ _ _ _ _ r _ (fun j => ?_) (fun j => ?_) (fun e' j => ?_) e
  · show V c main_arg1 (((cfg0.win 0).blk t).view.emb (ix3 (0 : Fin 1) r j)) = _
    rw [emb0 t r j ⟨win0_4.index t (1 : Fin 3) * 512 + r.val, by have := r.isLt; omega⟩ ⟨win0_4.index t (0 : Fin 3), by omega⟩ rfl rfl]
  · show V c main_v13 (((cfg0.win 3).blk t).view.emb (ix2 (0 : Fin 1) j)) = _
    rw [emb3 t j]
  · show V c main_v3 (((cfg0.win 2).blk t).view.emb (ix2 j e')) = _
    rw [emb2 t j e']

/-- An index of the key array is in point `t`'s block iff each coordinate is in the block's range on its axis. -/
theorem mem_blk4 (t : Fin cfg0.N) (i : S8x4096x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v14_0).slice (win0_4.rect t)).set ↔ _
  rw [View.set_slice_whole, Rect.mem_set_unit]
  exact Iff.rfl

theorem mem_blk5 (t : Fin cfg0.N) (i : S8x4096x1024.Idx) :
    i ∈ ((cfg0.win 5).blk t).view.set ↔ ∀ a : Fin 3, win0_5.index t a * S1x512x1024.size a ≤ (i a).val ∧ (i a).val < win0_5.index t a * S1x512x1024.size a + S1x512x1024.size a := by
  show i ∈ ((View.whole main_v14_1).slice (win0_5.rect t)).set ↔ _
  rw [View.set_slice_whole, Rect.mem_set_unit]
  exact Iff.rfl

/-- The 64 blocks tile the key array: row i₁ of batch element i₀ is in the block of point (i₀, i₁ / 512). -/
theorem cover4 (i : S8x4096x1024.Idx) : ∃ t : Fin cfg0.N, (cfg0.win 4).flush t = true ∧ i ∈ ((cfg0.win 4).blk t).view.set := by
  have hi0 : (i 0).val < 8 := (i 0).isLt
  have hi1 : (i 1).val < 4096 := (i 1).isLt
  have hi2 : (i 2).val < 1024 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

theorem cover5 (i : S8x4096x1024.Idx) : ∃ t : Fin cfg0.N, (cfg0.win 5).flush t = true ∧ i ∈ ((cfg0.win 5).blk t).view.set := by
  have hi0 : (i 0).val < 8 := (i 0).isLt
  have hi1 : (i 1).val < 4096 := (i 1).isLt
  have hi2 : (i 2).val < 1024 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  obtain ⟨-, -, -, -, e4, e5, e6, -⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 1024 ≤ (i 2).val ∧ (i 2).val < win0_5.index t (2 : Fin 3) * 1024 + 1024; omega

/-- THE KEY ARRAY after the region: the projection of the memory rows by the key weights. -/
theorem final4 (c : Dev nD) : (dat0 V c).arrAt 4 cfg0.N = GP (V c main_arg1) (V c main_v13) (V c main_v1) :=
  (dat0 V c).arrAt_eq_of_cover 4 _ (fun t _ => flushed4_eq V c t) cover4

/-- THE VALUE ARRAY after the region: the projection of the memory rows by the value weights. -/
theorem final5 (c : Dev nD) : (dat0 V c).arrAt 5 cfg0.N = GP (V c main_arg1) (V c main_v13) (V c main_v3) :=
  (dat0 V c).arrAt_eq_of_cover 5 _ (fun t _ => flushed5_eq V c t) cover5

end Cert.KernelIdeal.Ker0

end
-- ==== Proof.KerBDefs.lean ====
/-
  One round of the slot update as the kernel's body spells it, cut in two halves: the attention half
  (normalise the slots, queries, scaled scores against the keys, softmax over the slot axis, renormalise over
  the key axis, average the values) and the recurrent cell (two gate products with their biases, the three
  thirds of each gate row, logistic and hyperbolic tangent).  The body repeats the round three times.
-/
import proofs.«162511_j86208583565576_1_alg».proof.Proof.Gen.KernelIdeal.Skeleton
import proofs.«162511_j86208583565576_1_alg».proof.Proof.Spec

noncomputable section

namespace Cert.KernelIdeal.KerB

open Idealize.ShloMosaic Cert.KernelIdeal Cert.KernelIdeal.Gen

variable {F : FTy → Type} [FloatOps F]

/-- The attention half: from the slots `s` to the averaged values, one row per slot. -/
def updK (s : FVec F S64x1024 .f32) (kp vp : FVec F S4096x1024 .bf16) (wq : FVec F S1024x1024 .bf16)
    (sw : FVec F S1x1024 .f32) : FVec F S64x1024 .f32 :=
  have v18 : FVec F S64x1024 .f32 := mulf s s
  have v19 : FVec F S64 .f32 := multiReduction .add [1] S64 v18 0x00000000#32 reduces_S64x1024_S64 (.inl rfl) rfl
  have v20 : FVec F S64x1 .f32 := shapeCast S64x1 v19 shapeCasts_S64_S64x1
  have cst_20 : F .f32 := Scalar.ofBits .f32 0x44800000#32
  have v21 : FVec F S64x1 .f32 := broadcast S64x1 cst_20
  have v22 : FVec F S64x1 .f32 := divf v20 v21
  have cst_21 : F .f32 := Scalar.ofBits .f32 0x358637BD#32
  have v23 : FVec F S64x1 .f32 := broadcast S64x1 cst_21
  have v24 : FVec F S64x1 .f32 := addf v22 v23
  have v25 : FVec F S64x1 .f32 := rsqrt v24
  have v26 : FVec F S64x1024 .f32 := broadcastTo S64x1024 v25 broadcasts_S64x1_S64x1024
  have v27 : FVec F S64x1024 .f32 := mulf s v26
  have v28 : FVec F S64x1024 .f32 := broadcastTo S64x1024 sw broadcasts_S1x1024_S64x1024
  have v29 : FVec F S64x1024 .f32 := mulf v27 v28
  have v30 : FVec F S64x1024 .bf16 := truncf .bf16 v29 bitsLt_bf16_f32
  have cst_22 : FVec F S64x1024 .f32 := constant S64x1024 .f32 0x00000000#32
  have v31 : FVec F S64x1024 .f32 := matmul dot_S64x1024_S1024x1024_S64x1024_1_0_0_1_n_n none v30 wq cst_22
  have v32 : FVec F S64x1024 .bf16 := truncf .bf16 v31 bitsLt_bf16_f32
  have cst_23 : FVec F S64x4096 .f32 := constant S64x4096 .f32 0x00000000#32
  have v33 : FVec F S64x4096 .f32 := matmul dot_S64x1024_S4096x1024_S64x4096_1_1_0_0_n_n none v32 kp cst_23
  have cst_24 : F .f32 := Scalar.ofBits .f32 0x3D000000#32
  have v34 : FVec F S64x4096 .f32 := broadcast S64x4096 cst_24
  have v35 : FVec F S64x4096 .f32 := mulf v33 v34
  have v36 : FVec F S4096 .f32 := multiReduction .maximumf [0] S4096 v35 0xFF800000#32 reduces_S64x4096_S4096 (.inl rfl) rfl
  have v37 : FVec F S1x4096 .f32 := shapeCast S1x4096 v36 shapeCasts_S4096_S1x4096
  have v38 : FVec F S64x4096 .f32 := broadcastTo S64x4096 v37 broadcasts_S1x4096_S64x4096
  have v39 : FVec F S64x4096 .f32 := subf v35 v38
  have v40 : FVec F S64x4096 .f32 := exp v39
  have v41 : FVec F S4096 .f32 := multiReduction .add [0] S4096 v40 0x00000000#32 reduces_S64x4096_S4096 (.inl rfl) rfl
  have v42 : FVec F S1x4096 .f32 := shapeCast S1x4096 v41 shapeCasts_S4096_S1x4096
  have v43 : FVec F S64x4096 .f32 := broadcastTo S64x4096 v42 broadcasts_S1x4096_S64x4096
  have v44 : FVec F S64x4096 .f32 := divf v40 v43
  have v45 : FVec F S64 .f32 := multiReduction .add [1] S64 v44 0x00000000#32 reduces_S64x4096_S64 (.inl rfl) rfl
  have v46 : FVec F S64x1 .f32 := shapeCast S64x1 v45 shapeCasts_S64_S64x1
  have cst_28 : F .f32 := Scalar.ofBits .f32 0x358637BD#32
  have v47 : FVec F S64x1 .f32 := broadcast S64x1 cst_28
  have v48 : FVec F S64x1 .f32 := addf v46 v47
  have v49 : FVec F S64x4096 .f32 := broadcastTo S64x4096 v48 broadcasts_S64x1_S64x4096
  have v50 : FVec F S64x4096 .f32 := divf v44 v49
  have v51 : FVec F S64x4096 .bf16 := truncf .bf16 v50 bitsLt_bf16_f32
  have cst_29 : FVec F S64x1024 .f32 := constant S64x1024 .f32 0x00000000#32
  have v52 : FVec F S64x1024 .f32 := matmul dot_S64x4096_S4096x1024_S64x1024_1_0_0_1_n_n none v51 vp cst_29
  v52

/-- The recurrent cell: from the averaged values `u` and the slots `s` to the new slots. -/
def cellK (u s : FVec F S64x1024 .f32) (wi wh : FVec F S1024x3072 .bf16) (bi bh : FVec F S1x3072 .f32) :
    FVec F S64x1024 .f32 :=
  have v53 : FVec F S64x1024 .bf16 := truncf .bf16 u bitsLt_bf16_f32
  have v54 : FVec F S64x1024 .bf16 := truncf .bf16 s bitsLt_bf16_f32
  have cst_30 : FVec F S64x3072 .f32 := constant S64x3072 .f32 0x00000000#32
  have v55 : FVec F S64x3072 .f32 := matmul dot_S64x1024_S1024x3072_S64x3072_1_0_0_1_n_n none v53 wi cst_30
  have v56 : FVec F S64x3072 .f32 := broadcastTo S64x3072 bi broadcasts_S1x3072_S64x3072
  have v57 : FVec F S64x3072 .f32 := addf v55 v56
  have cst_31 : FVec F S64x3072 .f32 := constant S64x3072 .f32 0x00000000#32
  have v58 : FVec F S64x3072 .f32 := matmul dot_S64x1024_S1024x3072_S64x3072_1_0_0_1_n_n none v54 wh cst_31
  have v59 : FVec F S64x3072 .f32 := broadcastTo S64x3072 bh broadcasts_S1x3072_S64x3072
  have v60 : FVec F S64x3072 .f32 := addf v58 v59
  have v61 : FVec F S64x1024 .f32 := extractStridedSlice S64x1024 ![0, 0] v57 slices_S64x3072_o0_0_S64x1024
  have v62 : FVec F S64x1024 .f32 := extractStridedSlice S64x1024 ![0, 1024] v57 slices_S64x3072_o0_1024_S64x1024
  have v63 : FVec F S64x1024 .f32 := extractStridedSlice S64x1024 ![0, 2048] v57 slices_S64x3072_o0_2048_S64x1024
  have v64 : FVec F S64x1024 .f32 := extractStridedSlice S64x1024 ![0, 0] v60 slices_S64x3072_o0_0_S64x1024
  have v65 : FVec F S64x1024 .f32 := extractStridedSlice S64x1024 ![0, 1024] v60 slices_S64x3072_o0_1024_S64x1024
  have v66 : FVec F S64x1024 .f32 := extractStridedSlice S64x1024 ![0, 2048] v60 slices_S64x3072_o0_2048_S64x1024
  have v67 : FVec F S64x1024 .f32 := addf v61 v64
  have v68 : FVec F S64x1024 .f32 := logistic v67
  have v69 : FVec F S64x1024 .f32 := addf v62 v65
  have v70 : FVec F S64x1024 .f32 := logistic v69
  have v71 : FVec F S64x1024 .f32 := mulf v68 v66
  have v72 : FVec F S64x1024 .f32 := addf v63 v71
  have v73 : FVec F S64x1024 .f32 := tanh v72
  have cst_32 : F .f32 := Scalar.ofBits .f32 0x3F800000#32
  have v74 : FVec F S64x1024 .f32 := broadcast S64x1024 cst_32
  have v75 : FVec F S64x1024 .f32 := subf v74 v70
  have v76 : FVec F S64x1024 .f32 := mulf v75 v73
  have v77 : FVec F S64x1024 .f32 := mulf v70 s
  have v78 : FVec F S64x1024 .f32 := addf v76 v77
  v78

/-- One round. -/
def iterK (s : FVec F S64x1024 .f32) (kp vp : FVec F S4096x1024 .bf16) (wq : FVec F S1024x1024 .bf16)
    (wi wh : FVec F S1024x3072 .bf16) (bi bh : FVec F S1x3072 .f32) (sw : FVec F S1x1024 .f32) : FVec F S64x1024 .f32 :=
  cellK (updK s kp vp wq sw) s wi wh bi bh

end Cert.KernelIdeal.KerB

end
-- ==== Proof.LibColumnSum.lean ====
/-
  Three general readings used when a kernel sums a column of per-row terms.

  * A one-axis reduction of an `[a, b]` array along axis 0 visits, for column `q` and coordinate `k` of the reduced
    axis, the source index `(k, q)` (the axis-1 companion is the index `(p, k)`).
  * A lane slice `[0:n, o:o+b]` of an `[n, a]` array reads, at `(k, c)`, the array at `(k, o + c)`: any extents, any
    offset, any element type.
  * On the extended reals negation does not pass through a sum in general (-(⊤ + ⊥) = ⊤ while -⊤ + -⊥ = ⊥), but a
    finite sum of terms none of which is +∞ is not +∞ and its negation is the sum of the negations.
-/
import Idealize.ShloMosaic.Lib.Pipeline.Value
import Idealize.ShloMosaic.Lib.ValueIdx
import Idealize.ShloMosaic.PureOps.Reduce

open scoped BigOperators

namespace Cert.Lib.ColumnSum

open Idealize.ShloMosaic Idealize.ShloMosaic.ValueIdx

/-- A one-axis reduction of `[a, b]` along axis 0 visits, for column `q` and coordinate `k`, the source index `(k, q)`. -/
theorem lift_axis0 {a b : ℕ} (h : (⟨2, ![a, b]⟩ : Shape).Reduces [0] ⟨1, ![b]⟩) (q : Fin b) (k : Fin a) :
    h.lift (ix1 q) k = ix2 k q :=
  funext fun c => Fin.ext (by match c with | ⟨0, _⟩ => rfl | ⟨1, _⟩ => rfl)

/-- A lane slice `[0:n, o:o+b]` of an `[n, a]` array reads, at `(k, c)`, the array at `(k, o + c)`. -/
theorem laneSlice_apply {α : Type} {n a b o : ℕ} (x : (⟨2, ![n, a]⟩ : Shape).Idx → α)
    (h : (⟨2, ![n, a]⟩ : Shape).Slices ![0, o] ⟨2, ![n, b]⟩) (k : Fin n) (c : Fin b) (c' : Fin a) (hc : c'.val = o + c.val) :
    extractStridedSlice ⟨2, ![n, b]⟩ ![0, o] x h (ix2 k c) = x (ix2 k c') :=
  extractStridedSlice_apply ![0, o] x h (ix2 k c) (ix2 k c') fun ax => by
    match ax with
    | ⟨0, _⟩ => show k.val = 0 + k.val; omega
    | ⟨1, _⟩ => exact hc

/-- A finite sum of extended reals none of which is +∞ is not +∞, and its negation is the sum of the negations. -/
theorem sum_neg_of_ne_top {ι : Type*} (s : Finset ι) (a : ι → EReal) (h : ∀ i ∈ s, a i ≠ ⊤) :
    ∑ i ∈ s, a i ≠ ⊤ ∧ ∑ i ∈ s, -(a i) = -(∑ i ∈ s, a i) := by
  classical
  induction s using Finset.induction_on with
  | empty => simp
  | insert i s hi ih =>
    have hs := ih (fun j hj => h j (Finset.mem_insert_of_mem hj))
    have hai := h i (Finset.mem_insert_self i s)
    rw [Finset.sum_insert hi, Finset.sum_insert hi]
    refine ⟨EReal.add_ne_top hai hs.1, ?_⟩
    rw [hs.2, EReal.neg_add (Or.inr hs.1) (Or.inl hai), sub_eq_add_neg]

end Cert.Lib.ColumnSum
-- ==== Proof.KerBCell.lean ====
/-
  The recurrent cell of one round of the slot update, read entry by entry, and the whole body as three rounds.

  The cell.  From the averaged values u and the slots s (both 64 rows of width 1024) the body forms two gate arrays
  of 64 rows and 3072 columns,
      gi = u · Wi + bi      and      gh = s · Wh + bh,
  each a matrix product into a zero accumulator plus a one-row bias spread over the rows.  At the extended reals a
  change of format is the identity and such a product is the plain sum over the contracted coordinate, so
      gi[k, e] = ∑ j, u[k, j] · Wi[j, e] + bi[0, e],
  which is `gates` of the operands read as matrices (the weight matrix read transposed).  The three thirds of a gate row
  are its columns d, 1024 + d and 2048 + d (`lo`, `mid`, `hi`): a lane slice [0:64, o:o+1024] read at (k, d) is the
  array at (k, o + d).  What remains is arithmetic entry by entry:
      r = logistic (gi_lo + gh_lo),   z = logistic (gi_mid + gh_mid),   n = tanh (gi_hi + r · gh_hi),
      new[k, d] = (1 - z) · n + z · s[k, d],
  which is `gru`.  Nothing here needs an entry to be finite, and the literal 1 keeps its bit pattern on both sides.

  The body.  It stores once, to the whole block, so the buffer it leaves is the stored payload, and each operand it
  loads through a whole-block rectangle is the block itself.  The payload is the same round written out three times:
  round r + 1 starts from the slots round r produced, with the keys, the values, the query weights, the two gate
  weight matrices, the two biases and the slot weight unchanged.  Each of the three equations below holds by unfolding
  the definitions, for any arithmetic; chained, they give the stored payload as the third iterate, re-laid with a leading
  unit axis.
-/
import proofs.«162511_j86208583565576_1_alg».proof.Proof.Gen.KernelIdeal.Frame
import proofs.«162511_j86208583565576_1_alg».proof.Proof.KerBDefs
import proofs.«162511_j86208583565576_1_alg».proof.Proof.LibMlpAt
import proofs.«162511_j86208583565576_1_alg».proof.Proof.LibColumnSum
import Idealize.ShloMosaic.Lib.ValueIdx
import Idealize.ShloMosaic.Lib.ValueLayout
import Idealize.ShloMosaic.Lib.Pipeline.Value

noncomputable section

open scoped BigOperators

namespace Cert.KernelIdeal.KerB

open Idealize.ShloMosaic Idealize.ShloMosaic.ValueIdx Cert.KernelIdeal Cert.KernelIdeal.Gen

/-! ## The recurrent cell at an entry -/

/-- One gate row: the product of the operand with a weight matrix of 3072 columns into a zero accumulator, plus the
    one-row bias spread over the 64 rows, read at (k, e): the sum over the contracted coordinate plus the bias at e. -/
theorem gateRow_at (x : FVec Ideal S64x1024 .f32) (w : FVec Ideal S1024x3072 .bf16) (b : FVec Ideal S1x3072 .f32)
    (k : Fin 64) (e : Fin 3072) :
    addf (matmul dot_S64x1024_S1024x3072_S64x3072_1_0_0_1_n_n none (truncf .bf16 x bitsLt_bf16_f32) w
        (constant S64x3072 .f32 0x00000000#32)) (broadcastTo S64x3072 b broadcasts_S1x3072_S64x3072) (ix2 k e)
      = Cert.Spec.gates (fun k j => x (ix2 k j)) (fun e j => w (ix2 j e)) (fun e => b (ix2 (0 : Fin 1) e)) k e := by
  rw [addf_apply]
  refine congrArg₂ (· + ·) ?_ ?_
  · exact Cert.Mlp.matmul_zero_at dot_S64x1024_S1024x3072_S64x3072_1_0_0_1_n_n_wf none (truncf .bf16 x bitsLt_bf16_f32) w k e
  · exact broadcastTo_1b_ab_apply b broadcasts_S1x3072_S64x3072 k e

/-- The logistic function of an array, at an index. -/
theorem logistic_at {s : Shape} {φ : FTy} (a : FVec Ideal s φ) (i : s.Idx) : logistic a i = Ideal.logistic (a i) := rfl
/-- The hyperbolic tangent of an array, at an index. -/
theorem tanh_at {s : Shape} {φ : FTy} (a : FVec Ideal s φ) (i : s.Idx) : tanh a i = Ideal.tanh (a i) := rfl

/-- The pointwise half of the cell over ANY two gate arrays: the three thirds of each gate row are its columns
    d, 1024 + d and 2048 + d, and the rest is arithmetic entry by entry. -/
theorem gru_at (gi gh : FVec Ideal S64x3072 .f32) (s : FVec Ideal S64x1024 .f32) (k : Fin 64) (d : Fin 1024) :
    addf
        (mulf
          (subf (broadcast S64x1024 (Scalar.ofBits (F := Ideal) .f32 0x3F800000#32))
            (logistic (addf (extractStridedSlice S64x1024 ![0, 1024] gi slices_S64x3072_o0_1024_S64x1024)
              (extractStridedSlice S64x1024 ![0, 1024] gh slices_S64x3072_o0_1024_S64x1024))))
          (tanh (addf (extractStridedSlice S64x1024 ![0, 2048] gi slices_S64x3072_o0_2048_S64x1024)
            (mulf
              (logistic (addf (extractStridedSlice S64x1024 ![0, 0] gi slices_S64x3072_o0_0_S64x1024)
                (extractStridedSlice S64x1024 ![0, 0] gh slices_S64x3072_o0_0_S64x1024)))
              (extractStridedSlice S64x1024 ![0, 2048] gh slices_S64x3072_o0_2048_S64x1024)))))
        (mulf
          (logistic (addf (extractStridedSlice S64x1024 ![0, 1024] gi slices_S64x3072_o0_1024_S64x1024)
            (extractStridedSlice S64x1024 ![0, 1024] gh slices_S64x3072_o0_1024_S64x1024)))
          s) (ix2 k d)
      = Cert.Spec.gru (fun k e => gi (ix2 k e)) (fun k e => gh (ix2 k e)) (fun k j => s (ix2 k j)) k d := by
  have l0 : ∀ g : FVec Ideal S64x3072 .f32,
      extractStridedSlice S64x1024 ![0, 0] g slices_S64x3072_o0_0_S64x1024 (ix2 k d) = g (ix2 k (Cert.Spec.lo d)) :=
    fun g => Cert.Lib.ColumnSum.laneSlice_apply g slices_S64x3072_o0_0_S64x1024 k d (Cert.Spec.lo d)
      (by show d.val = 0 + d.val; omega)
  have l1 : ∀ g : FVec Ideal S64x3072 .f32,
      extractStridedSlice S64x1024 ![0, 1024] g slices_S64x3072_o0_1024_S64x1024 (ix2 k d) = g (ix2 k (Cert.Spec.mid d)) :=
    fun g => Cert.Lib.ColumnSum.laneSlice_apply g slices_S64x3072_o0_1024_S64x1024 k d (Cert.Spec.mid d) rfl
  have l2 : ∀ g : FVec Ideal S64x3072 .f32,
      extractStridedSlice S64x1024 ![0, 2048] g slices_S64x3072_o0_2048_S64x1024 (ix2 k d) = g (ix2 k (Cert.Spec.hi d)) :=
    fun g => Cert.Lib.ColumnSum.laneSlice_apply g slices_S64x3072_o0_2048_S64x1024 k d (Cert.Spec.hi d) rfl
  rw [addf_apply, mulf_apply, mulf_apply, subf_apply, broadcast_apply, logistic_at, tanh_at, addf_apply, addf_apply,
    mulf_apply, logistic_at, addf_apply, l0, l0, l1, l1, l2, l2]
  rfl

/-- The recurrent cell read at (k, d): the two gate rows are `gates` of the operands read as matrices, and the
    pointwise half is `gru`. -/
theorem cellK_at (u s : FVec Ideal S64x1024 .f32) (wi wh : FVec Ideal S1024x3072 .bf16) (bi bh : FVec Ideal S1x3072 .f32)
    (k : Fin 64) (d : Fin 1024) :
    cellK (F := Ideal) u s wi wh bi bh (ix2 k d)
      = Cert.Spec.cell (fun e j => wi (ix2 j e)) (fun e j => wh (ix2 j e)) (fun e => bi (ix2 (0 : Fin 1) e))
          (fun e => bh (ix2 (0 : Fin 1) e)) (fun k j => u (ix2 k j)) (fun k j => s (ix2 k j)) k d := by
  unfold cellK
  refine (gru_at _ _ s k d).trans ?_
  unfold Cert.Spec.cell
  have hI := funext fun k => funext fun e => gateRow_at u wi bi k e
  have hH := funext fun k => funext fun e => gateRow_at s wh bh k e
  rw [hI, hH]

/-! ## The body as three rounds -/

theorem hz3 : (![0, 0, 0] : Fin 3 → ℕ) = fun _ => 0 :=
  funext fun a => by match a with | ⟨0, _⟩ => rfl | ⟨1, _⟩ => rfl | ⟨2, _⟩ => rfl
theorem hz2 : (![0, 0] : Fin 2 → ℕ) = fun _ => 0 :=
  funext fun a => by match a with | ⟨0, _⟩ => rfl | ⟨1, _⟩ => rfl

section Rounds
variable {F : FTy → Type} [FloatOps F]

/-- Round 1: the first update of the slots, from the slots as loaded. -/
theorem round1 (x0 : Vec F S1x64x1024 .f32) (x1 x2 : Vec F S1x4096x1024 .bf16) (x3 : Vec F S1024x1024 .bf16)
    (x4 x5 : Vec F S1024x3072 .bf16) (x6 x7 : Vec F S1x3072 .f32) (x8 : Vec F S1x1024 .f32) :
    k1_pay12 (k1_pay2 x0) (k1_pay3 x1) (k1_pay4 x2) (k1_pay6 x4) (k1_pay7 x5) (k1_pay8 x6) (k1_pay9 x7)
        (k1_pay11 x0 x3 x8) (constant S64x4096 .f32 0x00000000#32)
      = iterK (k1_pay2 x0) (k1_pay3 x1) (k1_pay4 x2) (k1_pay5 x3) (k1_pay6 x4) (k1_pay7 x5) (k1_pay8 x6) (k1_pay9 x7)
          (k1_pay10 x8) := rfl

/-- Round 2 over ANY slots s: the row sums of squares, then the second update. -/
theorem round2_gen (s : FVec F S64x1024 .f32) (kp vp : FVec F S4096x1024 .bf16) (wq : FVec F S1024x1024 .bf16)
    (wi wh : FVec F S1024x3072 .bf16) (bi bh : FVec F S1x3072 .f32) (sw : FVec F S1x1024 .f32) :
    k1_pay20 s
        (k1_pay16 kp vp wq wi bi sw s
          (shapeCast S64x1 (multiReduction .add [1] S64 (mulf s s) 0x00000000#32 reduces_S64x1024_S64 (.inl rfl) rfl)
            shapeCasts_S64_S64x1) (Scalar.ofBits .f32 0x44800000#32))
        (k1_pay17 wh bh s)
        (k1_pay18 kp vp wq wi wh bi bh sw s
          (shapeCast S64x1 (multiReduction .add [1] S64 (mulf s s) 0x00000000#32 reduces_S64x1024_S64 (.inl rfl) rfl)
            shapeCasts_S64_S64x1) (Scalar.ofBits .f32 0x44800000#32))
        (k1_pay19 kp vp wq wi wh bi bh sw s
          (shapeCast S64x1 (multiReduction .add [1] S64 (mulf s s) 0x00000000#32 reduces_S64x1024_S64 (.inl rfl) rfl)
            shapeCasts_S64_S64x1) (Scalar.ofBits .f32 0x44800000#32))
      = iterK s kp vp wq wi wh bi bh sw := rfl

/-- Round 2 as the body spells it, after round 1's payload. -/
theorem round2 (v1 : FVec F S64x1024 .f32) (v3 v5 : FVec F S4096x1024 .bf16) (v7 : FVec F S1024x1024 .bf16)
    (v9 v11 : FVec F S1024x3072 .bf16) (v13 v15 : FVec F S1x3072 .f32) (v17 : FVec F S1x1024 .f32)
    (v32 : FVec F S64x1024 .bf16) (c : FVec F S64x4096 .f32) :
    k1_pay20 (k1_pay12 v1 v3 v5 v9 v11 v13 v15 v32 c)
        (k1_pay16 v3 v5 v7 v9 v13 v17 (k1_pay12 v1 v3 v5 v9 v11 v13 v15 v32 c) (k1_pay13 v1 v3 v5 v9 v11 v13 v15 v32 c)
          (Scalar.ofBits .f32 0x44800000#32))
        (k1_pay17 v11 v15 (k1_pay12 v1 v3 v5 v9 v11 v13 v15 v32 c))
        (k1_pay18 v3 v5 v7 v9 v11 v13 v15 v17 (k1_pay12 v1 v3 v5 v9 v11 v13 v15 v32 c)
          (k1_pay13 v1 v3 v5 v9 v11 v13 v15 v32 c) (Scalar.ofBits .f32 0x44800000#32))
        (k1_pay19 v3 v5 v7 v9 v11 v13 v15 v17 (k1_pay12 v1 v3 v5 v9 v11 v13 v15 v32 c)
          (k1_pay13 v1 v3 v5 v9 v11 v13 v15 v32 c) (Scalar.ofBits .f32 0x44800000#32))
      = iterK (k1_pay12 v1 v3 v5 v9 v11 v13 v15 v32 c) v3 v5 v7 v9 v11 v13 v15 v17 :=
  round2_gen (k1_pay12 v1 v3 v5 v9 v11 v13 v15 v32 c) v3 v5 v7 v9 v11 v13 v15 v17

/-- Round 3: the third update, re-laid with a leading unit axis for the store. -/
theorem round3 (v78 v124 v127 v129 v130 : FVec F S64x1024 .f32) (kp vp : FVec F S4096x1024 .bf16)
    (wq : FVec F S1024x1024 .bf16) (wi wh : FVec F S1024x3072 .bf16) (bi bh : FVec F S1x3072 .f32)
    (sw : FVec F S1x1024 .f32) :
    k1_pay1 wh bi bh (k1_pay20 v78 v124 v127 v129 v130) (k1_pay21 v78 v124 v127 v129 v130)
        (k1_pay22 kp vp wq wi sw v78 v124 v127 v129 v130)
      = shapeCast S1x64x1024 (iterK (k1_pay20 v78 v124 v127 v129 v130) kp vp wq wi wh bi bh sw)
          shapeCasts_S64x1024_S1x64x1024 := rfl

end Rounds

/-- The buffer the body leaves is the third iterate of the round, from the operands as loaded (each re-laid without
    its leading unit axis, or unchanged), re-laid with a leading unit axis. -/
theorem out1_9_eq {F : FTy → Type} [FloatOps F] (x0 : Vec F S1x64x1024 .f32) (x1 x2 : Vec F S1x4096x1024 .bf16)
    (x3 : Vec F S1024x1024 .bf16) (x4 x5 : Vec F S1024x3072 .bf16) (x6 x7 : Vec F S1x3072 .f32) (x8 : Vec F S1x1024 .f32) :
    Gen.out1_9 (F := F) x0 x1 x2 x3 x4 x5 x6 x7 x8
      = shapeCast S1x64x1024 (iterK (iterK (iterK (k1_pay2 x0) (k1_pay3 x1) (k1_pay4 x2) (k1_pay5 x3) (k1_pay6 x4) (k1_pay7 x5) (k1_pay8 x6) (k1_pay9 x7) (k1_pay10 x8))
          (k1_pay3 x1) (k1_pay4 x2) (k1_pay5 x3) (k1_pay6 x4) (k1_pay7 x5) (k1_pay8 x6) (k1_pay9 x7) (k1_pay10 x8))
          (k1_pay3 x1) (k1_pay4 x2) (k1_pay5 x3) (k1_pay6 x4) (k1_pay7 x5) (k1_pay8 x6) (k1_pay9 x7) (k1_pay10 x8)) shapeCasts_S64x1024_S1x64x1024 := by
  unfold Gen.out1_9
  rw [View.canon_unit_zero hz3]
  simp only [View.ld_unit_zero (S := S1x64x1024) hz3, View.ld_unit_zero (S := S1x4096x1024) hz3,
    View.ld_unit_zero (S := S1024x1024) hz2, View.ld_unit_zero (S := S1024x3072) hz2,
    View.ld_unit_zero (S := S1x3072) hz2, View.ld_unit_zero (S := S1x1024) hz2]
  rw [round3, round2, round1]

end Cert.KernelIdeal.KerB

end
-- ==== Proof.Ker1.lean ====
/-
  What the second region leaves in its output array.

  The grid has 8 points; point t handles batch element t.  It reads that element's 64 slots, its 4096 keys and its
  4096 values (each window one whole batch element: block (t, 0, 0)), and the query weights, the two gate weight
  matrices, the two biases and the slot weights whole (block (0, 0) at every point), and writes that element's 64
  slots of the output array.

  Entry by entry, one round of the body is `iter` of the operands read as matrices: the recurrent cell is read in its
  own file, and the attention half is taken here as a hypothesis (`UpdAt`) so that this file does not depend on its
  proof.  The body is three rounds, each starting from the slots the previous one produced, so the block a point writes
  is `iter3` of the blocks it read; a block read at a coordinate is the array read at block index times block size plus
  the coordinate, on each axis.  Hence the block point t writes is block t of ONE function of the region's input
  arrays (`GO`: three rounds on batch element i₀, at slot i₁ and column i₂).  The 8 blocks tile the output array, so
  the array ends holding that function.
-/
import proofs.«162511_j86208583565576_1_alg».proof.Proof.Gen.KernelIdeal.Frame
import proofs.«162511_j86208583565576_1_alg».proof.Proof.KerBCell
import proofs.«162511_j86208583565576_1_alg».proof.Proof.Spec
import Idealize.ShloMosaic.Lib.ValueLayout
import Idealize.ShloMosaic.Lib.Pipeline.Value

set_option maxRecDepth 16384

noncomputable section

namespace Cert.KernelIdeal.Ker1

open Idealize.ShloMosaic Idealize.ShloMosaic.ValueIdx Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- Three rounds on batch element i 0, as one function of the region's input arrays. -/
def GO (S : S8x64x1024.Idx → Elt Ideal .f32) (KP VP : S8x4096x1024.Idx → Elt Ideal .bf16) (Wq : S1024x1024.Idx → Elt Ideal .bf16)
    (Wi Wh : S1024x3072.Idx → Elt Ideal .bf16) (bi bh : S1x3072.Idx → Elt Ideal .f32) (sw : S1x1024.Idx → Elt Ideal .f32) :
    S8x64x1024.Idx → Elt Ideal .f32 := fun i =>
  Cert.Spec.iter3 (fun m j => KP (ix3 (i 0) m j)) (fun m j => VP (ix3 (i 0) m j)) (fun e j => Wq (ix2 j e)) (fun e j => Wi (ix2 j e))
    (fun e j => Wh (ix2 j e)) (fun e => bi (ix2 (0 : Fin 1) e)) (fun e => bh (ix2 (0 : Fin 1) e)) (fun j => sw (ix2 (0 : Fin 1) j))
    (fun k j => S (ix3 (i 0) k j)) (i 1) (i 2)

/-- The attention half of a round read entry by entry, as a hypothesis: the averaged values at (k, d) are `upd` of the
    operands read as matrices. -/
def UpdAt : Prop := ∀ (s : FVec Ideal S64x1024 .f32) (kp vp : FVec Ideal S4096x1024 .bf16) (wq : FVec Ideal S1024x1024 .bf16)
    (sw : FVec Ideal S1x1024 .f32) (k : Fin 64) (d : Fin 1024),
  Cert.KernelIdeal.KerB.updK (F := Ideal) s kp vp wq sw (ix2 k d)
    = Cert.Spec.upd (fun m j => kp (ix2 m j)) (fun m j => vp (ix2 m j)) (fun e j => wq (ix2 j e)) (fun j => sw (ix2 (0 : Fin 1) j))
        (fun k j => s (ix2 k j)) k d

/-! ## One round, and three, entry by entry -/

/-- One round at (k, d): the cell of the attention half and the slots. -/
theorem iterK_at (hupd : UpdAt) (s : FVec Ideal S64x1024 .f32) (kp vp : FVec Ideal S4096x1024 .bf16) (wq : FVec Ideal S1024x1024 .bf16)
    (wi wh : FVec Ideal S1024x3072 .bf16) (bi bh : FVec Ideal S1x3072 .f32) (sw : FVec Ideal S1x1024 .f32) (k : Fin 64) (d : Fin 1024) :
    Cert.KernelIdeal.KerB.iterK (F := Ideal) s kp vp wq wi wh bi bh sw (ix2 k d)
      = Cert.Spec.iter (fun m j => kp (ix2 m j)) (fun m j => vp (ix2 m j)) (fun e j => wq (ix2 j e)) (fun e j => wi (ix2 j e))
          (fun e j => wh (ix2 j e)) (fun e => bi (ix2 (0 : Fin 1) e)) (fun e => bh (ix2 (0 : Fin 1) e)) (fun j => sw (ix2 (0 : Fin 1) j))
          (fun k j => s (ix2 k j)) k d := by
  unfold Cert.KernelIdeal.KerB.iterK Cert.Spec.iter
  rw [Cert.KernelIdeal.KerB.cellK_at]
  have h : (fun (k : Fin 64) (j : Fin 1024) => Cert.KernelIdeal.KerB.updK (F := Ideal) s kp vp wq sw (ix2 k j))
      = Cert.Spec.upd (fun m j => kp (ix2 m j)) (fun m j => vp (ix2 m j)) (fun e j => wq (ix2 j e)) (fun j => sw (ix2 (0 : Fin 1) j))
          (fun k j => s (ix2 k j)) := funext fun k => funext fun j => hupd s kp vp wq sw k j
  rw [h]

/-- One round as a matrix: the same, for all (k, j) at once. -/
theorem iterK_mat (hupd : UpdAt) (s : FVec Ideal S64x1024 .f32) (kp vp : FVec Ideal S4096x1024 .bf16) (wq : FVec Ideal S1024x1024 .bf16)
    (wi wh : FVec Ideal S1024x3072 .bf16) (bi bh : FVec Ideal S1x3072 .f32) (sw : FVec Ideal S1x1024 .f32) :
    (fun (k : Fin 64) (j : Fin 1024) => Cert.KernelIdeal.KerB.iterK (F := Ideal) s kp vp wq wi wh bi bh sw (ix2 k j))
      = Cert.Spec.iter (fun m j => kp (ix2 m j)) (fun m j => vp (ix2 m j)) (fun e j => wq (ix2 j e)) (fun e j => wi (ix2 j e))
          (fun e j => wh (ix2 j e)) (fun e => bi (ix2 (0 : Fin 1) e)) (fun e => bh (ix2 (0 : Fin 1) e)) (fun j => sw (ix2 (0 : Fin 1) j))
          (fun k j => s (ix2 k j)) :=
  funext fun k => funext fun j => iterK_at hupd s kp vp wq wi wh bi bh sw k j

/-- What the body leaves in its output block, at (u, k, d): three rounds on the blocks it loaded, the slot, key and
    value blocks read without their leading unit axis. -/
theorem out1_9_at (hupd : UpdAt) (x0 : Vec Ideal S1x64x1024 .f32) (x1 x2 : Vec Ideal S1x4096x1024 .bf16) (x3 : Vec Ideal S1024x1024 .bf16)
    (x4 x5 : Vec Ideal S1024x3072 .bf16) (x6 x7 : Vec Ideal S1x3072 .f32) (x8 : Vec Ideal S1x1024 .f32) (u : Fin 1) (k : Fin 64) (d : Fin 1024) :
    Gen.out1_9 (F := Ideal) x0 x1 x2 x3 x4 x5 x6 x7 x8 (ix3 u k d)
      = Cert.Spec.iter3 (fun m j => x1 (ix3 (0 : Fin 1) m j)) (fun m j => x2 (ix3 (0 : Fin 1) m j)) (fun e j => x3 (ix2 j e))
          (fun e j => x4 (ix2 j e)) (fun e j => x5 (ix2 j e)) (fun e => x6 (ix2 (0 : Fin 1) e)) (fun e => x7 (ix2 (0 : Fin 1) e))
          (fun j => x8 (ix2 (0 : Fin 1) j)) (fun k j => x0 (ix3 (0 : Fin 1) k j)) k d := by
  have e0 : (fun (k : Fin 64) (j : Fin 1024) => k1_pay2 (F := Ideal) x0 (ix2 k j)) = fun k j => x0 (ix3 (0 : Fin 1) k j) :=
    funext fun k => funext fun j => shapeCast_1ab_ab_apply x0 shapeCasts_S1x64x1024_S64x1024 k j
  have e1 : (fun (m : Fin 4096) (j : Fin 1024) => k1_pay3 (F := Ideal) x1 (ix2 m j)) = fun m j => x1 (ix3 (0 : Fin 1) m j) :=
    funext fun m => funext fun j => shapeCast_1ab_ab_apply x1 shapeCasts_S1x4096x1024_S4096x1024 m j
  have e2 : (fun (m : Fin 4096) (j : Fin 1024) => k1_pay4 (F := Ideal) x2 (ix2 m j)) = fun m j => x2 (ix3 (0 : Fin 1) m j) :=
    funext fun m => funext fun j => shapeCast_1ab_ab_apply x2 shapeCasts_S1x4096x1024_S4096x1024 m j
  have e3 : k1_pay5 (F := Ideal) x3 = x3 := shapeCast_self x3 shapeCasts_S1024x1024_S1024x1024
  have e4 : k1_pay6 (F := Ideal) x4 = x4 := shapeCast_self x4 shapeCasts_S1024x3072_S1024x3072
  have e5 : k1_pay7 (F := Ideal) x5 = x5 := shapeCast_self x5 shapeCasts_S1024x3072_S1024x3072
  have e6 : k1_pay8 (F := Ideal) x6 = x6 := shapeCast_self x6 shapeCasts_S1x3072_S1x3072
  have e7 : k1_pay9 (F := Ideal) x7 = x7 := shapeCast_self x7 shapeCasts_S1x3072_S1x3072
  have e8 : k1_pay10 (F := Ideal) x8 = x8 := shapeCast_self x8 shapeCasts_S1x1024_S1x1024
  rw [Cert.KernelIdeal.KerB.out1_9_eq, shapeCast_ab_1ab_apply, iterK_at hupd, iterK_mat hupd, iterK_mat hupd, e0, e1, e2, e3, e4, e5,
    e6, e7, e8]
  rfl

/-! ## The grid: eight points, one batch element each -/

/-- The printed index maps over the 8 grid points: the slot window, the key and value windows and the output window
    move together along the batch axis and are whole on the other two; the six weight windows stay at block 0. -/
theorem idx_facts : ∀ t : Fin cfg1.N,
    win1_0.index t (0 : Fin 3) = win1_9.index t (0 : Fin 3) ∧ win1_0.index t (1 : Fin 3) = 0 ∧ win1_0.index t (2 : Fin 3) = 0
    ∧ win1_1.index t (0 : Fin 3) = win1_9.index t (0 : Fin 3) ∧ win1_1.index t (1 : Fin 3) = 0 ∧ win1_1.index t (2 : Fin 3) = 0
    ∧ win1_2.index t (0 : Fin 3) = win1_9.index t (0 : Fin 3) ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (1 : Fin 3) = 0 ∧ win1_9.index t (2 : Fin 3) = 0 ∧ win1_9.index t (0 : Fin 3) ≤ 7 :=
  (by decide +kernel : ∀ t : Fin grid1.N, _)

/-- Every batch element is some point's. -/
theorem idx_onto : ∀ q0 : Fin 8, ∃ t : Fin cfg1.N, win1_9.index t = ![q0.val, 0, 0] :=
  (by decide +kernel : ∀ q0 : Fin 8, ∃ t : Fin grid1.N, win1_9.index t = ![q0.val, 0, 0])

/-- A coordinate of the slot window's block at a point, inside the array: block index times block size plus the
    coordinate inside the block, on each axis. -/
theorem emb0 (t : Fin cfg1.N) (k : Fin 64) (j : Fin 1024) (b : Fin 8) (hb : b.val = win1_9.index t (0 : Fin 3)) :
    ((cfg1.win 0).blk t).view.emb (ix3 (0 : Fin 1) k j) = (ix3 b k j : S8x64x1024.Idx) := by
  obtain ⟨e0, e1, e2, -⟩ := idx_facts t
  funext a; apply Fin.ext
  match a with
  | ⟨0, _⟩ => show win1_0.index t (0 : Fin 3) * 1 + 1 * 0 = b.val; omega
  | ⟨1, _⟩ => show win1_0.index t (1 : Fin 3) * 64 + 1 * k.val = k.val; omega
  | ⟨2, _⟩ => show win1_0.index t (2 : Fin 3) * 1024 + 1 * j.val = j.val; omega

/-- The key window's block likewise. -/
theorem emb1 (t : Fin cfg1.N) (m : Fin 4096) (j : Fin 1024) (b : Fin 8) (hb : b.val = win1_9.index t (0 : Fin 3)) :
    ((cfg1.win 1).blk t).view.emb (ix3 (0 : Fin 1) m j) = (ix3 b m j : S8x4096x1024.Idx) := by
  obtain ⟨-, -, -, e0, e1, e2, -⟩ := idx_facts t
  funext a; apply Fin.ext
  match a with
  | ⟨0, _⟩ => show win1_1.index t (0 : Fin 3) * 1 + 1 * 0 = b.val; omega
  | ⟨1, _⟩ => show win1_1.index t (1 : Fin 3) * 4096 + 1 * m.val = m.val; omega
  | ⟨2, _⟩ => show win1_1.index t (2 : Fin 3) * 1024 + 1 * j.val = j.val; omega

/-- The value window's block likewise. -/
theorem emb2 (t : Fin cfg1.N) (m : Fin 4096) (j : Fin 1024) (b : Fin 8) (hb : b.val = win1_9.index t (0 : Fin 3)) :
    ((cfg1.win 2).blk t).view.emb (ix3 (0 : Fin 1) m j) = (ix3 b m j : S8x4096x1024.Idx) := by
  obtain ⟨-, -, -, -, -, -, e0, e1, e2, -⟩ := idx_facts t
  funext a; apply Fin.ext
  match a with
  | ⟨0, _⟩ => show win1_2.index t (0 : Fin 3) * 1 + 1 * 0 = b.val; omega
  | ⟨1, _⟩ => show win1_2.index t (1 : Fin 3) * 4096 + 1 * m.val = m.val; omega
  | ⟨2, _⟩ => show win1_2.index t (2 : Fin 3) * 1024 + 1 * j.val = j.val; omega

/-- The query weights' window is the whole matrix at every point. -/
theorem emb3 (t : Fin cfg1.N) (j e : Fin 1024) :
    ((cfg1.win 3).blk t).view.emb (ix2 j e) = (ix2 j e : S1024x1024.Idx) := by
  obtain ⟨-, -, -, -, -, -, -, -, -, e0, e1, -⟩ := idx_facts t
  funext a; apply Fin.ext
  match a with
  | ⟨0, _⟩ => show win1_3.index t (0 : Fin 2) * 1024 + 1 * j.val = j.val; omega
  | ⟨1, _⟩ => show win1_3.index t (1 : Fin 2) * 1024 + 1 * e.val = e.val; omega

/-- The first gate weights' window is the whole matrix at every point. -/
theorem emb4 (t : Fin cfg1.N) (j : Fin 1024) (e : Fin 3072) :
    ((cfg1.win 4).blk t).view.emb (ix2 j e) = (ix2 j e : S1024x3072.Idx) := by
  obtain ⟨-, -, -, -, -, -, -, -, -, -, -, e0, e1, -⟩ := idx_facts t
  funext a; apply Fin.ext
  match a with
  | ⟨0, _⟩ => show win1_4.index t (0 : Fin 2) * 1024 + 1 * j.val = j.val; omega
  | ⟨1, _⟩ => show win1_4.index t (1 : Fin 2) * 3072 + 1 * e.val = e.val; omega

/-- The second gate weights' window likewise. -/
theorem emb5 (t : Fin cfg1.N) (j : Fin 1024) (e : Fin 3072) :
    ((cfg1.win 5).blk t).view.emb (ix2 j e) = (ix2 j e : S1024x3072.Idx) := by
  obtain ⟨-, -, -, -, -, -, -, -, -, -, -, -, -, e0, e1, -⟩ := idx_facts t
  funext a; apply Fin.ext
  match a with
  | ⟨0, _⟩ => show win1_5.index t (0 : Fin 2) * 1024 + 1 * j.val = j.val; omega
  | ⟨1, _⟩ => show win1_5.index t (1 : Fin 2) * 3072 + 1 * e.val = e.val; omega

/-- The first bias's window is the whole one-row array at every point. -/
theorem emb6 (t : Fin cfg1.N) (e : Fin 3072) :
    ((cfg1.win 6).blk t).view.emb (ix2 (0 : Fin 1) e) = (ix2 (0 : Fin 1) e : S1x3072.Idx) := by
  obtain ⟨-, -, -, -, -, -, -, -, -, -, -, -, -, -, -, e0, e1, -⟩ := idx_facts t
  funext a; apply Fin.ext
  match a with
  | ⟨0, _⟩ => show win1_6.index t (0 : Fin 2) * 1 + 1 * 0 = 0; omega
  | ⟨1, _⟩ => show win1_6.index t (1 : Fin 2) * 3072 + 1 * e.val = e.val; omega

/-- The second bias's window likewise. -/
theorem emb7 (t : Fin cfg1.N) (e : Fin 3072) :
    ((cfg1.win 7).blk t).view.emb (ix2 (0 : Fin 1) e) = (ix2 (0 : Fin 1) e : S1x3072.Idx) := by
  obtain ⟨-, -, -, -, -, -, -, -, -, -, -, -, -, -, -, -, -, e0, e1, -⟩ := idx_facts t
  funext a; apply Fin.ext
  match a with
  | ⟨0, _⟩ => show win1_7.index t (0 : Fin 2) * 1 + 1 * 0 = 0; omega
  | ⟨1, _⟩ => show win1_7.index t (1 : Fin 2) * 3072 + 1 * e.val = e.val; omega

/-- The slot weights' window is the whole one-row array at every point. -/
theorem emb8 (t : Fin cfg1.N) (j : Fin 1024) :
    ((cfg1.win 8).blk t).view.emb (ix2 (0 : Fin 1) j) = (ix2 (0 : Fin 1) j : S1x1024.Idx) := by
  obtain ⟨-, -, -, -, -, -, -, -, -, -, -, -, -, -, -, -, -, -, -, e0, e1, -⟩ := idx_facts t
  funext a; apply Fin.ext
  match a with
  | ⟨0, _⟩ => show win1_8.index t (0 : Fin 2) * 1 + 1 * 0 = 0; omega
  | ⟨1, _⟩ => show win1_8.index t (1 : Fin 2) * 1024 + 1 * j.val = j.val; omega

/-- An index of the output array is in point t's block iff each coordinate is in the block's range on its axis. -/
theorem mem_blk9 (t : Fin cfg1.N) (i : S8x64x1024.Idx) :
    i ∈ ((cfg1.win 9).blk t).view.set ↔ ∀ a : Fin 3, win1_9.index t a * S1x64x1024.size a ≤ (i a).val ∧ (i a).val < win1_9.index t a * S1x64x1024.size a + S1x64x1024.size a := by
  show i ∈ ((View.whole main_v15).slice (win1_9.rect t)).set ↔ _
  rw [View.set_slice_whole, Rect.mem_set_unit]
  exact Iff.rfl

/-- The 8 blocks tile the output array: batch element i₀ is the block of the point whose index is i₀. -/
theorem cover9 (i : S8x64x1024.Idx) : ∃ t : Fin cfg1.N, (cfg1.win 9).flush t = true ∧ i ∈ ((cfg1.win 9).blk t).view.set := by
  have hi0 : (i 0).val < 8 := (i 0).isLt
  have hi1 : (i 1).val < 64 := (i 1).isLt
  have hi2 : (i 2).val < 1024 := (i 2).isLt
  obtain ⟨t, ht⟩ := idx_onto ⟨(i 0).val, hi0⟩
  have q0 : win1_9.index t (0 : Fin 3) = (i 0).val := congrFun ht 0
  have q1 : win1_9.index t (1 : Fin 3) = 0 := congrFun ht 1
  have q2 : win1_9.index t (2 : Fin 3) = 0 := congrFun ht 2
  refine ⟨t, flush1_9 t, ?_⟩
  rw [mem_blk9]
  intro a
  match a with
  | ⟨0, _⟩ => show win1_9.index t (0 : Fin 3) * 1 ≤ (i 0).val ∧ (i 0).val < win1_9.index t (0 : Fin 3) * 1 + 1; omega
  | ⟨1, _⟩ => show win1_9.index t (1 : Fin 3) * 64 ≤ (i 1).val ∧ (i 1).val < win1_9.index t (1 : Fin 3) * 64 + 64; omega
  | ⟨2, _⟩ => show win1_9.index t (2 : Fin 3) * 1024 ≤ (i 2).val ∧ (i 2).val < win1_9.index t (2 : Fin 3) * 1024 + 1024; omega

/-! ## From the blocks to the array -/

/-- WHAT POINT t WRITES BACK to the output array is block t of three rounds on that batch element. -/
theorem flushed9_eq (hupd : UpdAt) (c : Dev nD) (t : Fin cfg1.N) :
    (dat1 V c).flushed 9 t = ((cfg1.win 9).blk t).view.read (Elt Ideal)
      (GO (V c main_arg0) (V c main_v14_0) (V c main_v14_1) (V c main_v5) (V c main_v7) (V c main_v9) (V c main_v10) (V c main_v11)
        (V c main_v12)) := by
  show (cfg1.win 9).cut (grid1.coords t) ((dat1 V c).after 9 t) = _
  rw [after1_9]
  obtain ⟨-, -, -, -, -, -, -, -, -, -, -, -, -, -, -, -, -, -, -, -, -, b1, b2, b0⟩ := idx_facts t
  funext y
  obtain ⟨u, k, d, rfl⟩ : ∃ (u : Fin 1) (k : Fin 64) (d : Fin 1024), y = ix3 u k d := ⟨y 0, y 1, y 2, eq_ix3 y⟩
  refine (out1_9_at hupd _ _ _ _ _ _ _ _ _ u k d).trans ?_
  have hu : u.val = 0 := by omega
  have hemb : ((cfg1.win 9).blk t).view.emb (ix3 u k d)
      = (ix3 (⟨win1_9.index t (0 : Fin 3), by omega⟩ : Fin 8) k d : S8x64x1024.Idx) := by
    funext a; apply Fin.ext
    match a with
    | ⟨0, _⟩ => show win1_9.index t (0 : Fin 3) * 1 + 1 * u.val = win1_9.index t (0 : Fin 3); omega
    | ⟨1, _⟩ => show win1_9.index t (1 : Fin 3) * 64 + 1 * k.val = k.val; omega
    | ⟨2, _⟩ => show win1_9.index t (2 : Fin 3) * 1024 + 1 * d.val = d.val; omega
  show _ = GO (V c main_arg0) (V c main_v14_0) (V c main_v14_1) (V c main_v5) (V c main_v7) (V c main_v9) (V c main_v10) (V c main_v11)
    (V c main_v12) (((cfg1.win 9).blk t).view.emb (ix3 u k d))
  rw [hemb]
  unfold GO
  have a0 : (fun (k : Fin 64) (j : Fin 1024) => iblk1 V c 0 t (ix3 (0 : Fin 1) k j))
      = fun k j => V c main_arg0 (ix3 (⟨win1_9.index t (0 : Fin 3), by omega⟩ : Fin 8) k j) :=
    funext fun k => funext fun j => by
      show V c main_arg0 (((cfg1.win 0).blk t).view.emb (ix3 (0 : Fin 1) k j)) = _
      rw [emb0 t k j ⟨win1_9.index t (0 : Fin 3), by omega⟩ rfl]
  have a1 : (fun (m : Fin 4096) (j : Fin 1024) => iblk1 V c 1 t (ix3 (0 : Fin 1) m j))
      = fun m j => V c main_v14_0 (ix3 (⟨win1_9.index t (0 : Fin 3), by omega⟩ : Fin 8) m j) :=
    funext fun m => funext fun j => by
      show V c main_v14_0 (((cfg1.win 1).blk t).view.emb (ix3 (0 : Fin 1) m j)) = _
      rw [emb1 t m j ⟨win1_9.index t (0 : Fin 3), by omega⟩ rfl]
  have a2 : (fun (m : Fin 4096) (j : Fin 1024) => iblk1 V c 2 t (ix3 (0 : Fin 1) m j))
      = fun m j => V c main_v14_1 (ix3 (⟨win1_9.index t (0 : Fin 3), by omega⟩ : Fin 8) m j) :=
    funext fun m => funext fun j => by
      show V c main_v14_1 (((cfg1.win 2).blk t).view.emb (ix3 (0 : Fin 1) m j)) = _
      rw [emb2 t m j ⟨win1_9.index t (0 : Fin 3), by omega⟩ rfl]
  have a3 : (fun (e j : Fin 1024) => iblk1 V c 3 t (ix2 j e)) = fun e j => V c main_v5 (ix2 j e) :=
    funext fun e => funext fun j => by
      show V c main_v5 (((cfg1.win 3).blk t).view.emb (ix2 j e)) = _
      rw [emb3 t j e]
  have a4 : (fun (e : Fin 3072) (j : Fin 1024) => iblk1 V c 4 t (ix2 j e)) = fun e j => V c main_v7 (ix2 j e) :=
    funext fun e => funext fun j => by
      show V c main_v7 (((cfg1.win 4).blk t).view.emb (ix2 j e)) = _
      rw [emb4 t j e]
  have a5 : (fun (e : Fin 3072) (j : Fin 1024) => iblk1 V c 5 t (ix2 j e)) = fun e j => V c main_v9 (ix2 j e) :=
    funext fun e => funext fun j => by
      show V c main_v9 (((cfg1.win 5).blk t).view.emb (ix2 j e)) = _
      rw [emb5 t j e]
  have a6 : (fun (e : Fin 3072) => iblk1 V c 6 t (ix2 (0 : Fin 1) e)) = fun e => V c main_v10 (ix2 (0 : Fin 1) e) :=
    funext fun e => by
      show V c main_v10 (((cfg1.win 6).blk t).view.emb (ix2 (0 : Fin 1) e)) = _
      rw [emb6 t e]
  have a7 : (fun (e : Fin 3072) => iblk1 V c 7 t (ix2 (0 : Fin 1) e)) = fun e => V c main_v11 (ix2 (0 : Fin 1) e) :=
    funext fun e => by
      show V c main_v11 (((cfg1.win 7).blk t).view.emb (ix2 (0 : Fin 1) e)) = _
      rw [emb7 t e]
  have a8 : (fun (j : Fin 1024) => iblk1 V c 8 t (ix2 (0 : Fin 1) j)) = fun j => V c main_v12 (ix2 (0 : Fin 1) j) :=
    funext fun j => by
      show V c main_v12 (((cfg1.win 8).blk t).view.emb (ix2 (0 : Fin 1) j)) = _
      rw [emb8 t j]
  rw [a0, a1, a2, a3, a4, a5, a6, a7, a8]

/-- THE OUTPUT ARRAY after the region: three rounds on every batch element. -/
theorem final9 (hupd : UpdAt) (c : Dev nD) :
    (dat1 V c).arrAt 9 cfg1.N = GO (V c main_arg0) (V c main_v14_0) (V c main_v14_1) (V c main_v5) (V c main_v7) (V c main_v9) (V c main_v10)
      (V c main_v11) (V c main_v12) :=
  (dat1 V c).arrAt_eq_of_cover 9 _ (fun t _ => flushed9_eq V hupd c t) cover9

end Cert.KernelIdeal.Ker1

end
-- ==== Proof.KerValue.lean ====
/-
  The idealized kernel's result as a function of its arguments.  After the run the result buffer holds what the
  second region's write-backs leave in its output array: three rounds on every batch element, fed with the keys
  and values the first region left (the projections of the memory rows) and with the weights as the host
  operations before the regions re-laid them (transposed matrices, biases and norm weights as one row).  Read
  entry by entry this is the specification `Spec.out` of the argument arrays: a transposed matrix read at (j, e)
  is the matrix at (e, j), a one-row array read at (0, j) is the vector at j.
-/
import proofs.«162511_j86208583565576_1_alg».proof.Proof.Gen.KernelIdeal.Frame
import proofs.«162511_j86208583565576_1_alg».proof.Proof.KerHost
import proofs.«162511_j86208583565576_1_alg».proof.Proof.Ker0
import proofs.«162511_j86208583565576_1_alg».proof.Proof.Ker1
import proofs.«162511_j86208583565576_1_alg».proof.Proof.SpecLemmas
import Idealize.ShloMosaic.Lib.ValueLayout

noncomputable section

namespace Cert.KernelIdeal.KerValue

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg)

/-- The key array as the second region finds it: the projection of the memory rows by the transposed key weights. -/
theorem V2_keys (c : Dev nD) : V2 m ρ c main_v14_0 = Cert.KernelIdeal.Ker0.GP (m ((c : Thread nD τ).loc main_arg1)) (shapeCast S1x1024 (m ((c : Thread nD τ).loc main_arg10)) shapeCasts_S1024_S1x1024) (truncf (F := Ideal) .bf16 (transpose S1024x1024 [1, 0] (m ((c : Thread nD τ).loc main_arg3)) transposes_S1024x1024_S1024x1024_1_0) bitsLt_bf16_f32) := by
  refine ((W2_arr m ρ c 4).trans (Cert.KernelIdeal.Ker0.final4 (V1 m ρ) c)).trans ?_
  rw [show V1 m ρ c main_arg1 = _ from Cert.KernelIdeal.KerHost.W1_arg1 m ρ c,
    show V1 m ρ c main_v13 = _ from Cert.KernelIdeal.KerHost.W1_v13 m ρ c,
    show V1 m ρ c main_v1 = _ from Cert.KernelIdeal.KerHost.W1_v1 m ρ c]

/-- The value array as the second region finds it. -/
theorem V2_values (c : Dev nD) : V2 m ρ c main_v14_1 = Cert.KernelIdeal.Ker0.GP (m ((c : Thread nD τ).loc main_arg1)) (shapeCast S1x1024 (m ((c : Thread nD τ).loc main_arg10)) shapeCasts_S1024_S1x1024) (truncf (F := Ideal) .bf16 (transpose S1024x1024 [1, 0] (m ((c : Thread nD τ).loc main_arg4)) transposes_S1024x1024_S1024x1024_1_0) bitsLt_bf16_f32) := by
  refine ((W2_arr m ρ c 5).trans (Cert.KernelIdeal.Ker0.final5 (V1 m ρ) c)).trans ?_
  rw [show V1 m ρ c main_arg1 = _ from Cert.KernelIdeal.KerHost.W1_arg1 m ρ c,
    show V1 m ρ c main_v13 = _ from Cert.KernelIdeal.KerHost.W1_v13 m ρ c,
    show V1 m ρ c main_v3 = _ from Cert.KernelIdeal.KerHost.W1_v3 m ρ c]

/-- The buffers the first region does not write reach the second region as the host operations left them. -/
theorem V2_slots (c : Dev nD) : V2 m ρ c main_arg0 = (m ((c : Thread nD τ).loc main_arg0)) :=
  (W2_of_ne m ρ c main_arg0 (by decide)).trans (Cert.KernelIdeal.KerHost.W1_arg0 m ρ c)
theorem V2_wq (c : Dev nD) : V2 m ρ c main_v5 = (truncf (F := Ideal) .bf16 (transpose S1024x1024 [1, 0] (m ((c : Thread nD τ).loc main_arg2)) transposes_S1024x1024_S1024x1024_1_0) bitsLt_bf16_f32) := (W2_of_ne m ρ c main_v5 (by decide)).trans (Cert.KernelIdeal.KerHost.W1_v5 m ρ c)
theorem V2_wi (c : Dev nD) : V2 m ρ c main_v7 = (truncf (F := Ideal) .bf16 (transpose S1024x3072 [1, 0] (m ((c : Thread nD τ).loc main_arg5)) transposes_S3072x1024_S1024x3072_1_0) bitsLt_bf16_f32) := (W2_of_ne m ρ c main_v7 (by decide)).trans (Cert.KernelIdeal.KerHost.W1_v7 m ρ c)
theorem V2_wh (c : Dev nD) : V2 m ρ c main_v9 = (truncf (F := Ideal) .bf16 (transpose S1024x3072 [1, 0] (m ((c : Thread nD τ).loc main_arg6)) transposes_S3072x1024_S1024x3072_1_0) bitsLt_bf16_f32) := (W2_of_ne m ρ c main_v9 (by decide)).trans (Cert.KernelIdeal.KerHost.W1_v9 m ρ c)
theorem V2_bi (c : Dev nD) : V2 m ρ c main_v10 = (shapeCast S1x3072 (m ((c : Thread nD τ).loc main_arg7)) shapeCasts_S3072_S1x3072) := (W2_of_ne m ρ c main_v10 (by decide)).trans (Cert.KernelIdeal.KerHost.W1_v10 m ρ c)
theorem V2_bh (c : Dev nD) : V2 m ρ c main_v11 = (shapeCast S1x3072 (m ((c : Thread nD τ).loc main_arg8)) shapeCasts_S3072_S1x3072) := (W2_of_ne m ρ c main_v11 (by decide)).trans (Cert.KernelIdeal.KerHost.W1_v11 m ρ c)
theorem V2_sw (c : Dev nD) : V2 m ρ c main_v12 = (shapeCast S1x1024 (m ((c : Thread nD τ).loc main_arg9)) shapeCasts_S1024_S1x1024) := (W2_of_ne m ρ c main_v12 (by decide)).trans (Cert.KernelIdeal.KerHost.W1_v12 m ρ c)

/-- An entry of a projection array: the projection of its batch element's rows, with the transposed weights and the
    one-row norm weights read back as the argument arrays. -/
theorem GP_at (P : S8x4096x1024.Idx → Elt Ideal .f32) (iw : S1024.Idx → Elt Ideal .f32) (W : S1024x1024.Idx → Elt Ideal .f32)
    (b : Fin 8) (r : Fin 4096) (e : Fin 1024) :
    Cert.KernelIdeal.Ker0.GP P (shapeCast S1x1024 iw shapeCasts_S1024_S1x1024)
        (truncf (F := Ideal) .bf16 (transpose S1024x1024 [1, 0] W transposes_S1024x1024_S1024x1024_1_0) bitsLt_bf16_f32) (ix3 b r e)
      = Cert.Spec.proj (Cert.Spec.slab P b) (Cert.Spec.row iw) (Cert.Spec.mat W) r e := by
  unfold Cert.KernelIdeal.Ker0.GP
  refine Cert.Spec.proj_congr_row _ _ _ _ _ _ r r (fun j => rfl) (fun j => ?_) (fun e' j => ?_) e
  · exact shapeCast_a_1a_apply iw _ (0 : Fin 1) j
  · exact transpose_ix2_apply W _ j e'

/-- THE RESULT: the result buffer after the run is the specification of the argument arrays. -/
theorem W3_v15 (hupd : Cert.KernelIdeal.Ker1.UpdAt) (c : Dev nD) :
    W3 m ρ c (Proc.devRef .tc main_v15)
      = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W3_arr m ρ c 9).trans (Cert.KernelIdeal.Ker1.final9 (V2 m ρ) hupd c)).trans ?_
  rw [V2_keys, V2_values, V2_slots, V2_wq, V2_wi, V2_wh, V2_bi, V2_bh, V2_sw]
  funext i
  obtain ⟨b, k, d, rfl⟩ : ∃ (b : Fin 8) (k : Fin 64) (d : Fin 1024), i = ix3 b k d := ⟨i 0, i 1, i 2, eq_ix3 i⟩
  rw [Cert.Spec.out_ix3]
  unfold Cert.KernelIdeal.Ker1.GO Cert.Spec.outAt
  have hK : (fun r j => Cert.KernelIdeal.Ker0.GP (m ((c : Thread nD τ).loc main_arg1)) (shapeCast S1x1024 (m ((c : Thread nD τ).loc main_arg10)) shapeCasts_S1024_S1x1024) (truncf (F := Ideal) .bf16 (transpose S1024x1024 [1, 0] (m ((c : Thread nD τ).loc main_arg3)) transposes_S1024x1024_S1024x1024_1_0) bitsLt_bf16_f32) (ix3 b r j))
      = Cert.Spec.proj (Cert.Spec.slab (m ((c : Thread nD τ).loc main_arg1)) b) (Cert.Spec.row (m ((c : Thread nD τ).loc main_arg10))) (Cert.Spec.mat (m ((c : Thread nD τ).loc main_arg3))) :=
    funext fun r => funext fun j => GP_at _ _ _ b r j
  have hV : (fun r j => Cert.KernelIdeal.Ker0.GP (m ((c : Thread nD τ).loc main_arg1)) (shapeCast S1x1024 (m ((c : Thread nD τ).loc main_arg10)) shapeCasts_S1024_S1x1024) (truncf (F := Ideal) .bf16 (transpose S1024x1024 [1, 0] (m ((c : Thread nD τ).loc main_arg4)) transposes_S1024x1024_S1024x1024_1_0) bitsLt_bf16_f32) (ix3 b r j))
      = Cert.Spec.proj (Cert.Spec.slab (m ((c : Thread nD τ).loc main_arg1)) b) (Cert.Spec.row (m ((c : Thread nD τ).loc main_arg10))) (Cert.Spec.mat (m ((c : Thread nD τ).loc main_arg4))) :=
    funext fun r => funext fun j => GP_at _ _ _ b r j
  have hQ : (fun e j => (truncf (F := Ideal) .bf16 (transpose S1024x1024 [1, 0] (m ((c : Thread nD τ).loc main_arg2)) transposes_S1024x1024_S1024x1024_1_0) bitsLt_bf16_f32) (ix2 j e)) = Cert.Spec.mat (m ((c : Thread nD τ).loc main_arg2)) :=
    funext fun e => funext fun j => transpose_ix2_apply _ _ j e
  have hI : (fun e j => (truncf (F := Ideal) .bf16 (transpose S1024x3072 [1, 0] (m ((c : Thread nD τ).loc main_arg5)) transposes_S3072x1024_S1024x3072_1_0) bitsLt_bf16_f32) (ix2 j e)) = Cert.Spec.mat (m ((c : Thread nD τ).loc main_arg5)) :=
    funext fun e => funext fun j => transpose_ix2_apply _ _ j e
  have hH : (fun e j => (truncf (F := Ideal) .bf16 (transpose S1024x3072 [1, 0] (m ((c : Thread nD τ).loc main_arg6)) transposes_S3072x1024_S1024x3072_1_0) bitsLt_bf16_f32) (ix2 j e)) = Cert.Spec.mat (m ((c : Thread nD τ).loc main_arg6)) :=
    funext fun e => funext fun j => transpose_ix2_apply _ _ j e
  have hbi : (fun e => (shapeCast S1x3072 (m ((c : Thread nD τ).loc main_arg7)) shapeCasts_S3072_S1x3072) (ix2 (0 : Fin 1) e)) = Cert.Spec.row (m ((c : Thread nD τ).loc main_arg7)) :=
    funext fun e => shapeCast_a_1a_apply _ _ (0 : Fin 1) e
  have hbh : (fun e => (shapeCast S1x3072 (m ((c : Thread nD τ).loc main_arg8)) shapeCasts_S3072_S1x3072) (ix2 (0 : Fin 1) e)) = Cert.Spec.row (m ((c : Thread nD τ).loc main_arg8)) :=
    funext fun e => shapeCast_a_1a_apply _ _ (0 : Fin 1) e
  have hsw : (fun j => (shapeCast S1x1024 (m ((c : Thread nD τ).loc main_arg9)) shapeCasts_S1024_S1x1024) (ix2 (0 : Fin 1) j)) = Cert.Spec.row (m ((c : Thread nD τ).loc main_arg9)) :=
    funext fun j => shapeCast_a_1a_apply _ _ (0 : Fin 1) j
  show Cert.Spec.iter3 (fun r j => Cert.KernelIdeal.Ker0.GP (m ((c : Thread nD τ).loc main_arg1)) (shapeCast S1x1024 (m ((c : Thread nD τ).loc main_arg10)) shapeCasts_S1024_S1x1024) (truncf (F := Ideal) .bf16 (transpose S1024x1024 [1, 0] (m ((c : Thread nD τ).loc main_arg3)) transposes_S1024x1024_S1024x1024_1_0) bitsLt_bf16_f32) (ix3 b r j))
      (fun r j => Cert.KernelIdeal.Ker0.GP (m ((c : Thread nD τ).loc main_arg1)) (shapeCast S1x1024 (m ((c : Thread nD τ).loc main_arg10)) shapeCasts_S1024_S1x1024) (truncf (F := Ideal) .bf16 (transpose S1024x1024 [1, 0] (m ((c : Thread nD τ).loc main_arg4)) transposes_S1024x1024_S1024x1024_1_0) bitsLt_bf16_f32) (ix3 b r j))
      (fun e j => (truncf (F := Ideal) .bf16 (transpose S1024x1024 [1, 0] (m ((c : Thread nD τ).loc main_arg2)) transposes_S1024x1024_S1024x1024_1_0) bitsLt_bf16_f32) (ix2 j e)) (fun e j => (truncf (F := Ideal) .bf16 (transpose S1024x3072 [1, 0] (m ((c : Thread nD τ).loc main_arg5)) transposes_S3072x1024_S1024x3072_1_0) bitsLt_bf16_f32) (ix2 j e)) (fun e j => (truncf (F := Ideal) .bf16 (transpose S1024x3072 [1, 0] (m ((c : Thread nD τ).loc main_arg6)) transposes_S3072x1024_S1024x3072_1_0) bitsLt_bf16_f32) (ix2 j e))
      (fun e => (shapeCast S1x3072 (m ((c : Thread nD τ).loc main_arg7)) shapeCasts_S3072_S1x3072) (ix2 (0 : Fin 1) e)) (fun e => (shapeCast S1x3072 (m ((c : Thread nD τ).loc main_arg8)) shapeCasts_S3072_S1x3072) (ix2 (0 : Fin 1) e)) (fun j => (shapeCast S1x1024 (m ((c : Thread nD τ).loc main_arg9)) shapeCasts_S1024_S1x1024) (ix2 (0 : Fin 1) j))
      (fun k j => (m ((c : Thread nD τ).loc main_arg0)) (ix3 b k j)) k d = _
  rw [hK, hV, hQ, hI, hH, hbi, hbh, hsw]
  rfl

end Cert.KernelIdeal.KerValue

end
-- ==== Proof.KerBUpd.lean ====
/-
  The attention half of one round, read at one entry.

  Given the slots s : [64, 1024], the keys and values kp, vp : [4096, 1024], the query weights wq : [1024, 1024]
  and the one-row slot weights sw : [1, 1024], the body computes, for slot k and column d,

      ∑ m, A k m · vp m d,    where
      x k j   = s k j · rsqrt ((∑ j', s k j' · s k j') / 1024 + eps) · sw 0 j      (rows normalised by their root mean square)
      q k e   = ∑ j, x k j · wq j e                                               (queries)
      S k m   = (∑ j, q k j · kp m j) · (1/32)                                     (scaled scores: both operands contracted along axis 1)
      M m     = the fold of max from -inf over the 64 slots of S · m              (each key's column maximum)
      E k m   = exp (S k m - M m)
      P k m   = E k m / ∑ k', E k' m                                               (softmax over the SLOT axis)
      A k m   = P k m / ((∑ m', P k m') + eps)                                     (renormalised over the KEY axis).

  Every step below is a re-indexing: a reduction along one axis of a rank-2 array read as a sum (or a fold of max)
  over that axis's coordinates, a vector re-laid as a row or a column and spread back over the array read at the
  vector's entry, a matrix product into the zero accumulator read as the sum over the contracted coordinate.  At the
  extended reals a change of format is the identity and the pointwise operations act entry by entry, so nothing here
  asks an entry to be finite, and the shared f32 literals are never evaluated.
-/
import proofs.«162511_j86208583565576_1_alg».proof.Proof.KerBDefs
import proofs.«162511_j86208583565576_1_alg».proof.Proof.LibKeepdims
import proofs.«162511_j86208583565576_1_alg».proof.Proof.LibColumnSum
import proofs.«162511_j86208583565576_1_alg».proof.Proof.LibMlpAt
import Idealize.ShloMosaic.Lib.ValueLayout

noncomputable section

open scoped BigOperators

namespace Cert.KernelIdeal.KerB

open Idealize.ShloMosaic Idealize.ShloMosaic.ValueIdx Cert.KernelIdeal

/-! The auxiliary readings live in their own namespace, so that their short names meet no other module's. -/
namespace Upd

/-! ## Reductions along one axis of a rank-2 array, at an entry -/

/-- A sum along axis 1 of an `[a, b]` array, at row `p`: the sum over that row's entries. -/
theorem rowSum_at {a b : ℕ} (src : FVec Ideal ⟨2, ![a, b]⟩ .f32) (h : (⟨2, ![a, b]⟩ : Shape).Reduces [1] ⟨1, ![a]⟩) (p : Fin a) :
    multiReduction (F := Ideal) .add [1] ⟨1, ![a]⟩ src 0x00000000#32 h (.inl rfl) rfl (ix1 p) = ∑ c : Fin b, src (ix2 p c) := by
  refine (Ideal.multiReduction_add_single src 0x00000000#32 h (.inl rfl) rfl (ix1 p)).trans ?_
  refine Finset.sum_congr rfl fun c _ => ?_
  exact congrArg src (Cert.Lib.Keepdims.lift_axis1 h p c)

/-- A sum along axis 0 of an `[a, b]` array, at column `q`: the sum over that column's entries. -/
theorem colSum_at {a b : ℕ} (src : FVec Ideal ⟨2, ![a, b]⟩ .f32) (h : (⟨2, ![a, b]⟩ : Shape).Reduces [0] ⟨1, ![b]⟩) (q : Fin b) :
    multiReduction (F := Ideal) .add [0] ⟨1, ![b]⟩ src 0x00000000#32 h (.inl rfl) rfl (ix1 q) = ∑ r : Fin a, src (ix2 r q) := by
  refine (Ideal.multiReduction_add_single src 0x00000000#32 h (.inl rfl) rfl (ix1 q)).trans ?_
  refine Finset.sum_congr rfl fun r _ => ?_
  exact congrArg src (Cert.Lib.ColumnSum.lift_axis0 h q r)

/-- A maximum along axis 0 of an `[a, b]` array from the accumulator -inf, at column `q`: the fold of `max` from
    that literal over the column's entries. -/
theorem colMax_at {a b : ℕ} (src : FVec Ideal ⟨2, ![a, b]⟩ .f32) (h : (⟨2, ![a, b]⟩ : Shape).Reduces [0] ⟨1, ![b]⟩) (q : Fin b) :
    multiReduction (F := Ideal) .maximumf [0] ⟨1, ![b]⟩ src 0xFF800000#32 h (.inl rfl) rfl (ix1 q)
      = (Finset.univ : Finset (Fin a)).fold max (Ideal.ofBits .f32 0xFF800000#32) (fun r => src (ix2 r q)) := by
  refine (Ideal.multiReduction_maximumf_single src 0xFF800000#32 h (.inl rfl) rfl (ix1 q)).trans ?_
  refine congrArg (fun f => (Finset.univ : Finset (Fin a)).fold max (Ideal.ofBits .f32 0xFF800000#32) f) ?_
  funext r
  exact congrArg src (Cert.Lib.ColumnSum.lift_axis0 h q r)

/-! ## A vector re-laid as one row and spread over the rows -/

/-- A `[b]` vector re-laid as the row `[1, b]` and spread over `a` rows reads, at `(p, c)`, the vector at `c`. -/
theorem row_spread_apply {α : Type} {a b : ℕ} (x : (⟨1, ![b]⟩ : Shape).Idx → α) (hc : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ x hc) hb (ix2 p c) = x (ix1 c) :=
  (broadcastTo_1b_ab_apply _ hb p c).trans (shapeCast_a_1a_apply x hc 0 c)

/-! ## A product with both operands contracted along axis 1 -/

/-- The dimension numbers of `[m, k] × [n, k] → [m, n]`: axis 1 of the left operand against axis 1 of the right. -/
abbrev DT {m k n : Nat} (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

/-- The left operand's index at output `(a, b)` and contracted coordinate `c` is `(a, c)`. -/
theorem lhsIdx_DT {m k n : Nat} (w : DotDims.WF ⟨2, ![m, k]⟩ ⟨2, ![n, k]⟩ ⟨2, ![m, n]⟩ [1] [1] [0] [0] [] [])
    (a : Fin m) (b : Fin n) (c : Fin k) :
    (DT w).lhsIdx (ix2 a b) ((contrEquiv1 (DT w) k rfl rfl).symm c) = ix2 a c := by
  have c2 := contrEquiv1_symm_val (DT w) k rfl rfl c
  funext ax; apply Fin.ext
  match ax with
  | ⟨0, _⟩ => simp [DotDims.lhsIdx]; rfl
  | ⟨1, _⟩ => simp [DotDims.lhsIdx]; exact c2

/-- The right operand's index at output `(a, b)` and contracted coordinate `c` is `(b, c)`. -/
theorem rhsIdx_DT {m k n : Nat} (w : DotDims.WF ⟨2, ![m, k]⟩ ⟨2, ![n, k]⟩ ⟨2, ![m, n]⟩ [1] [1] [0] [0] [] [])
    (a : Fin m) (b : Fin n) (c : Fin k) :
    (DT w).rhsIdx (ix2 a b) ((contrEquiv1 (DT w) k rfl rfl).symm c) = ix2 b c := by
  have c2 := contrEquiv1_symm_val (DT w) k rfl rfl c
  funext ax; apply Fin.ext
  match ax with
  | ⟨0, _⟩ => simp [DotDims.rhsIdx]; rfl
  | ⟨1, _⟩ => simp [DotDims.rhsIdx]; exact c2

/-- Such a product into the zero accumulator, at `(a, b)`: the sum over `c` of the products of the entries `(a, c)`
    of the left operand and `(b, c)` of the right. -/
theorem matmulT_zero_at {m k n : Nat} {φ₁ φ₂ : FTy} (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    matmul (DT w) prec A B (constant ⟨2, ![m, n]⟩ .f32 0x00000000#32) (ix2 a b) = ∑ c : Fin k, A (ix2 a c) * B (ix2 b c) := by
  show FloatOps.matmul _ prec A B _ (ix2 a b) = _
  rw [Ideal.matmul_constant_zero_apply, ← Equiv.sum_comp (contrEquiv1 (DT w) k rfl rfl).symm]
  refine Finset.sum_congr rfl fun c _ => ?_
  rw [lhsIdx_DT, rhsIdx_DT]

/-! ## A column or a row of an array divided through, at an entry -/

/-- Every entry divided by its column's sum (the column sums re-laid as a row and spread over the rows): at `(r, q)`
    the entry over the sum of column `q`. -/
theorem divColSum_at {a b : ℕ} (E : FVec Ideal ⟨2, ![a, b]⟩ .f32) (h : (⟨2, ![a, b]⟩ : Shape).Reduces [0] ⟨1, ![b]⟩)
    (hc : (⟨1, ![b]⟩ : Shape).ShapeCasts ⟨2, ![1, b]⟩) (hb : (⟨2, ![1, b]⟩ : Shape).Broadcasts ⟨2, ![a, b]⟩) (r : Fin a) (q : Fin b) :
    divf E (broadcastTo ⟨2, ![a, b]⟩ (shapeCast ⟨2, ![1, b]⟩
        (multiReduction (F := Ideal) .add [0] ⟨1, ![b]⟩ E 0x00000000#32 h (.inl rfl) rfl) hc) hb) (ix2 r q)
      = Ideal.div (E (ix2 r q)) (∑ r' : Fin a, E (ix2 r' q)) := by
  rw [divf_apply, row_spread_apply, colSum_at]

/-- Every entry divided by its row's sum plus a splat constant (the row sums re-laid as a column, the constant added,
    the column spread over the lanes): at `(r, q)` the entry over (the sum of row `r` plus the constant). -/
theorem divRowSumPlus_at {a b : ℕ} (P : FVec Ideal ⟨2, ![a, b]⟩ .f32) (w : BitVec 32) (h : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩) (r : Fin a) (q : Fin b) :
    divf P (broadcastTo ⟨2, ![a, b]⟩ (addf (shapeCast ⟨2, ![a, 1]⟩
        (multiReduction (F := Ideal) .add [1] ⟨1, ![a]⟩ P 0x00000000#32 h (.inl rfl) rfl) hc)
        (broadcast ⟨2, ![a, 1]⟩ (Scalar.ofBits (F := Ideal) .f32 w))) hb) (ix2 r q)
      = Ideal.div (P (ix2 r q)) ((∑ q' : Fin b, P (ix2 r q')) + Ideal.ofBits .f32 w) := by
  rw [divf_apply, Cert.Lib.Keepdims.broadcastTo_a1_ab_apply, addf_apply, Cert.Lib.Keepdims.shapeCast_a_a1_apply, rowSum_at]
  rfl

/-! ## The stages -/

/-- The rows normalised by their root mean square and weighted: the kernel's spelling at `(r, c)`. -/
theorem rmsK_at {a : ℕ} (s : FVec Ideal ⟨2, ![a, 1024]⟩ .f32) (sw : FVec Ideal ⟨2, ![1, 1024]⟩ .f32)
    (h : (⟨2, ![a, 1024]⟩ : Shape).Reduces [1] ⟨1, ![a]⟩) (hc : (⟨1, ![a]⟩ : Shape).ShapeCasts ⟨2, ![a, 1]⟩)
    (hb : (⟨2, ![a, 1]⟩ : Shape).Broadcasts ⟨2, ![a, 1024]⟩) (hw : (⟨2, ![1, 1024]⟩ : Shape).Broadcasts ⟨2, ![a, 1024]⟩)
    (r : Fin a) (c : Fin 1024) :
    mulf (mulf s (broadcastTo ⟨2, ![a, 1024]⟩ (rsqrt (addf (divf (shapeCast ⟨2, ![a, 1]⟩
          (multiReduction (F := Ideal) .add [1] ⟨1, ![a]⟩ (mulf s s) 0x00000000#32 h (.inl rfl) rfl) hc)
          (broadcast ⟨2, ![a, 1]⟩ (Scalar.ofBits (F := Ideal) .f32 0x44800000#32)))
          (broadcast ⟨2, ![a, 1]⟩ (Scalar.ofBits (F := Ideal) .f32 0x358637BD#32)))) hb))
        (broadcastTo ⟨2, ![a, 1024]⟩ sw hw) (ix2 r c)
      = Spec.rms (fun r c => s (ix2 r c)) (fun c => sw (ix2 (0 : Fin 1) c)) r c := by
  rw [mulf_apply, mulf_apply, Cert.Lib.Keepdims.broadcastTo_a1_ab_apply, broadcastTo_1b_ab_apply]
  show s (ix2 r c) * Ideal.rsqrt (Ideal.div (shapeCast ⟨2, ![a, 1]⟩ _ hc (ix2 r (0 : Fin 1))) Spec.cN + Spec.cEps)
      * sw (ix2 (0 : Fin 1) c) = _
  rw [Cert.Lib.Keepdims.shapeCast_a_a1_apply, rowSum_at]
  rfl

/-- The queries: the normalised rows (narrowed to bf16, which keeps the value) against the query weights. -/
theorem qK_at {a : ℕ} (x : FVec Ideal ⟨2, ![a, 1024]⟩ .f32) (wq : FVec Ideal ⟨2, ![1024, 1024]⟩ .bf16)
    (w : DotDims.WF ⟨2, ![a, 1024]⟩ ⟨2, ![1024, 1024]⟩ ⟨2, ![a, 1024]⟩ [1] [0] [0] [1] [] []) (hlt : FTy.bf16.bits < FTy.f32.bits)
    (r : Fin a) (e : Fin 1024) :
    matmul (Cert.Mlp.D2 w) none (truncf .bf16 x hlt) wq (constant ⟨2, ![a, 1024]⟩ .f32 0x00000000#32) (ix2 r e)
      = Spec.mulT (fun r c => x (ix2 r c)) (fun e j => wq (ix2 j e)) r e :=
  Cert.Mlp.matmul_zero_at w none (truncf .bf16 x hlt) wq r e

/-- The scaled scores: the queries (narrowed to bf16) against the keys, both contracted along axis 1, times 1/32. -/
theorem scoresK_at (q : FVec Ideal ⟨2, ![64, 1024]⟩ .f32) (kp : FVec Ideal ⟨2, ![4096, 1024]⟩ .bf16)
    (w : DotDims.WF ⟨2, ![64, 1024]⟩ ⟨2, ![4096, 1024]⟩ ⟨2, ![64, 4096]⟩ [1] [1] [0] [0] [] []) (hlt : FTy.bf16.bits < FTy.f32.bits)
    (r : Fin 64) (m : Fin 4096) :
    mulf (matmul (DT w) none (truncf .bf16 q hlt) kp (constant ⟨2, ![64, 4096]⟩ .f32 0x00000000#32))
        (broadcast ⟨2, ![64, 4096]⟩ (Scalar.ofBits (F := Ideal) .f32 0x3D000000#32)) (ix2 r m)
      = Spec.scores (fun r c => q (ix2 r c)) (fun m j => kp (ix2 m j)) r m := by
  rw [mulf_apply, matmulT_zero_at]
  rfl

section Softmax

variable (sc : FVec Ideal ⟨2, ![64, 4096]⟩ .f32)
  (h0 : (⟨2, ![64, 4096]⟩ : Shape).Reduces [0] ⟨1, ![4096]⟩) (hc0 : (⟨1, ![4096]⟩ : Shape).ShapeCasts ⟨2, ![1, 4096]⟩)
  (hb0 : (⟨2, ![1, 4096]⟩ : Shape).Broadcasts ⟨2, ![64, 4096]⟩)
  (h1 : (⟨2, ![64, 4096]⟩ : Shape).Reduces [1] ⟨1, ![64]⟩) (hc1 : (⟨1, ![64]⟩ : Shape).ShapeCasts ⟨2, ![64, 1]⟩)
  (hb1 : (⟨2, ![64, 1]⟩ : Shape).Broadcasts ⟨2, ![64, 4096]⟩)

/-- The exponentials of the scores shifted by their column's maximum, as the kernel spells them. -/
def expoK : FVec Ideal ⟨2, ![64, 4096]⟩ .f32 :=
  exp (subf sc (broadcastTo ⟨2, ![64, 4096]⟩ (shapeCast ⟨2, ![1, 4096]⟩
    (multiReduction (F := Ideal) .maximumf [0] ⟨1, ![4096]⟩ sc 0xFF800000#32 h0 (.inl rfl) rfl) hc0) hb0))

/-- The softmax over the slot axis, as the kernel spells it. -/
def softK : FVec Ideal ⟨2, ![64, 4096]⟩ .f32 :=
  divf (expoK sc h0 hc0 hb0) (broadcastTo ⟨2, ![64, 4096]⟩ (shapeCast ⟨2, ![1, 4096]⟩
    (multiReduction (F := Ideal) .add [0] ⟨1, ![4096]⟩ (expoK sc h0 hc0 hb0) 0x00000000#32 h0 (.inl rfl) rfl) hc0) hb0)

/-- The softmax renormalised along the key axis, as the kernel spells it. -/
def attnK : FVec Ideal ⟨2, ![64, 4096]⟩ .f32 :=
  divf (softK sc h0 hc0 hb0) (broadcastTo ⟨2, ![64, 4096]⟩ (addf (shapeCast ⟨2, ![64, 1]⟩
      (multiReduction (F := Ideal) .add [1] ⟨1, ![64]⟩ (softK sc h0 hc0 hb0) 0x00000000#32 h1 (.inl rfl) rfl) hc1)
      (broadcast ⟨2, ![64, 1]⟩ (Scalar.ofBits (F := Ideal) .f32 0x358637BD#32))) hb1)

theorem expoK_at (r : Fin 64) (m : Fin 4096) :
    expoK sc h0 hc0 hb0 (ix2 r m) = Spec.expo (fun r c => sc (ix2 r c)) r m := by
  show Ideal.exp (sc (ix2 r m) - broadcastTo ⟨2, ![64, 4096]⟩ _ hb0 (ix2 r m)) = _
  rw [row_spread_apply, colMax_at]
  rfl

theorem softK_at (r : Fin 64) (m : Fin 4096) :
    softK sc h0 hc0 hb0 (ix2 r m) = Spec.soft (fun r c => sc (ix2 r c)) r m := by
  unfold softK Spec.soft
  rw [divColSum_at, expoK_at]
  exact congrArg (Ideal.div _) (Finset.sum_congr rfl fun r' _ => expoK_at sc h0 hc0 hb0 r' m)

theorem attnK_at (r : Fin 64) (m : Fin 4096) :
    attnK sc h0 hc0 hb0 h1 hc1 hb1 (ix2 r m) = Spec.attn (fun r c => sc (ix2 r c)) r m := by
  unfold attnK Spec.attn
  rw [divRowSumPlus_at, softK_at]
  exact congrArg (fun t => Ideal.div _ (t + Spec.cEps)) (Finset.sum_congr rfl fun m' _ => softK_at sc h0 hc0 hb0 r m')

end Softmax

end Upd

open Upd

/-! ## The attention half at an entry -/

/-- The attention half of a round at slot `k` and column `d`: the values averaged by the attention of the normalised
    slots over the keys. -/
theorem updK_at (s : FVec Ideal S64x1024 .f32) (kp vp : FVec Ideal S4096x1024 .bf16) (wq : FVec Ideal S1024x1024 .bf16)
    (sw : FVec Ideal S1x1024 .f32) (k : Fin 64) (d : Fin 1024) :
    updK (F := Ideal) s kp vp wq sw (ix2 k d)
      = Cert.Spec.upd (fun m j => kp (ix2 m j)) (fun m j => vp (ix2 m j)) (fun e j => wq (ix2 j e))
          (fun j => sw (ix2 (0 : Fin 1) j)) (fun k j => s (ix2 k j)) k d := by
  unfold Spec.upd Spec.mulM
  refine (Cert.Mlp.matmul_zero_at _ none _ vp k d).trans ?_
  refine Finset.sum_congr rfl fun m _ => ?_
  refine congrArg (· * vp (ix2 m d)) ?_
  refine (truncf_apply (φ := .f32) (ψ := .bf16) _ _ (ix2 k m)).trans ?_
  refine (attnK_at _ _ _ _ _ _ _ k m).trans ?_
  refine congrArg (fun f => Spec.attn f k m) (funext fun r => funext fun c => ?_)
  refine (scoresK_at _ kp _ _ r c).trans ?_
  refine congrArg (fun f => Spec.scores f _ r c) (funext fun r' => funext fun e => ?_)
  refine (qK_at _ wq _ _ r' e).trans ?_
  refine congrArg (fun f => Spec.mulT f _ r' e) (funext fun r'' => funext fun c' => ?_)
  exact rmsK_at s sw _ _ _ _ r'' c'

end Cert.KernelIdeal.KerB

end
-- ==== Proof.RefDefs.lean ====
/-
  One round of the slot update as the reference spells it on the host, for all eight batch elements at once,
  cut in the same two halves as the kernel's body: the attention half and the recurrent cell.  The
  reference's logistic is written out as 1 / (1 + exp (-x)); its softmax maximum is guarded by a maximum
  with -inf.  The reference repeats the round three times.
-/
import proofs.«162511_j86208583565576_1_alg».proof.Proof.Gen.ReferenceIdeal.Run
import proofs.«162511_j86208583565576_1_alg».proof.Proof.Spec

noncomputable section

namespace Cert.ReferenceIdeal.RefB

open Idealize.ShloMosaic Cert.ReferenceIdeal Cert.ReferenceIdeal.Gen

variable {F : FTy → Type} [FloatOps F]

/-- Rows normalised by their root mean square and weighted (the last axis has 1024 entries); used for the
    slots `[8, 64, 1024]`. -/
def rmsR (S : FVec F S8x64x1024 .f32) (sw : FVec F S1024 .f32) : FVec F S8x64x1024 .f32 :=
  mulf (mulf S (broadcastInDim S8x64x1024 ![0, 1, 2] bcast_S8x64x1_S8x64x1024_0_1_2 (Host.rsqrt (addf (Host.divf (broadcastInDim S8x64x1 ![0, 1] bcast_S8x64_S8x64x1_0_1 (Host.reduceAdd (mulf S S) (constant S_ .f32 0x00000000#32) reducesTo_S8x64x1024_S8x64_d2 h_S_)) (broadcastInDim S8x64x1 ![] bcast_S_S8x64x1 (constant S_ .f32 0x44800000#32))) (broadcastInDim S8x64x1 ![] bcast_S_S8x64x1 (constant S_ .f32 0x358637BD#32)))))) (broadcastInDim S8x64x1024 ![0, 1, 2] bcast_S1x1x1024_S8x64x1024_0_1_2 (broadcastInDim S1x1x1024 ![2] bcast_S1024_S1x1x1024_2 sw))

/-- The scaled scores `[8, 64, 4096]` of the normalised slots' queries against the keys. -/
def scoresR (S : FVec F S8x64x1024 .f32) (KP : FVec F S8x4096x1024 .f32) (Wq : FVec F S1024x1024 .f32) (sw : FVec F S1024 .f32) :
    FVec F S8x64x4096 .f32 :=
  mulf (Host.dotGeneral dot_S8x64x1024_S8x4096x1024_S8x64x4096_2_2_1_1_0_0 none (Host.dotGeneral dot_S8x64x1024_S1024x1024_S8x64x1024_2_1_01_0_n_n none (rmsR S sw) Wq) KP) (broadcastInDim S8x64x4096 ![] bcast_S_S8x64x4096 (constant S_ .f32 0x3D000000#32))

/-- Exponentials of the scores shifted by the largest score of their key's column (over the slot axis). -/
def expoR (sc : FVec F S8x64x4096 .f32) : FVec F S8x64x4096 .f32 :=
  Host.exp (subf sc (broadcastInDim S8x64x4096 ![0, 1, 2] bcast_S8x1x4096_S8x64x4096_0_1_2 (broadcastInDim S8x1x4096 ![0, 2] bcast_S8x4096_S8x1x4096_0_2 (maximumf (broadcastInDim S8x4096 ![] bcast_S_S8x4096 (constant S_ .f32 0xFF800000#32)) (Host.reduce FloatOps.maximumf sc (constant S_ .f32 0xFF800000#32) reducesTo_S8x64x4096_S8x4096_d1 h_S_)))))

/-- The softmax over the slot axis from the exponentials. -/
def softR (ex : FVec F S8x64x4096 .f32) : FVec F S8x64x4096 .f32 :=
  Host.divf ex (broadcastInDim S8x64x4096 ![0, 1, 2] bcast_S8x1x4096_S8x64x4096_0_1_2 (broadcastInDim S8x1x4096 ![0, 2] bcast_S8x4096_S8x1x4096_0_2 (Host.reduceAdd ex (constant S_ .f32 0x00000000#32) reducesTo_S8x64x4096_S8x4096_d1 h_S_)))

/-- The softmax renormalised along the key axis, eps added to the divisor. -/
def attnR (so : FVec F S8x64x4096 .f32) : FVec F S8x64x4096 .f32 :=
  Host.divf so (broadcastInDim S8x64x4096 ![0, 1, 2] bcast_S8x64x1_S8x64x4096_0_1_2 (addf (broadcastInDim S8x64x1 ![0, 1] bcast_S8x64_S8x64x1_0_1 (Host.reduceAdd so (constant S_ .f32 0x00000000#32) reducesTo_S8x64x4096_S8x64_d2 h_S_)) (broadcastInDim S8x64x1 ![] bcast_S_S8x64x1 (constant S_ .f32 0x358637BD#32))))

/-- The attention half: from the slots to the averaged values. -/
def updR (S : FVec F S8x64x1024 .f32) (KP VP : FVec F S8x4096x1024 .f32) (Wq : FVec F S1024x1024 .f32) (sw : FVec F S1024 .f32) :
    FVec F S8x64x1024 .f32 :=
  Host.dotGeneral dot_S8x64x4096_S8x4096x1024_S8x64x1024_2_1_1_2_0_0 none (attnR (softR (expoR (scoresR S KP Wq sw)))) VP

/-- A gate row: `u Wᵀ + b` with `W` of 3072 rows. -/
def gatesR (u : FVec F S8x64x1024 .f32) (W : FVec F S3072x1024 .f32) (b : FVec F S3072 .f32) : FVec F S8x64x3072 .f32 :=
  addf (Host.dotGeneral dot_S8x64x1024_S3072x1024_S8x64x3072_2_1_01_0_n_n none u W) (broadcastInDim S8x64x3072 ![0, 1, 2] bcast_S1x1x3072_S8x64x3072_0_1_2 (broadcastInDim S1x1x3072 ![2] bcast_S3072_S1x1x3072_2 b))

/-- The logistic function written out: 1 / (1 + exp (-x)). -/
def sigR (x : FVec F S8x64x1024 .f32) : FVec F S8x64x1024 .f32 :=
  Host.divf (broadcastInDim S8x64x1024 ![] bcast_S_S8x64x1024 (constant S_ .f32 0x3F800000#32)) (addf (broadcastInDim S8x64x1024 ![] bcast_S_S8x64x1024 (constant S_ .f32 0x3F800000#32)) (Host.exp (Host.negf x)))

/-- The recurrent cell from the two gate rows `gi`, `gh` and the slots. -/
def gruR (gi gh : FVec F S8x64x3072 .f32) (S : FVec F S8x64x1024 .f32) : FVec F S8x64x1024 .f32 :=
  addf (mulf (subf (broadcastInDim S8x64x1024 ![] bcast_S_S8x64x1024 (constant S_ .f32 0x3F800000#32)) (sigR (addf (extractStridedSlice S8x64x1024 ![0, 0, 1024] gi slices_S8x64x3072_S8x64x1024_0_0_1024) (extractStridedSlice S8x64x1024 ![0, 0, 1024] gh slices_S8x64x3072_S8x64x1024_0_0_1024)))) (Host.tanh (addf (extractStridedSlice S8x64x1024 ![0, 0, 2048] gi slices_S8x64x3072_S8x64x1024_0_0_2048) (mulf (sigR (addf (extractStridedSlice S8x64x1024 ![0, 0, 0] gi slices_S8x64x3072_S8x64x1024_0_0_0) (extractStridedSlice S8x64x1024 ![0, 0, 0] gh slices_S8x64x3072_S8x64x1024_0_0_0))) (extractStridedSlice S8x64x1024 ![0, 0, 2048] gh slices_S8x64x3072_S8x64x1024_0_0_2048))))) (mulf (sigR (addf (extractStridedSlice S8x64x1024 ![0, 0, 1024] gi slices_S8x64x3072_S8x64x1024_0_0_1024) (extractStridedSlice S8x64x1024 ![0, 0, 1024] gh slices_S8x64x3072_S8x64x1024_0_0_1024))) S)

/-- The recurrent cell: from the averaged values `u` and the slots `S` to the new slots. -/
def cellR (u S : FVec F S8x64x1024 .f32) (Wi Wh : FVec F S3072x1024 .f32) (bi bh : FVec F S3072 .f32) : FVec F S8x64x1024 .f32 :=
  gruR (gatesR u Wi bi) (gatesR S Wh bh) S

/-- One round. -/
def iterR (S : FVec F S8x64x1024 .f32) (KP VP : FVec F S8x4096x1024 .f32) (Wq : FVec F S1024x1024 .f32)
    (Wi Wh : FVec F S3072x1024 .f32) (bi bh : FVec F S3072 .f32) (sw : FVec F S1024 .f32) : FVec F S8x64x1024 .f32 :=
  cellR (updR S KP VP Wq sw) S Wi Wh bi bh

/-- Keys (or values): the memory rows `[8, 4096, 1024]` normalised and weighted, against a weight matrix. -/
def projR (P : FVec F S8x4096x1024 .f32) (iw : FVec F S1024 .f32) (W : FVec F S1024x1024 .f32) : FVec F S8x4096x1024 .f32 :=
  Host.dotGeneral dot_S8x4096x1024_S1024x1024_S8x4096x1024_2_1_01_0_n_n none (mulf (mulf P (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf P P) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 iw))) W

end Cert.ReferenceIdeal.RefB

end
-- ==== Proof.RefUpd.lean ====
/-
  The attention half of one round, and the key / value projection, as the reference spells them on the host for all
  eight batch elements at once, read entry by entry.

  Every host operation involved is a re-indexing. A broadcast reads its operand at the coordinates it keeps; a sum or a
  maximum over one axis of a rank-3 array runs over that axis's coordinate with the other two fixed; and each of the
  three kinds of product met here (an [n, a, k] array against the rows of a matrix, and two batched products, against
  the rows and against the columns of the batch element's matrix) is the sum over the contracted coordinate of the
  entries' products. Reading the operations one after the other at (b, k, d) gives, for batch element b, exactly the
  formulas of Cert.Spec: rms, mulT, scores, expo, soft, attn, mulM. The reference guards the column maximum by a
  further maximum with -inf; that changes nothing, since a fold of max that starts from -inf already dominates -inf.
  Nothing here needs the entries to be finite, and no f32 literal is evaluated except the zero a sum starts from.
-/
import proofs.«162511_j86208583565576_1_alg».proof.Proof.RefDefs
import proofs.«162511_j86208583565576_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce
import Mathlib.Data.Finset.Fold

noncomputable section

open scoped BigOperators

namespace Cert.ReferenceIdeal.RefB

open Idealize.ShloMosaic Idealize.ShloMosaic.ValueIdx Cert.ReferenceIdeal

namespace UpdAux

/-! ## Indices a one-axis reduction of a rank-3 array visits -/

/-- Reducing [n, a, c] along its last axis visits, for (b, r) and coordinate k, the index (b, r, k). -/
theorem lift3_axis2 {n a c : ℕ} (h : (⟨3, ![n, a, c]⟩ : Shape).Reduces [2] ⟨2, ![n, a]⟩) (b : Fin n) (r : Fin a) (k : Fin c) :
    h.lift (ix2 b r) k = ix3 b r k :=
  funext fun x => Fin.ext (by match x with | ⟨0, _⟩ => rfl | ⟨1, _⟩ => rfl | ⟨2, _⟩ => rfl)

/-- Reducing [n, a, c] along its middle axis visits, for (b, m) and coordinate k, the index (b, k, m). -/
theorem lift3_axis1 {n a c : ℕ} (h : (⟨3, ![n, a, c]⟩ : Shape).Reduces [1] ⟨2, ![n, c]⟩) (b : Fin n) (m : Fin c) (k : Fin a) :
    h.lift (ix2 b m) k = ix3 b k m :=
  funext fun x => Fin.ext (by match x with | ⟨0, _⟩ => rfl | ⟨1, _⟩ => rfl | ⟨2, _⟩ => rfl)

/-! ## Broadcasts read at an index -/

variable {α : Type}

/-- A scalar broadcast to any shape reads the scalar everywhere. -/
theorem bcScalar_at {t : Shape} (h : (⟨0, ![]⟩ : Shape).BroadcastsInDim t (![] : Fin 0 → Fin t.rank))
    (v : (⟨0, ![]⟩ : Shape).Idx → α) (i : t.Idx) :
    broadcastInDim t (![] : Fin 0 → Fin t.rank) h v i = v ix0 :=
  broadcastInDim_apply _ h v i ix0 fun ax => ax.elim0

/-- [n, a] laid as [n, a, 1]: at (b, r, u) the entry (b, r). -/
theorem bc_na_na1_at {n a : ℕ} (h : (⟨2, ![n, a]⟩ : Shape).BroadcastsInDim ⟨3, ![n, a, 1]⟩ (![0, 1] : Fin 2 → Fin 3))
    (v : (⟨2, ![n, a]⟩ : Shape).Idx → α) (b : Fin n) (r : Fin a) (u : Fin 1) :
    broadcastInDim ⟨3, ![n, a, 1]⟩ (![0, 1] : Fin 2 → Fin 3) h v (ix3 b r u) = v (ix2 b r) := by
  refine broadcastInDim_apply _ h v (ix3 b r u) (ix2 b r) fun ax => ?_
  match ax with
  | ⟨0, _⟩ =>
    show b.val = if n = 1 then 0 else b.val
    split
    · have := b.isLt; omega
    · rfl
  | ⟨1, _⟩ =>
    show r.val = if a = 1 then 0 else r.val
    split
    · have := r.isLt; omega
    · rfl

/-- [n, a, 1] spread over the last axis of [n, a, c]: at (b, r, d) the entry (b, r, 0). -/
theorem bc_na1_nac_at {n a c : ℕ} (h : (⟨3, ![n, a, 1]⟩ : Shape).BroadcastsInDim ⟨3, ![n, a, c]⟩ (![0, 1, 2] : Fin 3 → Fin 3))
    (v : (⟨3, ![n, a, 1]⟩ : Shape).Idx → α) (b : Fin n) (r : Fin a) (d : Fin c) :
    broadcastInDim ⟨3, ![n, a, c]⟩ (![0, 1, 2] : Fin 3 → Fin 3) h v (ix3 b r d) = v (ix3 b r (0 : Fin 1)) := by
  refine broadcastInDim_apply _ h v (ix3 b r d) (ix3 b r (0 : Fin 1)) fun ax => ?_
  match ax with
  | ⟨0, _⟩ =>
    show b.val = if n = 1 then 0 else b.val
    split
    · have := b.isLt; omega
    · rfl
  | ⟨1, _⟩ =>
    show r.val = if a = 1 then 0 else r.val
    split
    · have := r.isLt; omega
    · rfl
  | ⟨2, _⟩ => rfl

/-- [c] laid as [1, 1, c]: at (u, v, d) the entry d. -/
theorem bc_c_11c_at {c : ℕ} (h : (⟨1, ![c]⟩ : Shape).BroadcastsInDim ⟨3, ![1, 1, c]⟩ (![2] : Fin 1 → Fin 3))
    (x : (⟨1, ![c]⟩ : Shape).Idx → α) (u w : Fin 1) (d : Fin c) :
    broadcastInDim ⟨3, ![1, 1, c]⟩ (![2] : Fin 1 → Fin 3) h x (ix3 u w d) = x (ix1 d) := by
  refine broadcastInDim_apply _ h x (ix3 u w d) (ix1 d) fun ax => ?_
  match ax with
  | ⟨0, _⟩ =>
    show d.val = if c = 1 then 0 else d.val
    split
    · have := d.isLt; omega
    · rfl

/-- [1, 1, c] spread over the first two axes of [n, a, c]: at (b, r, d) the entry (0, 0, d). -/
theorem bc_11c_nac_at {n a c : ℕ} (h : (⟨3, ![1, 1, c]⟩ : Shape).BroadcastsInDim ⟨3, ![n, a, c]⟩ (![0, 1, 2] : Fin 3 → Fin 3))
    (v : (⟨3, ![1, 1, c]⟩ : Shape).Idx → α) (b : Fin n) (r : Fin a) (d : Fin c) :
    broadcastInDim ⟨3, ![n, a, c]⟩ (![0, 1, 2] : Fin 3 → Fin 3) h v (ix3 b r d) = v (ix3 (0 : Fin 1) (0 : Fin 1) d) := by
  refine broadcastInDim_apply _ h v (ix3 b r d) (ix3 (0 : Fin 1) (0 : Fin 1) d) fun ax => ?_
  match ax with
  | ⟨0, _⟩ => rfl
  | ⟨1, _⟩ => rfl
  | ⟨2, _⟩ =>
    show d.val = if c = 1 then 0 else d.val
    split
    · have := d.isLt; omega
    · rfl

/-- [n, c] laid as [n, 1, c]: at (b, u, m) the entry (b, m). -/
theorem bc_nc_n1c_at {n c : ℕ} (h : (⟨2, ![n, c]⟩ : Shape).BroadcastsInDim ⟨3, ![n, 1, c]⟩ (![0, 2] : Fin 2 → Fin 3))
    (v : (⟨2, ![n, c]⟩ : Shape).Idx → α) (b : Fin n) (u : Fin 1) (m : Fin c) :
    broadcastInDim ⟨3, ![n, 1, c]⟩ (![0, 2] : Fin 2 → Fin 3) h v (ix3 b u m) = v (ix2 b m) := by
  refine broadcastInDim_apply _ h v (ix3 b u m) (ix2 b m) fun ax => ?_
  match ax with
  | ⟨0, _⟩ =>
    show b.val = if n = 1 then 0 else b.val
    split
    · have := b.isLt; omega
    · rfl
  | ⟨1, _⟩ =>
    show m.val = if c = 1 then 0 else m.val
    split
    · have := m.isLt; omega
    · rfl

/-- [n, 1, c] spread over the middle axis of [n, a, c]: at (b, k, m) the entry (b, 0, m). -/
theorem bc_n1c_nac_at {n a c : ℕ} (h : (⟨3, ![n, 1, c]⟩ : Shape).BroadcastsInDim ⟨3, ![n, a, c]⟩ (![0, 1, 2] : Fin 3 → Fin 3))
    (v : (⟨3, ![n, 1, c]⟩ : Shape).Idx → α) (b : Fin n) (k : Fin a) (m : Fin c) :
    broadcastInDim ⟨3, ![n, a, c]⟩ (![0, 1, 2] : Fin 3 → Fin 3) h v (ix3 b k m) = v (ix3 b (0 : Fin 1) m) := by
  refine broadcastInDim_apply _ h v (ix3 b k m) (ix3 b (0 : Fin 1) m) fun ax => ?_
  match ax with
  | ⟨0, _⟩ =>
    show b.val = if n = 1 then 0 else b.val
    split
    · have := b.isLt; omega
    · rfl
  | ⟨1, _⟩ => rfl
  | ⟨2, _⟩ =>
    show m.val = if c = 1 then 0 else m.val
    split
    · have := m.isLt; omega
    · rfl

/-! ## The host's sums and maximum over one axis of a rank-3 array -/

/-- The host's sum from the zero literal along the last axis: at (b, r) the sum of the row's entries. -/
theorem reduceAdd_axis2_at {n a c : ℕ} (x : FVec Ideal ⟨3, ![n, a, c]⟩ .f32)
    (h' : (⟨3, ![n, a, c]⟩ : Shape).ReducesTo [2] ⟨2, ![n, a]⟩) (h : (⟨3, ![n, a, c]⟩ : Shape).Reduces [2] ⟨2, ![n, a]⟩)
    (hu : 0 < (⟨0, ![]⟩ : Shape).numel) (b : Fin n) (r : Fin a) :
    Host.reduceAdd x (constant (F := Ideal) ⟨0, ![]⟩ .f32 0x00000000#32) h' hu (ix2 b r) = ∑ k : Fin c, x (ix3 b r k) := by
  show Ideal.hostReduceAdd h' x (Ideal.ofBits .f32 0x00000000#32) (ix2 b r) = _
  rw [Ideal.hostReduceAdd_single h' h, Ideal.ofBits_zero_f32, zero_add]
  exact Finset.sum_congr rfl fun k _ => congrArg x (lift3_axis2 h b r k)

/-- The host's sum from the zero literal along the middle axis: at (b, m) the sum of the column's entries. -/
theorem reduceAdd_axis1_at {n a c : ℕ} (x : FVec Ideal ⟨3, ![n, a, c]⟩ .f32)
    (h' : (⟨3, ![n, a, c]⟩ : Shape).ReducesTo [1] ⟨2, ![n, c]⟩) (h : (⟨3, ![n, a, c]⟩ : Shape).Reduces [1] ⟨2, ![n, c]⟩)
    (hu : 0 < (⟨0, ![]⟩ : Shape).numel) (b : Fin n) (m : Fin c) :
    Host.reduceAdd x (constant (F := Ideal) ⟨0, ![]⟩ .f32 0x00000000#32) h' hu (ix2 b m) = ∑ k : Fin a, x (ix3 b k m) := by
  show Ideal.hostReduceAdd h' x (Ideal.ofBits .f32 0x00000000#32) (ix2 b m) = _
  rw [Ideal.hostReduceAdd_single h' h, Ideal.ofBits_zero_f32, zero_add]
  exact Finset.sum_congr rfl fun k _ => congrArg x (lift3_axis1 h b m k)

/-- The host's maximum from a literal along the middle axis: at (b, m) the fold of max from that literal over the column. -/
theorem reduceMax_axis1_at {n a c : ℕ} (x : FVec Ideal ⟨3, ![n, a, c]⟩ .f32) (w : BitVec 32)
    (h' : (⟨3, ![n, a, c]⟩ : Shape).ReducesTo [1] ⟨2, ![n, c]⟩) (h : (⟨3, ![n, a, c]⟩ : Shape).Reduces [1] ⟨2, ![n, c]⟩)
    (hu : 0 < (⟨0, ![]⟩ : Shape).numel) (b : Fin n) (m : Fin c) :
    Host.reduce (FloatOps.maximumf (F := Ideal) (φ := .f32)) x (constant (F := Ideal) ⟨0, ![]⟩ .f32 w) h' hu (ix2 b m)
      = (Finset.univ : Finset (Fin a)).fold max (Ideal.ofBits .f32 w) (fun k => x (ix3 b k m)) := by
  rw [Host.reduce_eq_fold_single (FloatOps.maximumf (F := Ideal) (φ := .f32)) x _ h' h hu]
  show (Finset.univ : Finset (Fin a)).fold max (Ideal.ofBits .f32 w) (x ∘ h.lift (ix2 b m)) = _
  congr 1
  funext k
  exact congrArg x (lift3_axis1 h b m k)

/-! ## The three kinds of product -/

/-- [n, a, k] against the rows of a matrix [e, k]: contract the last axis of each, no batch axis. -/
abbrev DT {n a k e : ℕ} (w : DotDims.WF ⟨3, ![n, a, k]⟩ ⟨2, ![e, k]⟩ ⟨3, ![n, a, e]⟩ [2] [1] [0, 1] [0] [] []) :
    DotDims ⟨3, ![n, a, k]⟩ ⟨2, ![e, k]⟩ ⟨3, ![n, a, e]⟩ := ⟨[2], [1], [0, 1], [0], [], [], w⟩

theorem lhsIdx_DT {n a k e : ℕ} (w : DotDims.WF ⟨3, ![n, a, k]⟩ ⟨2, ![e, k]⟩ ⟨3, ![n, a, e]⟩ [2] [1] [0, 1] [0] [] [])
    (b : Fin n) (r : Fin a) (c : Fin e) (j : Fin k) :
    (DT w).lhsIdx (ix3 b r c) ((contrEquiv1 (DT w) k rfl rfl).symm j) = ix3 b r j := by
  have c2 := contrEquiv1_symm_val (DT w) k rfl rfl j
  funext ax; apply Fin.ext
  match ax with
  | ⟨0, _⟩ => simp [DotDims.lhsIdx]; rfl
  | ⟨1, _⟩ => simp [DotDims.lhsIdx]; rfl
  | ⟨2, _⟩ => simp [DotDims.lhsIdx]; exact c2

theorem rhsIdx_DT {n a k e : ℕ} (w : DotDims.WF ⟨3, ![n, a, k]⟩ ⟨2, ![e, k]⟩ ⟨3, ![n, a, e]⟩ [2] [1] [0, 1] [0] [] [])
    (b : Fin n) (r : Fin a) (c : Fin e) (j : Fin k) :
    (DT w).rhsIdx (ix3 b r c) ((contrEquiv1 (DT w) k rfl rfl).symm j) = ix2 c j := by
  have c2 := contrEquiv1_symm_val (DT w) k rfl rfl j
  funext ax; apply Fin.ext
  match ax with
  | ⟨0, _⟩ => simp [DotDims.rhsIdx]; rfl
  | ⟨1, _⟩ => simp [DotDims.rhsIdx]; exact c2

/-- The host's product of [n, a, k] with the rows of [e, k], at (b, r, c). -/
theorem dotT_at {n a k e : ℕ} (w : DotDims.WF ⟨3, ![n, a, k]⟩ ⟨2, ![e, k]⟩ ⟨3, ![n, a, e]⟩ [2] [1] [0, 1] [0] [] [])
    (prec : Option ContractPrecision) (A : FVec Ideal ⟨3, ![n, a, k]⟩ .f32) (B : FVec Ideal ⟨2, ![e, k]⟩ .f32)
    (b : Fin n) (r : Fin a) (c : Fin e) :
    Host.dotGeneral (DT w) prec A B (ix3 b r c) = ∑ j : Fin k, A (ix3 b r j) * B (ix2 c j) := by
  show FloatOps.dotGeneral _ prec _ A B (ix3 b r c) = _
  rw [Ideal.dotGeneral_apply, ← Equiv.sum_comp (contrEquiv1 (DT w) k rfl rfl).symm]
  refine Finset.sum_congr rfl fun j _ => ?_
  rw [lhsIdx_DT, rhsIdx_DT]

/-- Batched [n, a, k] against [n, m, k]: contract the last axis of each, batch over the first. -/
abbrev DBT {n a k m : ℕ} (w : DotDims.WF ⟨3, ![n, a, k]⟩ ⟨3, ![n, m, k]⟩ ⟨3, ![n, a, m]⟩ [2] [2] [1] [1] [0] [0]) :
    DotDims ⟨3, ![n, a, k]⟩ ⟨3, ![n, m, k]⟩ ⟨3, ![n, a, m]⟩ := ⟨[2], [2], [1], [1], [0], [0], w⟩

theorem lhsIdx_DBT {n a k m : ℕ} (w : DotDims.WF ⟨3, ![n, a, k]⟩ ⟨3, ![n, m, k]⟩ ⟨3, ![n, a, m]⟩ [2] [2] [1] [1] [0] [0])
    (b : Fin n) (r : Fin a) (c : Fin m) (j : Fin k) :
    (DBT w).lhsIdx (ix3 b r c) ((contrEquiv1 (DBT w) k rfl rfl).symm j) = ix3 b r j := by
  have c2 := contrEquiv1_symm_val (DBT w) k rfl rfl j
  funext ax; apply Fin.ext
  match ax with
  | ⟨0, _⟩ => simp [DotDims.lhsIdx]; rfl
  | ⟨1, _⟩ => simp [DotDims.lhsIdx]; rfl
  | ⟨2, _⟩ => simp [DotDims.lhsIdx]; exact c2

theorem rhsIdx_DBT {n a k m : ℕ} (w : DotDims.WF ⟨3, ![n, a, k]⟩ ⟨3, ![n, m, k]⟩ ⟨3, ![n, a, m]⟩ [2] [2] [1] [1] [0] [0])
    (b : Fin n) (r : Fin a) (c : Fin m) (j : Fin k) :
    (DBT w).rhsIdx (ix3 b r c) ((contrEquiv1 (DBT w) k rfl rfl).symm j) = ix3 b c j := by
  have c2 := contrEquiv1_symm_val (DBT w) k rfl rfl j
  funext ax; apply Fin.ext
  match ax with
  | ⟨0, _⟩ => simp [DotDims.rhsIdx]; rfl
  | ⟨1, _⟩ => simp [DotDims.rhsIdx]; rfl
  | ⟨2, _⟩ => simp [DotDims.rhsIdx]; exact c2

theorem dotBT_at {n a k m : ℕ} (w : DotDims.WF ⟨3, ![n, a, k]⟩ ⟨3, ![n, m, k]⟩ ⟨3, ![n, a, m]⟩ [2] [2] [1] [1] [0] [0])
    (prec : Option ContractPrecision) (A : FVec Ideal ⟨3, ![n, a, k]⟩ .f32) (B : FVec Ideal ⟨3, ![n, m, k]⟩ .f32)
    (b : Fin n) (r : Fin a) (c : Fin m) :
    Host.dotGeneral (DBT w) prec A B (ix3 b r c) = ∑ j : Fin k, A (ix3 b r j) * B (ix3 b c j) := by
  show FloatOps.dotGeneral _ prec _ A B (ix3 b r c) = _
  rw [Ideal.dotGeneral_apply, ← Equiv.sum_comp (contrEquiv1 (DBT w) k rfl rfl).symm]
  refine Finset.sum_congr rfl fun j _ => ?_
  rw [lhsIdx_DBT, rhsIdx_DBT]

/-- Batched [n, a, m] against [n, m, e]: contract the left's last axis with the right's middle axis. -/
abbrev DBM {n a m e : ℕ} (w : DotDims.WF ⟨3, ![n, a, m]⟩ ⟨3, ![n, m, e]⟩ ⟨3, ![n, a, e]⟩ [2] [1] [1] [2] [0] [0]) :
    DotDims ⟨3, ![n, a, m]⟩ ⟨3, ![n, m, e]⟩ ⟨3, ![n, a, e]⟩ := ⟨[2], [1], [1], [2], [0], [0], w⟩

theorem lhsIdx_DBM {n a m e : ℕ} (w : DotDims.WF ⟨3, ![n, a, m]⟩ ⟨3, ![n, m, e]⟩ ⟨3, ![n, a, e]⟩ [2] [1] [1] [2] [0] [0])
    (b : Fin n) (r : Fin a) (c : Fin e) (j : Fin m) :
    (DBM w).lhsIdx (ix3 b r c) ((contrEquiv1 (DBM w) m rfl rfl).symm j) = ix3 b r j := by
  have c2 := contrEquiv1_symm_val (DBM w) m rfl rfl j
  funext ax; apply Fin.ext
  match ax with
  | ⟨0, _⟩ => simp [DotDims.lhsIdx]; rfl
  | ⟨1, _⟩ => simp [DotDims.lhsIdx]; rfl
  | ⟨2, _⟩ => simp [DotDims.lhsIdx]; exact c2

theorem rhsIdx_DBM {n a m e : ℕ} (w : DotDims.WF ⟨3, ![n, a, m]⟩ ⟨3, ![n, m, e]⟩ ⟨3, ![n, a, e]⟩ [2] [1] [1] [2] [0] [0])
    (b : Fin n) (r : Fin a) (c : Fin e) (j : Fin m) :
    (DBM w).rhsIdx (ix3 b r c) ((contrEquiv1 (DBM w) m rfl rfl).symm j) = ix3 b j c := by
  have c2 := contrEquiv1_symm_val (DBM w) m rfl rfl j
  funext ax; apply Fin.ext
  match ax with
  | ⟨0, _⟩ => simp [DotDims.rhsIdx]; rfl
  | ⟨1, _⟩ => simp [DotDims.rhsIdx]; exact c2
  | ⟨2, _⟩ => simp [DotDims.rhsIdx]; rfl

theorem dotBM_at {n a m e : ℕ} (w : DotDims.WF ⟨3, ![n, a, m]⟩ ⟨3, ![n, m, e]⟩ ⟨3, ![n, a, e]⟩ [2] [1] [1] [2] [0] [0])
    (prec : Option ContractPrecision) (A : FVec Ideal ⟨3, ![n, a, m]⟩ .f32) (B : FVec Ideal ⟨3, ![n, m, e]⟩ .f32)
    (b : Fin n) (r : Fin a) (c : Fin e) :
    Host.dotGeneral (DBM w) prec A B (ix3 b r c) = ∑ j : Fin m, A (ix3 b r j) * B (ix3 b j c) := by
  show FloatOps.dotGeneral _ prec _ A B (ix3 b r c) = _
  rw [Ideal.dotGeneral_apply, ← Equiv.sum_comp (contrEquiv1 (DBM w) m rfl rfl).symm]
  refine Finset.sum_congr rfl fun j _ => ?_
  rw [lhsIdx_DBM, rhsIdx_DBM]

/-! ## The host's pointwise operations at an index -/

section Pointwise
variable {s : Shape} {φ : FTy}

theorem hostRsqrt_at (x : FVec Ideal s φ) (i : s.Idx) : Host.rsqrt x i = Ideal.rsqrt (x i) := rfl
theorem hostExp_at (x : FVec Ideal s φ) (i : s.Idx) : Host.exp x i = Ideal.exp (x i) := rfl
theorem hostDivf_at (x y : FVec Ideal s φ) (i : s.Idx) : Host.divf x y i = Ideal.div (x i) (y i) := rfl

end Pointwise

/-! ## The root-mean-square normalisation, any number of rows -/

/-- Rows of width 1024 of an [n, a, 1024] array, each scaled by the reciprocal root of (its mean square plus eps) and
    weighted column by column, as the host spells it: at (b, r, d) it is Spec.rms of batch element b at (r, d). -/
theorem rms_host_at {n a : ℕ}
    (hr : (⟨3, ![n, a, 1024]⟩ : Shape).ReducesTo [2] ⟨2, ![n, a]⟩) (h : (⟨3, ![n, a, 1024]⟩ : Shape).Reduces [2] ⟨2, ![n, a]⟩)
    (hu : 0 < (⟨0, ![]⟩ : Shape).numel)
    (h1 : (⟨2, ![n, a]⟩ : Shape).BroadcastsInDim ⟨3, ![n, a, 1]⟩ (![0, 1] : Fin 2 → Fin 3))
    (h2 : (⟨0, ![]⟩ : Shape).BroadcastsInDim ⟨3, ![n, a, 1]⟩ (![] : Fin 0 → Fin 3))
    (h3 : (⟨3, ![n, a, 1]⟩ : Shape).BroadcastsInDim ⟨3, ![n, a, 1024]⟩ (![0, 1, 2] : Fin 3 → Fin 3))
    (h4 : (⟨1, ![1024]⟩ : Shape).BroadcastsInDim ⟨3, ![1, 1, 1024]⟩ (![2] : Fin 1 → Fin 3))
    (h5 : (⟨3, ![1, 1, 1024]⟩ : Shape).BroadcastsInDim ⟨3, ![n, a, 1024]⟩ (![0, 1, 2] : Fin 3 → Fin 3))
    (X : FVec Ideal ⟨3, ![n, a, 1024]⟩ .f32) (w : FVec Ideal ⟨1, ![1024]⟩ .f32) (b : Fin n) (r : Fin a) (d : Fin 1024) :
    mulf (mulf X (broadcastInDim ⟨3, ![n, a, 1024]⟩ (![0, 1, 2] : Fin 3 → Fin 3) h3
        (Host.rsqrt (addf (Host.divf
          (broadcastInDim ⟨3, ![n, a, 1]⟩ (![0, 1] : Fin 2 → Fin 3) h1
            (Host.reduceAdd (mulf X X) (constant (F := Ideal) ⟨0, ![]⟩ .f32 0x00000000#32) hr hu))
          (broadcastInDim ⟨3, ![n, a, 1]⟩ (![] : Fin 0 → Fin 3) h2 (constant (F := Ideal) ⟨0, ![]⟩ .f32 0x44800000#32)))
          (broadcastInDim ⟨3, ![n, a, 1]⟩ (![] : Fin 0 → Fin 3) h2 (constant (F := Ideal) ⟨0, ![]⟩ .f32 0x358637BD#32))))))
      (broadcastInDim ⟨3, ![n, a, 1024]⟩ (![0, 1, 2] : Fin 3 → Fin 3) h5
        (broadcastInDim ⟨3, ![1, 1, 1024]⟩ (![2] : Fin 1 → Fin 3) h4 w)) (ix3 b r d)
      = Cert.Spec.rms (Cert.Spec.slab X b) (Cert.Spec.row w) r d := by
  rw [mulf_apply, mulf_apply, bc_na1_nac_at, bc_11c_nac_at, bc_c_11c_at, hostRsqrt_at, addf_apply, hostDivf_at,
    bc_na_na1_at, bcScalar_at, bcScalar_at, constant_apply, constant_apply, reduceAdd_axis2_at _ hr h hu]
  rfl

theorem rmsR_at (S : FVec Ideal S8x64x1024 .f32) (sw : FVec Ideal S1024 .f32) (b : Fin 8) (k : Fin 64) (d : Fin 1024) :
    rmsR (F := Ideal) S sw (ix3 b k d) = Cert.Spec.rms (Cert.Spec.slab S b) (Cert.Spec.row sw) k d := by
  unfold rmsR
  exact rms_host_at _ (by decide) _ _ _ _ _ _ S sw b k d

/-! ## Queries, scores -/

theorem mulT_def {a n e : ℕ} (x : Cert.Spec.Mat a n) (W : Cert.Spec.Mat e n) (r : Fin a) (c : Fin e) :
    Cert.Spec.mulT x W r c = ∑ j : Fin n, x r j * W c j := rfl

theorem mulM_def {a n e : ℕ} (x : Cert.Spec.Mat a n) (V : Cert.Spec.Mat n e) (r : Fin a) (c : Fin e) :
    Cert.Spec.mulM x V r c = ∑ j : Fin n, x r j * V j c := rfl

/-- The queries: the normalised slots against the rows of the query weights. -/
theorem qR_at (S : FVec Ideal S8x64x1024 .f32) (Wq : FVec Ideal S1024x1024 .f32) (sw : FVec Ideal S1024 .f32)
    (b : Fin 8) (k : Fin 64) (e : Fin 1024) :
    Host.dotGeneral dot_S8x64x1024_S1024x1024_S8x64x1024_2_1_01_0_n_n none (rmsR (F := Ideal) S sw) Wq (ix3 b k e)
      = Cert.Spec.mulT (Cert.Spec.rms (Cert.Spec.slab S b) (Cert.Spec.row sw)) (Cert.Spec.mat Wq) k e := by
  refine (dotT_at Facts₀.dot_S8x64x1024_S1024x1024_S8x64x1024_2_1_01_0_n_n_wf none (rmsR (F := Ideal) S sw) Wq b k e).trans ?_
  rw [mulT_def]
  refine Finset.sum_congr rfl fun j _ => ?_
  exact congrArg (· * Wq (ix2 e j)) (rmsR_at S sw b k j)

/-- The scaled scores of batch element b. -/
theorem scoresR_at (S : FVec Ideal S8x64x1024 .f32) (KP : FVec Ideal S8x4096x1024 .f32) (Wq : FVec Ideal S1024x1024 .f32)
    (sw : FVec Ideal S1024 .f32) (b : Fin 8) (k : Fin 64) (m : Fin 4096) :
    scoresR (F := Ideal) S KP Wq sw (ix3 b k m)
      = Cert.Spec.scores (Cert.Spec.mulT (Cert.Spec.rms (Cert.Spec.slab S b) (Cert.Spec.row sw)) (Cert.Spec.mat Wq))
          (Cert.Spec.slab KP b) k m := by
  unfold scoresR Cert.Spec.scores
  rw [mulf_apply, bcScalar_at, constant_apply]
  refine congrArg (· * Cert.Spec.cScale) ?_
  refine (dotBT_at Facts₀.dot_S8x64x1024_S8x4096x1024_S8x64x4096_2_2_1_1_0_0_wf none _ KP b k m).trans ?_
  rw [mulT_def]
  refine Finset.sum_congr rfl fun j _ => ?_
  exact congrArg (· * KP (ix3 b m j)) (qR_at S Wq sw b k j)

/-! ## The softmax over the slot axis and its renormalisation over the key axis, for any score array -/

theorem expoR_at (sc : FVec Ideal S8x64x4096 .f32) (b : Fin 8) (k : Fin 64) (m : Fin 4096) :
    expoR (F := Ideal) sc (ix3 b k m) = Cert.Spec.expo (Cert.Spec.slab sc b) k m := by
  unfold expoR
  rw [hostExp_at, subf_apply, bc_n1c_nac_at, bc_nc_n1c_at, maximumf_apply, bcScalar_at, constant_apply,
    reduceMax_axis1_at sc _ _ (by decide) _ b m,
    max_eq_right ((Finset.le_fold_max _).mpr (Or.inl le_rfl))]
  rfl

theorem softR_at (ex : FVec Ideal S8x64x4096 .f32) (b : Fin 8) (k : Fin 64) (m : Fin 4096) :
    softR (F := Ideal) ex (ix3 b k m) = Ideal.div (ex (ix3 b k m)) (∑ k' : Fin 64, ex (ix3 b k' m)) := by
  unfold softR
  rw [hostDivf_at, bc_n1c_nac_at, bc_nc_n1c_at, reduceAdd_axis1_at ex _ (by decide) _ b m]

theorem attnR_at (so : FVec Ideal S8x64x4096 .f32) (b : Fin 8) (k : Fin 64) (m : Fin 4096) :
    attnR (F := Ideal) so (ix3 b k m)
      = Ideal.div (so (ix3 b k m)) ((∑ m' : Fin 4096, so (ix3 b k m')) + Cert.Spec.cEps) := by
  unfold attnR
  rw [hostDivf_at, bc_na1_nac_at, addf_apply, bc_na_na1_at, bcScalar_at, constant_apply,
    reduceAdd_axis2_at so _ (by decide) _ b k]

theorem softR_expoR_at (sc : FVec Ideal S8x64x4096 .f32) (b : Fin 8) (k : Fin 64) (m : Fin 4096) :
    softR (F := Ideal) (expoR (F := Ideal) sc) (ix3 b k m) = Cert.Spec.soft (Cert.Spec.slab sc b) k m := by
  rw [softR_at, expoR_at]
  unfold Cert.Spec.soft
  refine congrArg (Ideal.div _) ?_
  exact Finset.sum_congr rfl fun k' _ => expoR_at sc b k' m

theorem attnR_softR_expoR_at (sc : FVec Ideal S8x64x4096 .f32) (b : Fin 8) (k : Fin 64) (m : Fin 4096) :
    attnR (F := Ideal) (softR (F := Ideal) (expoR (F := Ideal) sc)) (ix3 b k m) = Cert.Spec.attn (Cert.Spec.slab sc b) k m := by
  rw [attnR_at, softR_expoR_at]
  unfold Cert.Spec.attn
  refine congrArg (fun t => Ideal.div _ (t + Cert.Spec.cEps)) ?_
  exact Finset.sum_congr rfl fun m' _ => softR_expoR_at sc b k m'

end UpdAux

open UpdAux

/-! ## The attention half, and the key / value projection -/

theorem updR_at (S : FVec Ideal S8x64x1024 .f32) (KP VP : FVec Ideal S8x4096x1024 .f32) (Wq : FVec Ideal S1024x1024 .f32)
    (sw : FVec Ideal S1024 .f32) (b : Fin 8) (k : Fin 64) (d : Fin 1024) :
    updR (F := Ideal) S KP VP Wq sw (ix3 b k d)
      = Cert.Spec.upd (Cert.Spec.slab KP b) (Cert.Spec.slab VP b) (Cert.Spec.mat Wq) (Cert.Spec.row sw) (Cert.Spec.slab S b) k d := by
  have hsc : Cert.Spec.slab (scoresR (F := Ideal) S KP Wq sw) b
      = Cert.Spec.scores (Cert.Spec.mulT (Cert.Spec.rms (Cert.Spec.slab S b) (Cert.Spec.row sw)) (Cert.Spec.mat Wq))
          (Cert.Spec.slab KP b) :=
    funext fun k' => funext fun m => scoresR_at S KP Wq sw b k' m
  unfold updR Cert.Spec.upd
  refine (dotBM_at Facts₀.dot_S8x64x4096_S8x4096x1024_S8x64x1024_2_1_1_2_0_0_wf none _ VP b k d).trans ?_
  rw [mulM_def, ← hsc]
  refine Finset.sum_congr rfl fun j _ => ?_
  exact congrArg (· * VP (ix3 b j d)) (attnR_softR_expoR_at _ b k j)

theorem projR_at (P : FVec Ideal S8x4096x1024 .f32) (iw : FVec Ideal S1024 .f32) (W : FVec Ideal S1024x1024 .f32)
    (b : Fin 8) (m : Fin 4096) (e : Fin 1024) :
    projR (F := Ideal) P iw W (ix3 b m e) = Cert.Spec.proj (Cert.Spec.slab P b) (Cert.Spec.row iw) (Cert.Spec.mat W) m e := by
  unfold projR Cert.Spec.proj
  refine (dotT_at Facts₀.dot_S8x4096x1024_S1024x1024_S8x4096x1024_2_1_01_0_n_n_wf none _ W b m e).trans ?_
  rw [mulT_def]
  refine Finset.sum_congr rfl fun j _ => ?_
  exact congrArg (· * W (ix2 e j)) (rms_host_at _ (by decide) _ _ _ _ _ _ P iw b m j)

end Cert.ReferenceIdeal.RefB

end
-- ==== Proof.RefCell.lean ====
/-
  The reference's recurrent cell, entry by entry, and the reference's result as three rounds.

  The cell takes the averaged values u and the slots S (both [8, 64, 1024]).  Each gives a gate array
  [8, 64, 3072]: at (b, k, q) the sum over j of x[b,k,j] · W[q,j], plus the bias at q — a contraction of the
  last axis of a rank-3 array with the last axis of a matrix, and a bias vector broadcast along the two leading
  axes.  The gate arrays are cut in three thirds along the last axis (columns d, 1024 + d, 2048 + d), the
  logistic function is written out as 1 / (1 + exp (-x)) with the f32 pattern of one, and the new slot entry is
      (1 - z) · tanh (i_n + r · h_n) + z · S[b,k,d],   r = logistic (i_r + h_r),  z = logistic (i_z + h_z).
  Read at (b, k, d) this is the cell of batch element b's matrices at (k, d): every step is a re-indexing of
  one finite sum or a pointwise identity on the extended reals; nothing needs the entries to be finite.  The
  only literal evaluated is the pattern of one inside the written-out logistic; the one of (1 - z) stays a
  pattern on both sides.

  For any float type, the composed term the run ends with is the round applied three times to the launch
  slots, with keys and values the two projections of the normalised memory: the run's intermediates unfold to
  the same operations in the same order.
-/
import proofs.«162511_j86208583565576_1_alg».proof.Proof.RefDefs
import Idealize.ShloMosaic.Lib.ValueLayout
import Idealize.ShloMosaic.Lib.Pipeline.Value
import Idealize.ShloMosaic.PureOps.IdealRules

noncomputable section

open scoped BigOperators

namespace Cert.ReferenceIdeal.RefB

open Idealize.ShloMosaic Idealize.ShloMosaic.ValueIdx Cert.ReferenceIdeal Cert.ReferenceIdeal.Gen
open Idealize.ShloMosaic.TcCoe Idealize.SL.Sem Idealize.ShloMosaic.StableHlo

/-! ## A rank-3 array against the rows of a matrix -/

/-- The dimension numbers of [n, a, c] × [e, c] → [n, a, e]: contract the left operand's axis 2 with the right operand's
    axis 1; no batch axis. -/
abbrev DT3 {n a c e : Nat} (w : DotDims.WF ⟨3, ![n, a, c]⟩ ⟨2, ![e, c]⟩ ⟨3, ![n, a, e]⟩ [2] [1] [0, 1] [0] [] []) :
    DotDims ⟨3, ![n, a, c]⟩ ⟨2, ![e, c]⟩ ⟨3, ![n, a, e]⟩ := ⟨[2], [1], [0, 1], [0], [], [], w⟩

variable {n a c e : Nat}

/-- The left operand's index at output (b, k, q) and contracted coordinate j is (b, k, j). -/
theorem lhsIdx_DT3 (w : DotDims.WF ⟨3, ![n, a, c]⟩ ⟨2, ![e, c]⟩ ⟨3, ![n, a, e]⟩ [2] [1] [0, 1] [0] [] [])
    (b : Fin n) (k : Fin a) (q : Fin e) (j : Fin c) :
    (DT3 w).lhsIdx (ix3 b k q) ((contrEquiv1 (DT3 w) c rfl rfl).symm j) = ix3 b k j := by
  have c2 := contrEquiv1_symm_val (DT3 w) c rfl rfl j
  funext ax; apply Fin.ext
  match ax with
  | ⟨0, _⟩ => simp [DotDims.lhsIdx]; rfl
  | ⟨1, _⟩ => simp [DotDims.lhsIdx]; rfl
  | ⟨2, _⟩ => simp [DotDims.lhsIdx]; exact c2

/-- The right operand's index at output (b, k, q) and contracted coordinate j is (q, j). -/
theorem rhsIdx_DT3 (w : DotDims.WF ⟨3, ![n, a, c]⟩ ⟨2, ![e, c]⟩ ⟨3, ![n, a, e]⟩ [2] [1] [0, 1] [0] [] [])
    (b : Fin n) (k : Fin a) (q : Fin e) (j : Fin c) :
    (DT3 w).rhsIdx (ix3 b k q) ((contrEquiv1 (DT3 w) c rfl rfl).symm j) = ix2 q j := by
  have c2 := contrEquiv1_symm_val (DT3 w) c rfl rfl j
  funext ax; apply Fin.ext
  match ax with
  | ⟨0, _⟩ => simp [DotDims.rhsIdx]; rfl
  | ⟨1, _⟩ => simp [DotDims.rhsIdx]; exact c2

/-- The host's product at (b, k, q): the sum over the contracted coordinate of the entries' products. -/
theorem dotT3_at {φ₁ φ₂ : FTy} (w : DotDims.WF ⟨3, ![n, a, c]⟩ ⟨2, ![e, c]⟩ ⟨3, ![n, a, e]⟩ [2] [1] [0, 1] [0] [] [])
    (prec : Option ContractPrecision) (A : FVec Ideal ⟨3, ![n, a, c]⟩ φ₁) (B : FVec Ideal ⟨2, ![e, c]⟩ φ₂)
    (b : Fin n) (k : Fin a) (q : Fin e) :
    Host.dotGeneral (DT3 w) prec A B (ix3 b k q) = ∑ j : Fin c, A (ix3 b k j) * B (ix2 q j) := by
  show FloatOps.dotGeneral _ prec _ A B (ix3 b k q) = _
  rw [Ideal.dotGeneral_apply, ← Equiv.sum_comp (contrEquiv1 (DT3 w) c rfl rfl).symm]
  refine Finset.sum_congr rfl fun j _ => ?_
  rw [lhsIdx_DT3, rhsIdx_DT3]

/-! ## Broadcasts and slices at an entry -/

/-- A vector [e] broadcast first to [1, 1, e] and then to [n, a, e] reads, at (b, k, q), the vector at q. -/
theorem bcastRow3_at {n a e : Nat} {α : Type}
    (h2 : (⟨1, ![e]⟩ : Shape).BroadcastsInDim ⟨3, ![1, 1, e]⟩ (![2] : Fin 1 → Fin 3))
    (h1 : (⟨3, ![1, 1, e]⟩ : Shape).BroadcastsInDim ⟨3, ![n, a, e]⟩ (![0, 1, 2] : Fin 3 → Fin 3))
    (v : (⟨1, ![e]⟩ : Shape).Idx → α) (b : Fin n) (k : Fin a) (q : Fin e) :
    broadcastInDim ⟨3, ![n, a, e]⟩ (![0, 1, 2] : Fin 3 → Fin 3) h1
        (broadcastInDim ⟨3, ![1, 1, e]⟩ (![2] : Fin 1 → Fin 3) h2 v) (ix3 b k q) = v (ix1 q) := by
  refine (broadcastInDim_apply _ h1 _ (ix3 b k q) (ix3 (0 : Fin 1) (0 : Fin 1) q) fun ax => ?_).trans ?_
  · match ax with
    | ⟨0, _⟩ => rfl
    | ⟨1, _⟩ => rfl
    | ⟨2, _⟩ =>
      show q.val = if e = 1 then 0 else q.val
      split
      · have := q.isLt; omega
      · rfl
  · refine broadcastInDim_apply _ h2 v (ix3 (0 : Fin 1) (0 : Fin 1) q) (ix1 q) fun ax => ?_
    match ax with
    | ⟨0, _⟩ =>
      show q.val = if e = 1 then 0 else q.val
      split
      · have := q.isLt; omega
      · rfl

/-- A scalar broadcast to any shape reads the scalar everywhere. -/
theorem bcastScalarAny_at {t : Shape} {α : Type} (h : (⟨0, ![]⟩ : Shape).BroadcastsInDim t (![] : Fin 0 → Fin t.rank))
    (v : (⟨0, ![]⟩ : Shape).Idx → α) (i : t.Idx) :
    broadcastInDim t (![] : Fin 0 → Fin t.rank) h v i = v ix0 :=
  broadcastInDim_apply _ h v i ix0 fun ax => ax.elim0

/-- A slice along the last axis from offset o reads, at (b, k, d), the array at (b, k, o + d). -/
theorem slice3_at {n a e c : Nat} {α : Type} (o : Nat) (h : (⟨3, ![n, a, e]⟩ : Shape).Slices ![0, 0, o] ⟨3, ![n, a, c]⟩)
    (g : (⟨3, ![n, a, e]⟩ : Shape).Idx → α) (b : Fin n) (k : Fin a) (d : Fin c) (q : Fin e) (hq : q.val = o + d.val) :
    extractStridedSlice ⟨3, ![n, a, c]⟩ ![0, 0, o] g h (ix3 b k d) = g (ix3 b k q) := by
  refine extractStridedSlice_apply _ g h (ix3 b k d) (ix3 b k q) fun ax => ?_
  match ax with
  | ⟨0, _⟩ => show b.val = 0 + b.val; omega
  | ⟨1, _⟩ => show k.val = 0 + k.val; omega
  | ⟨2, _⟩ => exact hq

/-- The f32 pattern 0x3F800000 is the number one. -/
theorem ofBits_one_f32 : Ideal.ofBits .f32 0x3F800000#32 = 1 :=
  IdealRules.sign_bit.ideal_onePat .f32

/-- The logistic function written out with that literal. -/
theorem logistic_written (x : EReal) :
    Ideal.div (Ideal.ofBits .f32 0x3F800000#32) (Ideal.ofBits .f32 0x3F800000#32 + Ideal.exp (-x)) = Ideal.logistic x := by
  rw [ofBits_one_f32]; rfl

/-! ## The recurrent cell at an entry -/

/-- A gate row at (b, k, q): row k of batch element b against row q of the weights, plus the bias at q. -/
theorem gatesR_at (u : FVec Ideal S8x64x1024 .f32) (W : FVec Ideal S3072x1024 .f32) (bv : FVec Ideal S3072 .f32)
    (b : Fin 8) (k : Fin 64) (q : Fin 3072) :
    gatesR (F := Ideal) u W bv (ix3 b k q)
      = Cert.Spec.gates (Cert.Spec.slab u b) (Cert.Spec.mat W) (Cert.Spec.row bv) k q := by
  unfold gatesR
  rw [addf_apply]
  refine congrArg₂ (· + ·) ?_ ?_
  · exact dotT3_at dot_S8x64x1024_S3072x1024_S8x64x3072_2_1_01_0_n_n_wf none u W b k q
  · exact bcastRow3_at bcast_S3072_S1x1x3072_2 bcast_S1x1x3072_S8x64x3072_0_1_2 bv b k q

/-- The literal one broadcast over the slots reads the literal everywhere. -/
theorem oneR_at (i : S8x64x1024.Idx) :
    broadcastInDim S8x64x1024 ![] bcast_S_S8x64x1024 (constant (F := Ideal) S_ .f32 0x3F800000#32) i = Cert.Spec.cOne :=
  bcastScalarAny_at bcast_S_S8x64x1024 _ i

/-- The written-out logistic is the logistic function, entry by entry. -/
theorem sigR_at (x : FVec Ideal S8x64x1024 .f32) (i : S8x64x1024.Idx) :
    sigR (F := Ideal) x i = Ideal.logistic (x i) := by
  refine Eq.trans ?_ (logistic_written (x i))
  exact congrArg₂ (fun p q => Ideal.div p (q + Ideal.exp (-(x i)))) (oneR_at i) (oneR_at i)

/-- The host's hyperbolic tangent, entry by entry. -/
theorem hostTanh_at (x : FVec Ideal S8x64x1024 .f32) (i : S8x64x1024.Idx) : Host.tanh x i = Ideal.tanh (x i) := rfl

/-- The three thirds of a gate row at (b, k, d). -/
theorem sliceLo_at (g : FVec Ideal S8x64x3072 .f32) (b : Fin 8) (k : Fin 64) (d : Fin 1024) :
    extractStridedSlice S8x64x1024 ![0, 0, 0] g slices_S8x64x3072_S8x64x1024_0_0_0 (ix3 b k d) = g (ix3 b k (Cert.Spec.lo d)) :=
  slice3_at 0 slices_S8x64x3072_S8x64x1024_0_0_0 g b k d (Cert.Spec.lo d) (Nat.zero_add _).symm
theorem sliceMid_at (g : FVec Ideal S8x64x3072 .f32) (b : Fin 8) (k : Fin 64) (d : Fin 1024) :
    extractStridedSlice S8x64x1024 ![0, 0, 1024] g slices_S8x64x3072_S8x64x1024_0_0_1024 (ix3 b k d) = g (ix3 b k (Cert.Spec.mid d)) :=
  slice3_at 1024 slices_S8x64x3072_S8x64x1024_0_0_1024 g b k d (Cert.Spec.mid d) rfl
theorem sliceHi_at (g : FVec Ideal S8x64x3072 .f32) (b : Fin 8) (k : Fin 64) (d : Fin 1024) :
    extractStridedSlice S8x64x1024 ![0, 0, 2048] g slices_S8x64x3072_S8x64x1024_0_0_2048 (ix3 b k d) = g (ix3 b k (Cert.Spec.hi d)) :=
  slice3_at 2048 slices_S8x64x3072_S8x64x1024_0_0_2048 g b k d (Cert.Spec.hi d) rfl

/-- The cell's formula at (b, k, d) from two gate arrays and the slots. -/
theorem gruR_at (gi gh : FVec Ideal S8x64x3072 .f32) (S : FVec Ideal S8x64x1024 .f32) (b : Fin 8) (k : Fin 64) (d : Fin 1024) :
    gruR (F := Ideal) gi gh S (ix3 b k d)
      = (Cert.Spec.cOne - Ideal.logistic (gi (ix3 b k (Cert.Spec.mid d)) + gh (ix3 b k (Cert.Spec.mid d))))
          * Ideal.tanh (gi (ix3 b k (Cert.Spec.hi d))
              + Ideal.logistic (gi (ix3 b k (Cert.Spec.lo d)) + gh (ix3 b k (Cert.Spec.lo d))) * gh (ix3 b k (Cert.Spec.hi d)))
        + Ideal.logistic (gi (ix3 b k (Cert.Spec.mid d)) + gh (ix3 b k (Cert.Spec.mid d))) * S (ix3 b k d) := by
  unfold gruR
  simp only [addf_apply, mulf_apply, subf_apply, hostTanh_at, sigR_at, sliceLo_at, sliceMid_at, sliceHi_at]
  exact congrArg (fun t => (t - Ideal.logistic (gi (ix3 b k (Cert.Spec.mid d)) + gh (ix3 b k (Cert.Spec.mid d))))
          * Ideal.tanh (gi (ix3 b k (Cert.Spec.hi d))
              + Ideal.logistic (gi (ix3 b k (Cert.Spec.lo d)) + gh (ix3 b k (Cert.Spec.lo d))) * gh (ix3 b k (Cert.Spec.hi d)))
        + Ideal.logistic (gi (ix3 b k (Cert.Spec.mid d)) + gh (ix3 b k (Cert.Spec.mid d))) * S (ix3 b k d)) (oneR_at (ix3 b k d))

/-- The reference's cell at (b, k, d) is the cell of batch element b's matrices at (k, d). -/
theorem cellR_at (u S : FVec Ideal S8x64x1024 .f32) (Wi Wh : FVec Ideal S3072x1024 .f32) (bi bh : FVec Ideal S3072 .f32)
    (b : Fin 8) (k : Fin 64) (d : Fin 1024) :
    cellR (F := Ideal) u S Wi Wh bi bh (ix3 b k d)
      = Cert.Spec.cell (Cert.Spec.mat Wi) (Cert.Spec.mat Wh) (Cert.Spec.row bi) (Cert.Spec.row bh) (Cert.Spec.slab u b) (Cert.Spec.slab S b) k d := by
  unfold cellR
  rw [gruR_at]
  simp only [gatesR_at]
  rfl

/-! ## The run's result as three rounds -/

section Rounds

variable {F : FTy → Type} [FloatOps F]

/-- The run's result: three rounds from the launch slots, with keys and values the two projections of the memory. -/
def resultR (V0 : Valuation τ sig (Elt F)) : FVec F S8x64x1024 .f32 :=
  let KP := projR (V0 (Proc.devRef .tc main_arg1)) (V0 (Proc.devRef .tc main_arg10)) (V0 (Proc.devRef .tc main_arg3))
  let VP := projR (V0 (Proc.devRef .tc main_arg1)) (V0 (Proc.devRef .tc main_arg10)) (V0 (Proc.devRef .tc main_arg4))
  let it := fun S => iterR S KP VP (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9))
  it (it (it (V0 (Proc.devRef .tc main_arg0))))

/-- The keys: the projection of the normalised memory by the key weights. -/
theorem v13_eq (V0 : Valuation τ sig (Elt F)) :
    Value.res_main_v13 V0 = projR (V0 (Proc.devRef .tc main_arg1)) (V0 (Proc.devRef .tc main_arg10)) (V0 (Proc.devRef .tc main_arg3)) := rfl

/-- The values: the projection of the normalised memory by the value weights. -/
theorem v14_eq (V0 : Valuation τ sig (Elt F)) :
    Value.res_main_v14 V0 = projR (V0 (Proc.devRef .tc main_arg1)) (V0 (Proc.devRef .tc main_arg10)) (V0 (Proc.devRef .tc main_arg4)) := rfl

/-- The slots after the first round. -/
theorem v85_eq (V0 : Valuation τ sig (Elt F)) :
    Value.res_main_v85 V0 = iterR (V0 (Proc.devRef .tc main_arg0)) (Value.res_main_v13 V0) (Value.res_main_v14 V0)
      (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) := rfl

/-- The slots after the second round. -/
theorem v156_eq (V0 : Valuation τ sig (Elt F)) :
    Value.res_main_v156 V0 = iterR (Value.res_main_v85 V0) (Value.res_main_v13 V0) (Value.res_main_v14 V0)
      (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) := rfl

/-- The run's last array is the third round. -/
theorem v227_eq (V0 : Valuation τ sig (Elt F)) :
    Value.val5 V0 (Proc.devRef .tc main_v227) = iterR (Value.res_main_v156 V0) (Value.res_main_v13 V0) (Value.res_main_v14 V0)
      (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) :=
  (Value.val5_main_v227 V0).trans rfl

/-- The run's last array is that result. -/
theorem result_eq (V0 : Valuation τ sig (Elt F)) :
    Cert.ReferenceIdeal.Value.val5 V0 (Proc.devRef .tc main_v227) = resultR V0 := by
  rw [v227_eq, v156_eq, v85_eq, v13_eq, v14_eq]
  rfl

end Rounds

end Cert.ReferenceIdeal.RefB

end
-- ==== Proof.RefOut.lean ====
/-
  The reference side as a whole: the run ends with its result array at the specification of the launch
  arguments.

  One round read at (b, k, d) is the attention half followed by the recurrent cell, both of batch element b
  alone; so the slots of batch element b after a round are the specification's round of batch element b's
  slots, keys and values, and three rounds compose.  The keys and values of batch element b are the projections
  of batch element b's normalised memory rows.  The attention half and the projection, entry by entry, are
  taken as hypotheses here (two propositions stated once); the cell's reading is proved.  The run's final
  array is the three rounds' term of the launch arguments, which this re-posts as the specification's array.
-/
import proofs.«162511_j86208583565576_1_alg».proof.Proof.RefCell
import proofs.«162511_j86208583565576_1_alg».proof.Proof.Gen.ReferenceIdeal.Run

noncomputable section

open scoped BigOperators

namespace Cert.ReferenceIdeal.RefB

open Idealize.ShloMosaic Idealize.ShloMosaic.ValueIdx Cert.ReferenceIdeal Cert.ReferenceIdeal.Gen
open Idealize.ShloMosaic.TcCoe Idealize.SL.Sem Idealize.ShloMosaic.StableHlo

/-- The attention half read at an entry: batch element b's averaged values. -/
def UpdRAt : Prop := ∀ (S : FVec Ideal S8x64x1024 .f32) (KP VP : FVec Ideal S8x4096x1024 .f32) (Wq : FVec Ideal S1024x1024 .f32) (sw : FVec Ideal S1024 .f32) (b : Fin 8) (k : Fin 64) (d : Fin 1024), updR (F := Ideal) S KP VP Wq sw (ix3 b k d) = Cert.Spec.upd (Cert.Spec.slab KP b) (Cert.Spec.slab VP b) (Cert.Spec.mat Wq) (Cert.Spec.row sw) (Cert.Spec.slab S b) k d

/-- The projection read at an entry: batch element b's normalised memory rows against the weights. -/
def ProjRAt : Prop := ∀ (P : FVec Ideal S8x4096x1024 .f32) (iw : FVec Ideal S1024 .f32) (W : FVec Ideal S1024x1024 .f32) (b : Fin 8) (m : Fin 4096) (e : Fin 1024), projR (F := Ideal) P iw W (ix3 b m e) = Cert.Spec.proj (Cert.Spec.slab P b) (Cert.Spec.row iw) (Cert.Spec.mat W) m e

/-- One round at (b, k, d) is the specification's round of batch element b. -/
theorem iterR_at (hupd : UpdRAt) (S : FVec Ideal S8x64x1024 .f32) (KP VP : FVec Ideal S8x4096x1024 .f32) (Wq : FVec Ideal S1024x1024 .f32)
    (Wi Wh : FVec Ideal S3072x1024 .f32) (bi bh : FVec Ideal S3072 .f32) (sw : FVec Ideal S1024 .f32) (b : Fin 8) (k : Fin 64) (d : Fin 1024) :
    iterR (F := Ideal) S KP VP Wq Wi Wh bi bh sw (ix3 b k d)
      = Cert.Spec.iter (Cert.Spec.slab KP b) (Cert.Spec.slab VP b) (Cert.Spec.mat Wq) (Cert.Spec.mat Wi) (Cert.Spec.mat Wh) (Cert.Spec.row bi) (Cert.Spec.row bh) (Cert.Spec.row sw) (Cert.Spec.slab S b) k d := by
  have h : Cert.Spec.slab (updR (F := Ideal) S KP VP Wq sw) b
      = Cert.Spec.upd (Cert.Spec.slab KP b) (Cert.Spec.slab VP b) (Cert.Spec.mat Wq) (Cert.Spec.row sw) (Cert.Spec.slab S b) := by
    funext k' d'; exact hupd S KP VP Wq sw b k' d'
  unfold iterR
  rw [cellR_at, h]
  rfl

/-- Batch element b of the slots after a round. -/
theorem slab_iterR (hupd : UpdRAt) (S : FVec Ideal S8x64x1024 .f32) (KP VP : FVec Ideal S8x4096x1024 .f32) (Wq : FVec Ideal S1024x1024 .f32)
    (Wi Wh : FVec Ideal S3072x1024 .f32) (bi bh : FVec Ideal S3072 .f32) (sw : FVec Ideal S1024 .f32) (b : Fin 8) :
    Cert.Spec.slab (iterR (F := Ideal) S KP VP Wq Wi Wh bi bh sw) b
      = Cert.Spec.iter (Cert.Spec.slab KP b) (Cert.Spec.slab VP b) (Cert.Spec.mat Wq) (Cert.Spec.mat Wi) (Cert.Spec.mat Wh) (Cert.Spec.row bi) (Cert.Spec.row bh) (Cert.Spec.row sw) (Cert.Spec.slab S b) := by
  funext k d; exact iterR_at hupd S KP VP Wq Wi Wh bi bh sw b k d

/-- Batch element b of the keys (or values). -/
theorem slab_projR (hproj : ProjRAt) (P : FVec Ideal S8x4096x1024 .f32) (iw : FVec Ideal S1024 .f32) (W : FVec Ideal S1024x1024 .f32) (b : Fin 8) :
    Cert.Spec.slab (projR (F := Ideal) P iw W) b = Cert.Spec.proj (Cert.Spec.slab P b) (Cert.Spec.row iw) (Cert.Spec.mat W) := by
  funext m e; exact hproj P iw W b m e

/-- The result's three rounds, spelled without local names. -/
theorem resultR_unfold (V0 : Valuation τ sig (Elt Ideal)) :
    resultR (F := Ideal) V0
      = iterR (iterR (iterR (V0 (Proc.devRef .tc main_arg0))
            (projR (V0 (Proc.devRef .tc main_arg1)) (V0 (Proc.devRef .tc main_arg10)) (V0 (Proc.devRef .tc main_arg3))) (projR (V0 (Proc.devRef .tc main_arg1)) (V0 (Proc.devRef .tc main_arg10)) (V0 (Proc.devRef .tc main_arg4))) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)))
            (projR (V0 (Proc.devRef .tc main_arg1)) (V0 (Proc.devRef .tc main_arg10)) (V0 (Proc.devRef .tc main_arg3))) (projR (V0 (Proc.devRef .tc main_arg1)) (V0 (Proc.devRef .tc main_arg10)) (V0 (Proc.devRef .tc main_arg4))) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)))
            (projR (V0 (Proc.devRef .tc main_arg1)) (V0 (Proc.devRef .tc main_arg10)) (V0 (Proc.devRef .tc main_arg3))) (projR (V0 (Proc.devRef .tc main_arg1)) (V0 (Proc.devRef .tc main_arg10)) (V0 (Proc.devRef .tc main_arg4))) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) := rfl

/-- The result is the specification's array of the launch arguments. -/
theorem resultR_eq (hupd : UpdRAt) (hproj : ProjRAt) (V0 : Valuation τ sig (Elt Ideal)) :
    resultR (F := Ideal) V0 = Cert.Spec.out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  funext i
  obtain ⟨b, k, d, rfl⟩ : ∃ (b : Fin 8) (k : Fin 64) (d : Fin 1024), i = ix3 b k d := ⟨i 0, i 1, i 2, eq_ix3 i⟩
  rw [Cert.Spec.out_ix3, resultR_unfold]
  refine (iterR_at hupd _ _ _ _ _ _ _ _ _ b k d).trans ?_
  rw [slab_iterR hupd, slab_iterR hupd, slab_projR hproj, slab_projR hproj]
  rfl

/-- the reference's run with its result at the specification of the launch arguments -/
theorem run_out (hupd : UpdRAt) (hproj : ProjRAt) (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v227) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans ((Value.val5_main_v227 (launchContents m c)).symm.trans
      ((result_eq (launchContents m c)).trans (resultR_eq hupd hproj (launchContents m c)))), (h c).2⟩)
    (Value.run (F := Ideal) m ρ)

end Cert.ReferenceIdeal.RefB

end
-- ==== Proof.lean ====
/-
  The certificate of a slot-attention memory writer against its plain reference.

  Both programs compute, for each of 8 batch elements: the 4096 memory rows (width 1024) normalised by their root
  mean square and projected to keys and values; then three rounds in which the 64 slots are normalised and
  projected to queries, the scaled scores of the slots against the keys go through a softmax over the SLOT axis
  and a renormalisation over the key axis, the attention weights average the values, and a gated recurrent cell
  updates the slots.  The kernel does this in two regions — the projections block by block (512 rows at a time),
  then the three rounds with one batch element per grid point — after transposing the weights on the host; the
  reference does it with batched products on the whole arrays, its logistic function written out as
  1 / (1 + exp (-x)).

  At the ideal values (extended reals, exact operations, a change of float format the identity) both results are
  the ONE function `Spec.out` of the argument arrays, entry by entry: the sums of a blocked product are the sums of
  the whole product, a transposed matrix read at (j, e) is the matrix at (e, j), the logistic function is its
  written-out form by definition, and every shared literal is the same bit pattern on both sides.  Nothing in the
  argument needs an input to be finite; the precondition is not opened.

  The kernel's run with its result named is `KerRun.run_value`, the result as the specification `KerValue.W3_v15`
  (over `Ker0`, `Ker1`: what each region leaves in its output arrays; `KerA`, `KerBUpd`, `KerBCell`: the two bodies
  read at an entry); the reference's run re-posted with the specification is `RefB.run_out` (over `RefUpd`,
  `RefCell`).  The ideal pass rewrote nothing, so the idealization claim is `True`.
-/
import proofs.«162511_j86208583565576_1_alg».proof.Defs
import proofs.«162511_j86208583565576_1_alg».proof.Proof.Gen.Kernel
import proofs.«162511_j86208583565576_1_alg».proof.Proof.Gen.Kernel.Frame
import proofs.«162511_j86208583565576_1_alg».proof.Proof.Gen.KernelIdeal
import proofs.«162511_j86208583565576_1_alg».proof.Proof.Gen.KernelIdeal.Frame
import proofs.«162511_j86208583565576_1_alg».proof.Proof.Gen.ReferenceIdeal
import proofs.«162511_j86208583565576_1_alg».proof.Proof.Gen.Pre_finite_inputs
import proofs.«162511_j86208583565576_1_alg».proof.Proof.Gen.ReferenceIdeal.Run
import proofs.«162511_j86208583565576_1_alg».proof.Proof.KerRun
import proofs.«162511_j86208583565576_1_alg».proof.Proof.KerValue
import proofs.«162511_j86208583565576_1_alg».proof.Proof.KerBUpd
import proofs.«162511_j86208583565576_1_alg».proof.Proof.RefUpd
import proofs.«162511_j86208583565576_1_alg».proof.Proof.RefOut
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the specification of the arguments in their
    result buffers. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KerValue.W3_v15 m ρ Cert.KernelIdeal.KerB.updK_at c), (h c).2⟩)
      (Cert.KernelIdeal.KerRun.run_value m ρ)
  · refine (θ_run Cert.ReferenceIdeal.defs _ _).mono (fun r h c => ⟨(h c).1.trans ?_, (h c).2⟩)
      (Cert.ReferenceIdeal.RefB.run_out Cert.ReferenceIdeal.RefB.updR_at Cert.ReferenceIdeal.RefB.projR_at m' ρ')
    obtain ⟨h0, h1, h2, h3, h4, h5, h6, h7, h8, h9, h10⟩ := hagree c
    rw [h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
